-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x64x64 : Shape := ⟨4, ![8, 256, 64, 64]⟩
abbrev S_ : Shape := ⟨0, ![]⟩
abbrev S8x256x64 : Shape := ⟨3, ![8, 256, 64]⟩
abbrev S8x256 : Shape := ⟨2, ![8, 256]⟩
abbrev S256 : Shape := ⟨1, ![256]⟩
abbrev S1x256x1x1 : Shape := ⟨4, ![1, 256, 1, 1]⟩
abbrev S8x64x64 : Shape := ⟨3, ![8, 64, 64]⟩

class Facts : Prop where
  reducesTo_S8x256x64x64_S8x256x64_d3 : S8x256x64x64.ReducesTo [3] S8x256x64
  h_S_ : 0 < S_.numel
  bcast_S_S8x256x64 : S_.BroadcastsInDim S8x256x64 (![] : Fin 0 → Fin S8x256x64.rank)
  reducesTo_S8x256x64_S8x256_d2 : S8x256x64.ReducesTo [2] S8x256
  bcast_S_S8x256 : S_.BroadcastsInDim S8x256 (![] : Fin 0 → Fin S8x256.rank)
  reducesTo_S8x256_S256_d0 : S8x256.ReducesTo [0] S256
  bcast_S_S256 : S_.BroadcastsInDim S256 (![] : Fin 0 → Fin S256.rank)
  shapeCasts_S256_S1x256x1x1 : S256.ShapeCasts S1x256x1x1
  bcast_S1x256x1x1_S8x256x64x64_0_1_2_3 : S1x256x1x1.BroadcastsInDim S8x256x64x64 (![0, 1, 2, 3] : Fin 4 → Fin S8x256x64x64.rank)
  bcast_S_S8x256x64x64 : S_.BroadcastsInDim S8x256x64x64 (![] : Fin 0 → Fin S8x256x64x64.rank)
  reducesTo_S8x256x64x64_S_d0_1_2_3 : S8x256x64x64.ReducesTo [0, 1, 2, 3] S_
  reducesTo_S8x256x64x64_S8x64x64_d1 : S8x256x64x64.ReducesTo [1] S8x64x64
  bcast_S_S8x64x64 : S_.BroadcastsInDim S8x64x64 (![] : Fin 0 → Fin S8x64x64.rank)
  reducesTo_S8x64x64_S_d0_1_2 : S8x64x64.ReducesTo [0, 1, 2] S_

variable [Facts]

def fn_part2 {F : FTy → Type} [FloatOps F] (main_v29 : IVec S_ 1) (main_v32 : FVec F S8x64x64 .f32) (main_cst_12 : FVec F S_ .f32) : IVec S_ 1 :=
  let main_v33 : FVec F S8x64x64 .f32 := broadcastInDim S8x64x64 ![] bcast_S_S8x64x64 main_cst_12
  let main_v34 : IVec S8x64x64 1 := cmpf .ogt main_v32 main_v33
  let main_c_13 : IVec S_ 1 := constantI S_ 1 1#1
  let main_v35 : IVec S_ 1 := (fun x v => Host.reduce IntOp.andi x v reducesTo_S8x64x64_S_d0_1_2 h_S_) main_v34 main_c_13
  let main_v36 : IVec S_ 1 := andi main_v29 main_v35
  main_v36

def fn_part1 {F : FTy → Type} [FloatOps F] (main_arg1 : FVec F S8x256x64x64 .f32) (main_v11 : FVec F S8x256x64x64 .f32) (main_v13 : FVec F S8x256x64x64 .f32) (main_v16 : IVec S8x256x64x64 1) : IVec S_ 1 :=
  let main_c : IVec S_ 1 := constantI S_ 1 1#1
  let main_v17 : IVec S_ 1 := (fun x v => Host.reduce IntOp.andi x v reducesTo_S8x256x64x64_S_d0_1_2_3 h_S_) main_v16 main_c
  let main_v18 : FVec F S8x256x64x64 .f32 := Host.absf main_arg1
  let main_cst_6 : FVec F S_ .f32 := constant S_ .f32 0x7F800000#32
  let main_v19 : FVec F S8x256x64x64 .f32 := broadcastInDim S8x256x64x64 ![] bcast_S_S8x256x64x64 main_cst_6
  let main_v20 : IVec S8x256x64x64 1 := cmpf .olt main_v18 main_v19
  let main_c_7 : IVec S_ 1 := constantI S_ 1 1#1
  let main_v21 : IVec S_ 1 := (fun x v => Host.reduce IntOp.andi x v reducesTo_S8x256x64x64_S_d0_1_2_3 h_S_) main_v20 main_c_7
  let main_v22 : IVec S_ 1 := andi main_v17 main_v21
  let main_v23 : FVec F S8x256x64x64 .f32 := mulf main_v11 main_v11
  let main_cst_8 : FVec F S_ .f32 := constant S_ .f32 0x00000000#32
  let main_v24 : FVec F S8x64x64 .f32 := (fun x v => Host.reduceAdd x v reducesTo_S8x256x64x64_S8x64x64_d1 h_S_) main_v23 main_cst_8
  let main_v25 : FVec F S8x64x64 .f32 := Host.sqrt main_v24
  let main_cst_9 : FVec F S_ .f32 := constant S_ .f32 0x00000000#32
  let main_v26 : FVec F S8x64x64 .f32 := broadcastInDim S8x64x64 ![] bcast_S_S8x64x64 main_cst_9
  let main_v27 : IVec S8x64x64 1 := cmpf .ogt main_v25 main_v26
  let main_c_10 : IVec S_ 1 := constantI S_ 1 1#1
  let main_v28 : IVec S_ 1 := (fun x v => Host.reduce IntOp.andi x v reducesTo_S8x64x64_S_d0_1_2 h_S_) main_v27 main_c_10
  let main_v29 : IVec S_ 1 := andi main_v22 main_v28
  let main_v30 : FVec F S8x256x64x64 .f32 := mulf main_v13 main_v13
  let main_cst_11 : FVec F S_ .f32 := constant S_ .f32 0x00000000#32
  let main_v31 : FVec F S8x64x64 .f32 := (fun x v => Host.reduceAdd x v reducesTo_S8x256x64x64_S8x64x64_d1 h_S_) main_v30 main_cst_11
  let main_v32 : FVec F S8x64x64 .f32 := Host.sqrt main_v31
  let main_cst_12 : FVec F S_ .f32 := constant S_ .f32 0x00000000#32
  fn_part2 (F := F) main_v29 main_v32 main_cst_12

def fn {F : FTy → Type} [FloatOps F] (main_arg0 : FVec F S8x256x64x64 .f32) (main_arg1 : FVec F S8x256x64x64 .f32) : IVec S_ 1 :=
  let main_cst : FVec F S_ .f32 := constant S_ .f32 0x00000000#32
  let main_v0 : FVec F S8x256x64 .f32 := (fun x v => Host.reduceAdd x v reducesTo_S8x256x64x64_S8x256x64_d3 h_S_) main_arg1 main_cst
  let main_cst_0 : FVec F S_ .f32 := constant S_ .f32 0x42800000#32
  let main_v1 : FVec F S8x256x64 .f32 := broadcastInDim S8x256x64 ![] bcast_S_S8x256x64 main_cst_0
  let main_v2 : FVec F S8x256x64 .f32 := Host.divf main_v0 main_v1
  let main_cst_1 : FVec F S_ .f32 := constant S_ .f32 0x00000000#32
  let main_v3 : FVec F S8x256 .f32 := (fun x v => Host.reduceAdd x v reducesTo_S8x256x64_S8x256_d2 h_S_) main_v2 main_cst_1
  let main_cst_2 : FVec F S_ .f32 := constant S_ .f32 0x42800000#32
  let main_v4 : FVec F S8x256 .f32 := broadcastInDim S8x256 ![] bcast_S_S8x256 main_cst_2
  let main_v5 : FVec F S8x256 .f32 := Host.divf main_v3 main_v4
  let main_cst_3 : FVec F S_ .f32 := constant S_ .f32 0x00000000#32
  let main_v6 : FVec F S256 .f32 := (fun x v => Host.reduceAdd x v reducesTo_S8x256_S256_d0 h_S_) main_v5 main_cst_3
  let main_cst_4 : FVec F S_ .f32 := constant S_ .f32 0x41000000#32
  let main_v7 : FVec F S256 .f32 := broadcastInDim S256 ![] bcast_S_S256 main_cst_4
  let main_v8 : FVec F S256 .f32 := Host.divf main_v6 main_v7
  let main_v9 : FVec F S1x256x1x1 .f32 := shapeCast S1x256x1x1 main_v8 shapeCasts_S256_S1x256x1x1
  let main_v10 : FVec F S8x256x64x64 .f32 := broadcastInDim S8x256x64x64 ![0, 1, 2, 3] bcast_S1x256x1x1_S8x256x64x64_0_1_2_3 main_v9
  let main_v11 : FVec F S8x256x64x64 .f32 := subf main_arg0 main_v10
  let main_v12 : FVec F S8x256x64x64 .f32 := broadcastInDim S8x256x64x64 ![0, 1, 2, 3] bcast_S1x256x1x1_S8x256x64x64_0_1_2_3 main_v9
  let main_v13 : FVec F S8x256x64x64 .f32 := subf main_arg1 main_v12
  let main_v14 : FVec F S8x256x64x64 .f32 := Host.absf main_arg0
  let main_cst_5 : FVec F S_ .f32 := constant S_ .f32 0x7F800000#32
  let main_v15 : FVec F S8x256x64x64 .f32 := broadcastInDim S8x256x64x64 ![] bcast_S_S8x256x64x64 main_cst_5
  let main_v16 : IVec S8x256x64x64 1 := cmpf .olt main_v14 main_v15
  fn_part1 (F := F) main_arg1 main_v11 main_v13 main_v16
-- ==== Kernel.lean ====
abbrev S8x256x64x64 : Shape := ⟨4, ![8, 256, 64, 64]⟩
abbrev S_ : Shape := ⟨0, ![]⟩
abbrev S8x256x64 : Shape := ⟨3, ![8, 256, 64]⟩
abbrev S8x256 : Shape := ⟨2, ![8, 256]⟩
abbrev S256 : Shape := ⟨1, ![256]⟩
abbrev S1x256x1x1 : Shape := ⟨4, ![1, 256, 1, 1]⟩
abbrev S8x64x64 : Shape := ⟨3, ![8, 64, 64]⟩
abbrev S8x1x64x64 : Shape := ⟨4, ![8, 1, 64, 64]⟩
abbrev S8x256x4096 : Shape := ⟨3, ![8, 256, 4096]⟩
abbrev S8x4096 : Shape := ⟨2, ![8, 4096]⟩
abbrev S8x256x512 : Shape := ⟨3, ![8, 256, 512]⟩
abbrev S8x512 : Shape := ⟨2, ![8, 512]⟩
abbrev S8x512x512 : Shape := ⟨3, ![8, 512, 512]⟩
abbrev S8x512x1 : Shape := ⟨3, ![8, 512, 1]⟩
abbrev S8 : Shape := ⟨1, ![8]⟩

abbrev nBuf : Space → Nat
  | .hbm => 57
  | .vmem => 22
  | .smem => 0
  | _ => 0

abbrev bufTy : (tb : Table) → Fin (tcTables nBuf tb) → BufTy
  | .hbm, ⟨0, _⟩ => ⟨S8x256x64x64, .f32⟩
  | .hbm, ⟨1, _⟩ => ⟨S8x256x64x64, .f32⟩
  | .hbm, ⟨2, _⟩ => ⟨S_, .f32⟩
  | .hbm, ⟨3, _⟩ => ⟨S8x256x64, .f32⟩
  | .hbm, ⟨4, _⟩ => ⟨S_, .f32⟩
  | .hbm, ⟨5, _⟩ => ⟨S8x256x64, .f32⟩
  | .hbm, ⟨6, _⟩ => ⟨S8x256x64, .f32⟩
  | .hbm, ⟨7, _⟩ => ⟨S_, .f32⟩
  | .hbm, ⟨8, _⟩ => ⟨S8x256, .f32⟩
  | .hbm, ⟨9, _⟩ => ⟨S_, .f32⟩
  | .hbm, ⟨10, _⟩ => ⟨S8x256, .f32⟩
  | .hbm, ⟨11, _⟩ => ⟨S8x256, .f32⟩
  | .hbm, ⟨12, _⟩ => ⟨S_, .f32⟩
  | .hbm, ⟨13, _⟩ => ⟨S256, .f32⟩
  | .hbm, ⟨14, _⟩ => ⟨S_, .f32⟩
  | .hbm, ⟨15, _⟩ => ⟨S256, .f32⟩
  | .hbm, ⟨16, _⟩ => ⟨S256, .f32⟩
  | .hbm, ⟨17, _⟩ => ⟨S1x256x1x1, .f32⟩
  | .hbm, ⟨18, _⟩ => ⟨S8x256x64x64, .f32⟩
  | .hbm, ⟨19, _⟩ => ⟨S8x256x64x64, .f32⟩
  | .hbm, ⟨20, _⟩ => ⟨S8x256x64x64, .f32⟩
  | .hbm, ⟨21, _⟩ => ⟨S8x256x64x64, .f32⟩
  | .hbm, ⟨22, _⟩ => ⟨S8x256x64x64, .f32⟩
  | .hbm, ⟨23, _⟩ => ⟨S_, .f32⟩
  | .hbm, ⟨24, _⟩ => ⟨S8x64x64, .f32⟩
  | .hbm, ⟨25, _⟩ => ⟨S8x1x64x64, .f32⟩
  | .hbm, ⟨26, _⟩ => ⟨S8x1x64x64, .f32⟩
  | .hbm, ⟨27, _⟩ => ⟨S8x256x64x64, .f32⟩
  | .hbm, ⟨28, _⟩ => ⟨S8x256x64x64, .f32⟩
  | .hbm, ⟨29, _⟩ => ⟨S8x256x64x64, .f32⟩
  | .hbm, ⟨30, _⟩ => ⟨S_, .f32⟩
  | .hbm, ⟨31, _⟩ => ⟨S8x64x64, .f32⟩
  | .hbm, ⟨32, _⟩ => ⟨S8x1x64x64, .f32⟩
  | .hbm, ⟨33, _⟩ => ⟨S8x1x64x64, .f32⟩
  | .hbm, ⟨34, _⟩ => ⟨S8x256x64x64, .f32⟩
  | .hbm, ⟨35, _⟩ => ⟨S8x256x64x64, .f32⟩
  | .hbm, ⟨36, _⟩ => ⟨S8x256x4096, .f32⟩
  | .hbm, ⟨37, _⟩ => ⟨S8x256x4096, .f32⟩
  | .hbm, ⟨38, _⟩ => ⟨S8x256x4096, .bf16⟩
  | .hbm, ⟨39, _⟩ => ⟨S8x256x4096, .bf16⟩
  | .hbm, ⟨40, _⟩ => ⟨S8x4096, .f32⟩
  | .hbm, ⟨41, _⟩ => ⟨S8x4096, .f32⟩
  | .hbm, ⟨42, _⟩ => ⟨S8x4096, .f32⟩
  | .hbm, ⟨43, _⟩ => ⟨S_, .f32⟩
  | .hbm, ⟨44, _⟩ => ⟨S8, .f32⟩
  | .hbm, ⟨45, _⟩ => ⟨S_, .f32⟩
  | .hbm, ⟨46, _⟩ => ⟨S8, .f32⟩
  | .hbm, ⟨47, _⟩ => ⟨S8, .f32⟩
  | .hbm, ⟨48, _⟩ => ⟨S_, .f32⟩
  | .hbm, ⟨49, _⟩ => ⟨S8, .f32⟩
  | .hbm, ⟨50, _⟩ => ⟨S8, .f32⟩
  | .hbm, ⟨51, _⟩ => ⟨S8, .f32⟩
  | .hbm, ⟨52, _⟩ => ⟨S8, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .local _ .vmem, ⟨0, _⟩ => ⟨S8x256x512, .bf16⟩
  | .local _ .vmem, ⟨1, _⟩ => ⟨S8x256x512, .bf16⟩
  | .local _ .vmem, ⟨2, _⟩ => ⟨S8x256x4096, .bf16⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x256x512, .bf16⟩
  | .local _ .vmem, ⟨7, _⟩ => ⟨S8x256x512, .bf16⟩
  | .local _ .vmem, ⟨8, _⟩ => ⟨S8x256x4096, .bf16⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S8x256x4096, .bf16⟩
  | .local _ .vmem, ⟨15, _⟩ => ⟨S8x256x512, .bf16⟩
  | .local _ .vmem, ⟨16, _⟩ => ⟨S8x256x512, .bf16⟩
  | .local _ .vmem, ⟨17, _⟩ => ⟨S8x4096, .f32⟩
  | .local _ .vmem, ⟨18, _⟩ => ⟨S8x4096, .f32⟩
  | .local _ .vmem, ⟨19, _⟩ => ⟨S8x512, .f32⟩
  | .local _ .vmem, ⟨20, _⟩ => ⟨S8x512, .f32⟩
  | .local _ .vmem, ⟨21, _⟩ => ⟨S8x512, .f32⟩
  | _, _ => ⟨S8x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_cst_3 : Ref sig .tc := ⟨.hbm, 12, rfl⟩
abbrev main_v6 : Ref sig .tc := ⟨.hbm, 13, rfl⟩
abbrev main_cst_4 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_call0_v2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_v0 : Ref sig .tc := ⟨.hbm, 29, rfl⟩
abbrev main_call1_cst : Ref sig .tc := ⟨.hbm, 30, rfl⟩
abbrev main_call1_v1 : Ref sig .tc := ⟨.hbm, 31, rfl⟩
abbrev main_call1_v2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_5 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_cst_7 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_cst_9 : Ref sig .tc := ⟨.hbm, 55, rfl⟩
abbrev main_v35 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc2_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem4_1 : DmaSem sig := 18

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_mult1 (k0_t1 : Fin k0_t1_loop.trips) : BitVec 32 :=
  let c0_i32_8 : BitVec 32 := 0#32
  let c0_i32 : BitVec 32 := 0#32
  let c1_i32 : BitVec 32 := 1#32
  let arg5 : BitVec 32 := Scf.iv c0_i32 c1_i32 k0_t1
  let c1_i32_7 : BitVec 32 := 1#32
  let v9 : BitVec 32 := Scalar.muli arg5 c1_i32_7
  let v10 : BitVec 32 := Scalar.addi c0_i32_8 v9
  let c512_i32 : BitVec 32 := 512#32
  let v11 : BitVec 32 := Scalar.muli v10 c512_i32
  v11
def k0_off1 (k0_t1 : Fin k0_t1_loop.trips) : Fin 3 → Nat :=
  let c0_9 : Index := 0#32
  let c0_10 : Index := 0#32
  let c0_i32_8 : BitVec 32 := 0#32
  let c0_i32 : BitVec 32 := 0#32
  let c1_i32 : BitVec 32 := 1#32
  let arg5 : BitVec 32 := Scf.iv c0_i32 c1_i32 k0_t1
  let c1_i32_7 : BitVec 32 := 1#32
  let v9 : BitVec 32 := Scalar.muli arg5 c1_i32_7
  let v10 : BitVec 32 := Scalar.addi c0_i32_8 v9
  let c512_i32 : BitVec 32 := 512#32
  let v11 : BitVec 32 := Scalar.muli v10 c512_i32
  let v12 : BitVec 32 := v11
  let v13 : Index := Scalar.indexCast v12
  ![0, 0, v13.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

@[reducible] def k1_t1_loop : Scf.Loop 32 :=
  let c0_i32 : BitVec 32 := 0#32
  let c8_i32 : BitVec 32 := 8#32
  let v18 : BitVec 32 := Scalar.addi c0_i32 c8_i32
  let c1_i32 : BitVec 32 := 1#32
  ⟨c0_i32, v18, c1_i32⟩
def k1_mult1 (k1_t1 : Fin k1_t1_loop.trips) : BitVec 32 :=
  let c0_i32_14 : BitVec 32 := 0#32
  let c0_i32 : BitVec 32 := 0#32
  let c1_i32 : BitVec 32 := 1#32
  let arg6 : BitVec 32 := Scf.iv c0_i32 c1_i32 k1_t1
  let c1_i32_13 : BitVec 32 := 1#32
  let v21 : BitVec 32 := Scalar.muli arg6 c1_i32_13
  let v22 : BitVec 32 := Scalar.addi c0_i32_14 v21
  let c512_i32 : BitVec 32 := 512#32
  let v23 : BitVec 32 := Scalar.muli v22 c512_i32
  v23
def k1_off1 (k1_t1 : Fin k1_t1_loop.trips) : Fin 3 → Nat :=
  let c0_15 : Index := 0#32
  let c0_16 : Index := 0#32
  let c0_i32_14 : BitVec 32 := 0#32
  let c0_i32 : BitVec 32 := 0#32
  let c1_i32 : BitVec 32 := 1#32
  let arg6 : BitVec 32 := Scf.iv c0_i32 c1_i32 k1_t1
  let c1_i32_13 : BitVec 32 := 1#32
  let v21 : BitVec 32 := Scalar.muli arg6 c1_i32_13
  let v22 : BitVec 32 := Scalar.addi c0_i32_14 v21
  let c512_i32 : BitVec 32 := 512#32
  let v23 : BitVec 32 := Scalar.muli v22 c512_i32
  let v24 : BitVec 32 := v23
  let v25 : Index := Scalar.indexCast v24
  ![0, 0, v25.toNat]
def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S8x256x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x256x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

@[reducible] def k2_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k2_mult1 (k2_t1 : Fin k2_t1_loop.trips) : BitVec 32 :=
  let c0_i32_7 : BitVec 32 := 0#32
  let c0_i32 : BitVec 32 := 0#32
  let c1_i32 : BitVec 32 := 1#32
  let arg7 : BitVec 32 := Scf.iv c0_i32 c1_i32 k2_t1
  let c1_i32_6 : BitVec 32 := 1#32
  let v7 : BitVec 32 := Scalar.muli arg7 c1_i32_6
  let v8 : BitVec 32 := Scalar.addi c0_i32_7 v7
  let c512_i32 : BitVec 32 := 512#32
  let v9 : BitVec 32 := Scalar.muli v8 c512_i32
  v9
def k2_off1 (k2_t1 : Fin k2_t1_loop.trips) : Fin 3 → Nat :=
  let c0_8 : Index := 0#32
  let c0_9 : Index := 0#32
  let c0_i32_7 : BitVec 32 := 0#32
  let c0_i32 : BitVec 32 := 0#32
  let c1_i32 : BitVec 32 := 1#32
  let arg7 : BitVec 32 := Scf.iv c0_i32 c1_i32 k2_t1
  let c1_i32_6 : BitVec 32 := 1#32
  let v7 : BitVec 32 := Scalar.muli arg7 c1_i32_6
  let v8 : BitVec 32 := Scalar.addi c0_i32_7 v7
  let c512_i32 : BitVec 32 := 512#32
  let v9 : BitVec 32 := Scalar.muli v8 c512_i32
  let v10 : BitVec 32 := v9
  let v11 : Index := Scalar.indexCast v10
  ![0, 0, v11.toNat]
def k2_off2 (k2_t1 : Fin k2_t1_loop.trips) : Fin 2 → Nat :=
  let c0_10 : Index := 0#32
  let c0_i32_7 : BitVec 32 := 0#32
  let c0_i32 : BitVec 32 := 0#32
  let c1_i32 : BitVec 32 := 1#32
  let arg7 : BitVec 32 := Scf.iv c0_i32 c1_i32 k2_t1
  let c1_i32_6 : BitVec 32 := 1#32
  let v7 : BitVec 32 := Scalar.muli arg7 c1_i32_6
  let v8 : BitVec 32 := Scalar.addi c0_i32_7 v7
  let c512_i32 : BitVec 32 := 512#32
  let v9 : BitVec 32 := Scalar.muli v8 c512_i32
  let v10 : BitVec 32 := v9
  let v14 : Index := Scalar.indexCast v10
  ![0, v14.toNat]
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 1 → Memref sig .tc .vmem S8x256x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S8x256x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8x4096 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  reducesTo_S8x256x64x64_S8x256x64_d3 : S8x256x64x64.ReducesTo [3] S8x256x64
  h_S_ : 0 < S_.numel
  bcast_S_S8x256x64 : S_.BroadcastsInDim S8x256x64 (![] : Fin 0 → Fin S8x256x64.rank)
  reducesTo_S8x256x64_S8x256_d2 : S8x256x64.ReducesTo [2] S8x256
  bcast_S_S8x256 : S_.BroadcastsInDim S8x256 (![] : Fin 0 → Fin S8x256.rank)
  reducesTo_S8x256_S256_d0 : S8x256.ReducesTo [0] S256
  bcast_S_S256 : S_.BroadcastsInDim S256 (![] : Fin 0 → Fin S256.rank)
  shapeCasts_S256_S1x256x1x1 : S256.ShapeCasts S1x256x1x1
  bcast_S1x256x1x1_S8x256x64x64_0_1_2_3 : S1x256x1x1.BroadcastsInDim S8x256x64x64 (![0, 1, 2, 3] : Fin 4 → Fin S8x256x64x64.rank)
  reducesTo_S8x256x64x64_S8x64x64_d1 : S8x256x64x64.ReducesTo [1] S8x64x64
  bcast_S8x64x64_S8x1x64x64_0_2_3 : S8x64x64.BroadcastsInDim S8x1x64x64 (![0, 2, 3] : Fin 3 → Fin S8x1x64x64.rank)
  bcast_S8x1x64x64_S8x256x64x64_0_1_2_3 : S8x1x64x64.BroadcastsInDim S8x256x64x64 (![0, 1, 2, 3] : Fin 4 → Fin S8x256x64x64.rank)
  shapeCasts_S8x256x64x64_S8x256x4096 : S8x256x64x64.ShapeCasts S8x256x4096
  bitsLt_bf16_f32 : FTy.bits .bf16 < FTy.bits .f32
  inb_S8x512_S8x512_0_0 : ∀ a, (![0, 0] : Fin 2 → Nat) a + S8x512.size a ≤ S8x512.size a
  h_S8x512 : 0 < S8x512.numel
  shapeCasts_S8x512_S8x512 : S8x512.ShapeCasts S8x512
  h_S8x256x512 : 0 < S8x256x512.numel
  shapeCasts_S8x256x512_S8x256x512 : S8x256x512.ShapeCasts S8x256x512
  inb_S8x256x512_S8x256x512_0_0_0 : ∀ a, (![0, 0, 0] : Fin 3 → Nat) a + S8x256x512.size a ≤ S8x256x512.size a
  reduces_S8x512x512_S8x512 : S8x512x512.Reduces [2] S8x512
  shapeCasts_S8x512_S8x512x1 : S8x512.ShapeCasts S8x512x1
  broadcasts_S8x512x1_S8x512x512 : S8x512x1.Broadcasts S8x512x512
  reduces_S8x512x512_S8x512_2 : S8x512x512.Reduces [1] S8x512
  reducesTo_S8x4096_S8_d1 : S8x4096.ReducesTo [1] S8
  bcast_S_S8 : S_.BroadcastsInDim S8 (![] : Fin 0 → Fin S8.rank)
  reducesTo_S8_S_d0 : S8.ReducesTo [0] S_
  dot_S8x256x512_S8x256x512_S8x512x512_1_1_2_2_0_0_wf : DotDims.WF S8x256x512 S8x256x512 S8x512x512 [1] [1] [2] [2] [0] [0]
  hrank0 : 0 < grid0.rank
  k0_t1_ok : k0_t1_loop.OK
  k0_mult1_dvd : ∀ k0_t1 : Fin k0_t1_loop.trips, 512 ∣ (k0_mult1 k0_t1).toNat
  k0_off1_inb : ∀ k0_t1 : Fin k0_t1_loop.trips, ∀ a, (k0_off1 k0_t1) a + S8x256x512.size a ≤ S8x256x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x512.size a ≤ S8x256x4096.size a
  hwx0_0 : ∀ i : grid0.Coords, EltTy.bits .bf16 = 32 ∨ (Rect.block (s := S8x256x4096) S8x256x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x256x4096.size a ≤ S8x256x4096.size a
  hwx0_1 : ∀ i : grid0.Coords, EltTy.bits .bf16 = 32 ∨ (Rect.block (s := S8x256x4096) S8x256x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512.size a ≤ S8x4096.size a
  hwx0_2 : ∀ i : grid0.Coords, EltTy.bits .f32 = 32 ∨ (Rect.block (s := S8x4096) S8x512.size (cc0_transform_2 i) (hinb0_2 i)).WholeWords (EltTy.packing .f32)
  hrank1 : 0 < grid1.rank
  k1_t1_ok : k1_t1_loop.OK
  k1_mult1_dvd : ∀ k1_t1 : Fin k1_t1_loop.trips, 512 ∣ (k1_mult1 k1_t1).toNat
  k1_off1_inb : ∀ k1_t1 : Fin k1_t1_loop.trips, ∀ a, (k1_off1 k1_t1) a + S8x256x512.size a ≤ S8x256x4096.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x512.size a ≤ S8x256x4096.size a
  hwx1_0 : ∀ i : grid1.Coords, EltTy.bits .bf16 = 32 ∨ (Rect.block (s := S8x256x4096) S8x256x512.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8x256x4096.size a ≤ S8x256x4096.size a
  hwx1_1 : ∀ i : grid1.Coords, EltTy.bits .bf16 = 32 ∨ (Rect.block (s := S8x256x4096) S8x256x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x512.size a ≤ S8x4096.size a
  hwx1_2 : ∀ i : grid1.Coords, EltTy.bits .f32 = 32 ∨ (Rect.block (s := S8x4096) S8x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x512.size a ≤ S8x4096.size a
  hwx1_3 : ∀ i : grid1.Coords, EltTy.bits .f32 = 32 ∨ (Rect.block (s := S8x4096) S8x512.size (cc1_transform_3 i) (hinb1_3 i)).WholeWords (EltTy.packing .f32)
  hrank2 : 0 < grid2.rank
  k2_t1_ok : k2_t1_loop.OK
  k2_mult1_dvd : ∀ k2_t1 : Fin k2_t1_loop.trips, 512 ∣ (k2_mult1 k2_t1).toNat
  k2_off1_inb : ∀ k2_t1 : Fin k2_t1_loop.trips, ∀ a, (k2_off1 k2_t1) a + S8x256x512.size a ≤ S8x256x4096.size a
  k2_off2_inb : ∀ k2_t1 : Fin k2_t1_loop.trips, ∀ a, (k2_off2 k2_t1) a + S8x512.size a ≤ S8x4096.size a
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S8x256x4096.size a ≤ S8x256x4096.size a
  hwx2_0 : ∀ i : grid2.Coords, EltTy.bits .bf16 = 32 ∨ (Rect.block (s := S8x256x4096) S8x256x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8x256x512.size a ≤ S8x256x4096.size a
  hwx2_1 : ∀ i : grid2.Coords, EltTy.bits .bf16 = 32 ∨ (Rect.block (s := S8x256x4096) S8x256x512.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S8x4096.size a ≤ S8x4096.size a
  hwx2_2 : ∀ i : grid2.Coords, EltTy.bits .f32 = 32 ∨ (Rect.block (s := S8x4096) S8x4096.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S8x4096.size a ≤ S8x4096.size a
  hwx2_3 : ∀ i : grid2.Coords, EltTy.bits .f32 = 32 ∨ (Rect.block (s := S8x4096) S8x4096.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8x512.size a ≤ S8x4096.size a
  hwx2_4 : ∀ i : grid2.Coords, EltTy.bits .f32 = 32 ∨ (Rect.block (s := S8x4096) S8x512.size (cc2_transform_4 i) (hinb2_4 i)).WholeWords (EltTy.packing .f32)

variable [Facts₀]

def dot_S8x256x512_S8x256x512_S8x512x512_1_1_2_2_0_0 : DotDims S8x256x512 S8x256x512 S8x512x512 where
  lhsContracting := [1]
  rhsContracting := [1]
  lhsNonContracting := [2]
  rhsNonContracting := [2]
  lhsBatch := [0]
  rhsBatch := [0]
  wf := dot_S8x256x512_S8x256x512_S8x512x512_1_1_2_2_0_0_wf

abbrev win0_0 : Pipeline.Window sig grid0 :=
  Pipeline.Window.ofSpec (Memref.whole main_v22) S8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S8x256x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S8x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v22) S8x256x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S8x256x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S8x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S8x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v22) S8x256x4096.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v23) S8x256x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v24) S8x4096.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v25) S8x4096.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v26) S8x512.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S8x256x64x64 : Shape := ⟨4, ![8, 256, 64, 64]⟩
abbrev S_ : Shape := ⟨0, ![]⟩
abbrev S8x256x64 : Shape := ⟨3, ![8, 256, 64]⟩
abbrev S8x256 : Shape := ⟨2, ![8, 256]⟩
abbrev S256 : Shape := ⟨1, ![256]⟩
abbrev S1x256x1x1 : Shape := ⟨4, ![1, 256, 1, 1]⟩
abbrev S8x64x64 : Shape := ⟨3, ![8, 64, 64]⟩
abbrev S8x1x64x64 : Shape := ⟨4, ![8, 1, 64, 64]⟩
abbrev S8x256x4096 : Shape := ⟨3, ![8, 256, 4096]⟩
abbrev S8x4096x4096 : Shape := ⟨3, ![8, 4096, 4096]⟩
abbrev S8x4096 : Shape := ⟨2, ![8, 4096]⟩
abbrev S8x4096x1 : Shape := ⟨3, ![8, 4096, 1]⟩
abbrev S8 : Shape := ⟨1, ![8]⟩

abbrev nBuf : Space → Nat
  | .hbm => 78
  | .vmem => 0
  | .smem => 0
  | _ => 0

abbrev bufTy : (tb : Table) → Fin (tcTables nBuf tb) → BufTy
  | .hbm, ⟨0, _⟩ => ⟨S8x256x64x64, .f32⟩
  | .hbm, ⟨1, _⟩ => ⟨S8x256x64x64, .f32⟩
  | .hbm, ⟨2, _⟩ => ⟨S_, .f32⟩
  | .hbm, ⟨3, _⟩ => ⟨S8x256x64, .f32⟩
  | .hbm, ⟨4, _⟩ => ⟨S_, .f32⟩
  | .hbm, ⟨5, _⟩ => ⟨S8x256x64, .f32⟩
  | .hbm, ⟨6, _⟩ => ⟨S8x256x64, .f32⟩
  | .hbm, ⟨7, _⟩ => ⟨S_, .f32⟩
  | .hbm, ⟨8, _⟩ => ⟨S8x256, .f32⟩
  | .hbm, ⟨9, _⟩ => ⟨S_, .f32⟩
  | .hbm, ⟨10, _⟩ => ⟨S8x256, .f32⟩
  | .hbm, ⟨11, _⟩ => ⟨S8x256, .f32⟩
  | .hbm, ⟨12, _⟩ => ⟨S_, .f32⟩
  | .hbm, ⟨13, _⟩ => ⟨S256, .f32⟩
  | .hbm, ⟨14, _⟩ => ⟨S_, .f32⟩
  | .hbm, ⟨15, _⟩ => ⟨S256, .f32⟩
  | .hbm, ⟨16, _⟩ => ⟨S256, .f32⟩
  | .hbm, ⟨17, _⟩ => ⟨S1x256x1x1, .f32⟩
  | .hbm, ⟨18, _⟩ => ⟨S8x256x64x64, .f32⟩
  | .hbm, ⟨19, _⟩ => ⟨S8x256x64x64, .f32⟩
  | .hbm, ⟨20, _⟩ => ⟨S8x256x64x64, .f32⟩
  | .hbm, ⟨21, _⟩ => ⟨S8x256x64x64, .f32⟩
  | .hbm, ⟨22, _⟩ => ⟨S8x256x64x64, .f32⟩
  | .hbm, ⟨23, _⟩ => ⟨S_, .f32⟩
  | .hbm, ⟨24, _⟩ => ⟨S8x64x64, .f32⟩
  | .hbm, ⟨25, _⟩ => ⟨S8x1x64x64, .f32⟩
  | .hbm, ⟨26, _⟩ => ⟨S8x1x64x64, .f32⟩
  | .hbm, ⟨27, _⟩ => ⟨S8x256x64x64, .f32⟩
  | .hbm, ⟨28, _⟩ => ⟨S8x256x64x64, .f32⟩
  | .hbm, ⟨29, _⟩ => ⟨S8x256x64x64, .f32⟩
  | .hbm, ⟨30, _⟩ => ⟨S_, .f32⟩
  | .hbm, ⟨31, _⟩ => ⟨S8x64x64, .f32⟩
  | .hbm, ⟨32, _⟩ => ⟨S8x1x64x64, .f32⟩
  | .hbm, ⟨33, _⟩ => ⟨S8x1x64x64, .f32⟩
  | .hbm, ⟨34, _⟩ => ⟨S8x256x64x64, .f32⟩
  | .hbm, ⟨35, _⟩ => ⟨S8x256x64x64, .f32⟩
  | .hbm, ⟨36, _⟩ => ⟨S8x256x4096, .f32⟩
  | .hbm, ⟨37, _⟩ => ⟨S8x256x4096, .f32⟩
  | .hbm, ⟨38, _⟩ => ⟨S8x4096x4096, .f32⟩
  | .hbm, ⟨39, _⟩ => ⟨S_, .f32⟩
  | .hbm, ⟨40, _⟩ => ⟨S8x4096x4096, .f32⟩
  | .hbm, ⟨41, _⟩ => ⟨S8x4096x4096, .f32⟩
  | .hbm, ⟨42, _⟩ => ⟨S_, .f32⟩
  | .hbm, ⟨43, _⟩ => ⟨S8x4096, .f32⟩
  | .hbm, ⟨44, _⟩ => ⟨S8x4096x1, .f32⟩
  | .hbm, ⟨45, _⟩ => ⟨S_, .f32⟩
  | .hbm, ⟨46, _⟩ => ⟨S8x4096x1, .f32⟩
  | .hbm, ⟨47, _⟩ => ⟨S8x4096x1, .f32⟩
  | .hbm, ⟨48, _⟩ => ⟨S8x4096x4096, .f32⟩
  | .hbm, ⟨49, _⟩ => ⟨S8x4096x4096, .f32⟩
  | .hbm, ⟨50, _⟩ => ⟨S_, .f32⟩
  | .hbm, ⟨51, _⟩ => ⟨S8x4096x4096, .f32⟩
  | .hbm, ⟨52, _⟩ => ⟨S8x4096x4096, .f32⟩
  | .hbm, ⟨53, _⟩ => ⟨S_, .f32⟩
  | .hbm, ⟨54, _⟩ => ⟨S8x4096x4096, .f32⟩
  | .hbm, ⟨55, _⟩ => ⟨S8x4096x4096, .f32⟩
  | .hbm, ⟨56, _⟩ => ⟨S8x4096x4096, .f32⟩
  | .hbm, ⟨57, _⟩ => ⟨S_, .f32⟩
  | .hbm, ⟨58, _⟩ => ⟨S8x4096, .f32⟩
  | .hbm, ⟨59, _⟩ => ⟨S8x4096x1, .f32⟩
  | .hbm, ⟨60, _⟩ => ⟨S8x4096x4096, .f32⟩
  | .hbm, ⟨61, _⟩ => ⟨S8x4096x4096, .f32⟩
  | .hbm, ⟨62, _⟩ => ⟨S_, .f32⟩
  | .hbm, ⟨63, _⟩ => ⟨S8x4096, .f32⟩
  | .hbm, ⟨64, _⟩ => ⟨S_, .f32⟩
  | .hbm, ⟨65, _⟩ => ⟨S8, .f32⟩
  | .hbm, ⟨66, _⟩ => ⟨S_, .f32⟩
  | .hbm, ⟨67, _⟩ => ⟨S8, .f32⟩
  | .hbm, ⟨68, _⟩ => ⟨S8, .f32⟩
  | .hbm, ⟨69, _⟩ => ⟨S_, .f32⟩
  | .hbm, ⟨70, _⟩ => ⟨S8, .f32⟩
  | .hbm, ⟨71, _⟩ => ⟨S8, .f32⟩
  | .hbm, ⟨72, _⟩ => ⟨S8, .f32⟩
  | .hbm, ⟨73, _⟩ => ⟨S8, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S8x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_cst_3 : Ref sig .tc := ⟨.hbm, 12, rfl⟩
abbrev main_v6 : Ref sig .tc := ⟨.hbm, 13, rfl⟩
abbrev main_cst_4 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_call0_v2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_v0 : Ref sig .tc := ⟨.hbm, 29, rfl⟩
abbrev main_call1_cst : Ref sig .tc := ⟨.hbm, 30, rfl⟩
abbrev main_call1_v1 : Ref sig .tc := ⟨.hbm, 31, rfl⟩
abbrev main_call1_v2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_10 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_11 : Ref sig .tc := ⟨.hbm, 62, rfl⟩
abbrev main_v40 : Ref sig .tc := ⟨.hbm, 63, rfl⟩
abbrev main_cst_12 : Ref sig .tc := ⟨.hbm, 64, rfl⟩
abbrev main_v41 : Ref sig .tc := ⟨.hbm, 65, rfl⟩
abbrev main_cst_13 : Ref sig .tc := ⟨.hbm, 66, rfl⟩
abbrev main_v42 : Ref sig .tc := ⟨.hbm, 67, rfl⟩
abbrev main_v43 : Ref sig .tc := ⟨.hbm, 68, rfl⟩
abbrev main_cst_14 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_15 : Ref sig .tc := ⟨.hbm, 74, rfl⟩
abbrev main_v48 : Ref sig .tc := ⟨.hbm, 75, rfl⟩
abbrev main_cst_16 : Ref sig .tc := ⟨.hbm, 76, rfl⟩
abbrev main_v49 : Ref sig .tc := ⟨.hbm, 77, rfl⟩

abbrev nD : Nat := 1
abbrev τ : Topo := Topo.v7x

variable {F : FTy → Type} [FloatOps F]

class Facts₀ : Prop where
  reducesTo_S8x256x64x64_S8x256x64_d3 : S8x256x64x64.ReducesTo [3] S8x256x64
  h_S_ : 0 < S_.numel
  bcast_S_S8x256x64 : S_.BroadcastsInDim S8x256x64 (![] : Fin 0 → Fin S8x256x64.rank)
  reducesTo_S8x256x64_S8x256_d2 : S8x256x64.ReducesTo [2] S8x256
  bcast_S_S8x256 : S_.BroadcastsInDim S8x256 (![] : Fin 0 → Fin S8x256.rank)
  reducesTo_S8x256_S256_d0 : S8x256.ReducesTo [0] S256
  bcast_S_S256 : S_.BroadcastsInDim S256 (![] : Fin 0 → Fin S256.rank)
  shapeCasts_S256_S1x256x1x1 : S256.ShapeCasts S1x256x1x1
  bcast_S1x256x1x1_S8x256x64x64_0_1_2_3 : S1x256x1x1.BroadcastsInDim S8x256x64x64 (![0, 1, 2, 3] : Fin 4 → Fin S8x256x64x64.rank)
  reducesTo_S8x256x64x64_S8x64x64_d1 : S8x256x64x64.ReducesTo [1] S8x64x64
  bcast_S8x64x64_S8x1x64x64_0_2_3 : S8x64x64.BroadcastsInDim S8x1x64x64 (![0, 2, 3] : Fin 3 → Fin S8x1x64x64.rank)
  bcast_S8x1x64x64_S8x256x64x64_0_1_2_3 : S8x1x64x64.BroadcastsInDim S8x256x64x64 (![0, 1, 2, 3] : Fin 4 → Fin S8x256x64x64.rank)
  shapeCasts_S8x256x64x64_S8x256x4096 : S8x256x64x64.ShapeCasts S8x256x4096
  bcast_S_S8x4096x4096 : S_.BroadcastsInDim S8x4096x4096 (![] : Fin 0 → Fin S8x4096x4096.rank)
  reducesTo_S8x4096x4096_S8x4096_d2 : S8x4096x4096.ReducesTo [2] S8x4096
  bcast_S8x4096_S8x4096x1_0_1 : S8x4096.BroadcastsInDim S8x4096x1 (![0, 1] : Fin 2 → Fin S8x4096x1.rank)
  bcast_S_S8x4096x1 : S_.BroadcastsInDim S8x4096x1 (![] : Fin 0 → Fin S8x4096x1.rank)
  bcast_S8x4096x1_S8x4096x4096_0_1_2 : S8x4096x1.BroadcastsInDim S8x4096x4096 (![0, 1, 2] : Fin 3 → Fin S8x4096x4096.rank)
  reducesTo_S8x4096x4096_S8x4096_d1 : S8x4096x4096.ReducesTo [1] S8x4096
  reducesTo_S8x4096_S8_d1 : S8x4096.ReducesTo [1] S8
  bcast_S_S8 : S_.BroadcastsInDim S8 (![] : Fin 0 → Fin S8.rank)
  reducesTo_S8_S_d0 : S8.ReducesTo [0] S_
  dot_S8x256x4096_S8x256x4096_S8x4096x4096_1_1_2_2_0_0_wf : DotDims.WF S8x256x4096 S8x256x4096 S8x4096x4096 [1] [1] [2] [2] [0] [0]

variable [Facts₀]

def dot_S8x256x4096_S8x256x4096_S8x4096x4096_1_1_2_2_0_0 : DotDims S8x256x4096 S8x256x4096 S8x4096x4096 where
  lhsContracting := [1]
  rhsContracting := [1]
  lhsNonContracting := [2]
  rhsNonContracting := [2]
  lhsBatch := [0]
  rhsBatch := [0]
  wf := dot_S8x256x4096_S8x256x4096_S8x4096x4096_1_1_2_2_0_0_wf

class Facts : Prop extends Facts₀ where

variable [Facts]
-- ==== Proof.KeepResult.lean ====
import proofs.«135057_j1580547971557_2_alg».proof.Proof.Gen.KernelIdeal.Frame

/-!
# The run, with the result kept

The program is five stretches of host operations, three kernel regions and a last stretch of host operations.
Write `W0` for the buffer contents at launch and `W1, …, W9` for the contents after each of these nine segments
in turn (a host stretch applies its operations; a region replaces the arrays it writes by what its write-backs
leave). Every weakly fair execution ends with EVERY buffer that is not a kernel's own at its `W9` contents. The
statement below keeps, of those, the result buffer and the two argument arrays: the result is whatever `W9` holds
there, the arguments are as launched.
-/

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; the result buffer ends at its contents after the
    ninth segment, and the argument arrays end as launched. -/
theorem run_result : θ_run defs (onTc (τ := τ) (main (F := F))) ⟨m, fun _ => 0, ρ⟩ (fun r => ∀ c : Dev nD,
      r.2.mem ((c.tc : Thread nD τ).loc main_v35) = W9 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v35 (by decide)),
       (h c _ (mem_uc main_arg0 (by decide))).trans (W9_main_arg0 m ρ c),
       (h c _ (mem_uc main_arg1 (by decide))).trans (W9_main_arg1 m ρ c)⟩)

end Cert.KernelIdeal.Result

end
-- ==== Proof.Tail.lean ====
import proofs.«135057_j1580547971557_2_alg».proof.Proof.Gen.KernelIdeal.Frame
import proofs.«135057_j1580547971557_2_alg».proof.Proof.Gen.ReferenceIdeal.Read
import Idealize.ShloMosaic.Lib.StableHlo.Run

/-!
# The last stretch, shared by both programs

Both programs end with the same operations on an array `M[n, j]` (`n < 8`, `j < 4096`): the mean over `j`, plus
the shared literal `ε`, the logarithm, the sign change, and the mean over `n`. They are named here as ONE function
`tail`, and never opened again: the certificate's value claim then is that the two arrays `M` going in are equal.
-/

set_option maxRecDepth 16384

noncomputable section

namespace Cert.Ccx

open Idealize.ShloMosaic Idealize.ShloMosaic.TcCoe Idealize.SL.Sem Idealize.ShloMosaic.StableHlo
open Cert.KernelIdeal Cert.KernelIdeal.Gen Cert.KernelIdeal.Facts

/-- `M ↦ (1/8) Σ_n −log((1/4096) Σ_j M[n, j] + ε)`, spelt with the programs' own operations. -/
def tail (x : FVec Ideal S8x4096 .f32) : FVec Ideal S_ .f32 :=
  Host.divf (F := Ideal)
    (Host.reduceAdd (F := Ideal)
      (Host.negf (F := Ideal) (Host.log (F := Ideal) (addf (F := Ideal)
        (Host.divf (F := Ideal) (Host.reduceAdd (F := Ideal) x (constant (F := Ideal) S_ .f32 0x00000000#32) reducesTo_S8x4096_S8_d1 h_S_)
          (broadcastInDim S8 ![] bcast_S_S8 (constant (F := Ideal) S_ .f32 0x45800000#32)))
        (broadcastInDim S8 ![] bcast_S_S8 (constant (F := Ideal) S_ .f32 0x358637BD#32)))))
      (constant (F := Ideal) S_ .f32 0x00000000#32) reducesTo_S8_S_d0 h_S_)
    (constant (F := Ideal) S_ .f32 0x41000000#32)

variable (m : (ℓ : Loc nD τ sig) → Buf (Elt Ideal) ℓ) (ρ : Dev nD → PrngReg)

/-- The first program's result is `tail` of what its third region leaves in its output array. -/
theorem kernel_result (c : Dev nD) :
    W9 (F := Ideal) m ρ c (Proc.devRef .tc main_v35) = tail (W8 (F := Ideal) m ρ c (Proc.devRef .tc main_v26)) := by
  show StableHlo.after hostOps3 (W8 (F := Ideal) m ρ c) (Proc.devRef .tc main_v35) = _
  after_results
  rfl

/-- The reference's result is `tail` of its array of column maxima. -/
theorem reference_result (x0 x1 : (⟨Cert.ReferenceIdeal.S8x256x64x64, .f32⟩ : BufTy).Contents (Elt Ideal)) :
    Cert.ReferenceIdeal.Read.val_main_v49 (F := Ideal) x0 x1 = tail (Cert.ReferenceIdeal.Read.val_main_v40 (F := Ideal) x0 x1) := by
  unfold Cert.ReferenceIdeal.Read.val_main_v49 Cert.ReferenceIdeal.Read.val_main_v48 Cert.ReferenceIdeal.Read.val_main_v47
    Cert.ReferenceIdeal.Read.val_main_v46 Cert.ReferenceIdeal.Read.val_main_v45 Cert.ReferenceIdeal.Read.val_main_v44
    Cert.ReferenceIdeal.Read.val_main_v43 Cert.ReferenceIdeal.Read.val_main_v42 Cert.ReferenceIdeal.Read.val_main_v41
  rfl

end Cert.Ccx

end
-- ==== Proof.LibWholeStores.lean ====
/-
  A buffer stored whole and read back whole.

  When the LAST store into a buffer wrote the whole buffer, a load of the whole buffer reads that store's value,
  whatever the earlier stores were: an accumulator updated in place several times and read back between the updates.
  (The library has the case of exactly one store, `View.readCov_unit_zero`; this is the same fact with earlier stores
  underneath.)
-/
import Idealize.ShloMosaic.Lib.Pipeline.Value

noncomputable section

namespace Idealize.ShloMosaic.View

variable {Val : EltTy → Type} {S : Shape} {e : EltTy}

/-- A load of the whole buffer after a list of stores whose last one stored the whole buffer reads that store's value. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨⟨Rect.unit (fun _ => 0) S.size inb, w⟩, List.mem_cons_self .., mem_set_unit_zero rfl inb y⟩),
    canon_cons_unit_zero rfl, ld_unit_zero rfl]

end Idealize.ShloMosaic.View

end
-- ==== Proof.Region0.lean ====
import proofs.«135057_j1580547971557_2_alg».proof.Proof.Gen.KernelIdeal.Frame
import Idealize.ShloMosaic.Lib.Pipeline.Value
import Idealize.ShloMosaic.Lib.Tactic
import proofs.«135057_j1580547971557_2_alg».proof.Proof.LibWholeStores

/-!
# The first region: least distances, one block of rows at a time

At a grid point the body holds a block `x0` of 512 positions of the first operand and the WHOLE second operand
`x1` (4096 positions). A scratch buffer starts at `-∞`; trip `k` of the loop takes chunk `k` of `x1` (positions
`512k … 512k + 511`), multiplies, takes each row's maximum over the chunk, and keeps the larger of that and the
scratch. After the last trip the body writes `1 - scratch`. So what the body leaves is a function of `x0` and
`x1` alone: `1 -` the running maximum after all the chunks. That is proved here, for any float instance, by
induction on the trips.
-/

set_option maxRecDepth 16384

noncomputable section

namespace Cert.KernelIdeal.Region0

open Cert.KernelIdeal Cert.KernelIdeal.Gen Cert.KernelIdeal.Facts
open Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first store into the scratch: the whole buffer, at `-∞`. -/
abbrev p1 : View.Piece (Elt F) S8x512 .f32 := ⟨Rect.unit ![0, 0] S8x512.size inb_S8x512_S8x512_0_0, (k0_pay1 : Vec F S8x512 .f32)⟩
/-- The whole [8, 512] buffer, as a load spells it. -/
abbrev B0 : LoadRect S8x512 := (Rect.unit ![0, 0] S8x512.size inb_S8x512_S8x512_0_0).toLoadRect

/-- A load after stores over unread contents, in the form the lemmas about covered loads are stated in. -/
theorem readAt_writes_junk {s : Shape} {e : EltTy} {sp : Space} (v : View sig .tc sp s e) (L : List (View.Piece (Elt F) s e)) (B : LoadRect s) :
    v.readAt (Elt F) B (v.writes (Elt F) v.junk L) = v.readCov L B := rfl

/-- Chunk `k` of the resident operand: positions `512k … 512k + 511`. -/
def chunk (x1 : Vec F S8x256x4096 .bf16) (k : Fin k0_t1_loop.trips) : Vec F S8x256x512 .bf16 :=
  View.ld x1 (Rect.unit (k0_off1 k) S8x256x512.size (k0_off1_inb k))

/-- The scratch after the first `k` chunks: `-∞`, then one `max` with a chunk's row maxima per trip. -/
def runMax (x0 : Vec F S8x256x512 .bf16) (x1 : Vec F S8x256x4096 .bf16) : ℕ → Vec F S8x512 .f32
  | 0 => k0_pay1
  | k + 1 => if h : k < k0_t1_loop.trips then k0_pay2 (chunk x1 ⟨k, h⟩) x0 (runMax x0 x1 k) else runMax x0 x1 k

section
variable (𝒱 : Variants) (bd : Option 𝒱.V) (c : Dev nD) (i : grid0.Coords)
  (a1 : Memref sig .tc .vmem S8x256x512 .bf16) (h1 : a1.IsWhole) (a2 : Memref sig .tc .vmem S8x256x4096 .bf16) (h2 : a2.IsWhole)
  (a3 : Memref sig .tc .vmem S8x512 .f32) (h3 : a3.IsWhole) (a4 : Memref sig .tc .vmem S8x512 .f32) (h4 : a4.IsWhole)
  (x0 : Vec F S8x256x512 .bf16) (x1 : Vec F S8x256x4096 .bf16)

/-- One trip writes ONE piece: the whole scratch, at the larger of what it found there and the chunk's row maxima. -/
theorem trip_piece (k : Fin k0_t1_loop.trips) (f : BufTy.Contents (Elt F) a4.view.ty) :
    tripL_k0_t1 (F := F) 𝒱 c bd i a1 h1 a2 h2 a3 h3 a4 h4 (h1.unread x0) (h2.unread x1) k f
      = [(⟨Rect.unit ![0, 0] S8x512.size inb_S8x512_S8x512_0_0,
          (k0_pay2 (chunk x1 k) x0 (View.readAt (Elt F) a4.view B0 f) : Vec F S8x512 .f32)⟩ : View.Piece (Elt F) S8x512 .f32)] := by
  unfold tripL_k0_t1 trip_k0_t1
  dsimp only
  simp only [View.readAt_eq_ld, h1.read_unread, h2.read_unread, View.ld_unit_zero (S := S8x256x512) hz3, chunk]

/-- The scratch read back after `k` trips is the running maximum after `k` chunks. -/
theorem scratch_after (k : ℕ) : k ≤ k0_t1_loop.trips →
    a4.view.readCov
        (pb_k0_t1 (F := F) 𝒱 c bd i a1 h1 a2 h2 a3 h3 a4 h4 (h1.unread x0) (h2.unread x1)
            (a4.view.writes (Elt F) a4.view.junk [p1]) k ++ [p1]) B0 = runMax x0 x1 k := by
  induction k with
  | zero =>
    intro _
    rw [pb_k0_t1.eq_1, List.nil_append, runMax, View.readCov_unit_zero (S := S8x512) _ hz2]
  | succ k ih =>
    intro hk
    have hk' : k < k0_t1_loop.trips := hk
    have ih' := ih (Nat.le_of_lt hk')
    have hs := pb_k0_t1_succ (F := F) 𝒱 c bd i a1 h1 a2 h2 a3 h3 a4 h4 (h1.unread x0) (h2.unread x1)
        (a4.view.writes (Elt F) a4.view.junk [p1]) ⟨k, hk'⟩
    rw [show (⟨k, hk'⟩ : Fin k0_t1_loop.trips).val = k from rfl] at hs
    rw [hs, trip_piece, List.append_assoc, List.singleton_append,
      View.readCov_cons_unit_zero (S := S8x512) _ hz2, runMax, dif_pos hk',
      ← View.writes_append, readAt_writes_junk, ih']

/-- What the body leaves in the output block: one minus the running maximum after all the chunks. -/
theorem out_eq : out0_A_2 (F := F) c i a1 h1 a2 h2 a3 h3 a4 h4 x0 x1 = k0_pay3 (runMax x0 x1 k0_t1_loop.trips) := by
  unfold out0_A_2
  rw [View.read_writes_eq_canon _ _ _ (cover0_A_2 c i a1 h1 a2 h2 a3 h3 a4 h4 x0 x1)]
  unfold kernelRun0_A
  dsimp only
  rw [View.canon_unit_zero hz2]
  sl_unfold_words
  rw [readAt_writes_junk,
    scratch_after Variants.none none c i a1 h1 a2 h2 a3 h3 a4 h4 x0 x1 (Scf.trips k0_t1_loop.lb k0_t1_loop.ub k0_t1_loop.st) le_rfl]

end

/-- So after the body at point `t` the output's staging buffer holds that function of the point's two input blocks. -/
theorem outsAt_eq (V : (c : Dev nD) → (b : Ref sig .tc) → Buf (Elt F) ((c : Thread nD τ).loc b)) (c : Dev nD) (t : Fin cfg0.N) :
    outsAt0 V c t = k0_pay3 (runMax (iblk0 V c 0 t) (iblk0 V c 1 t) k0_t1_loop.trips) := by
  unfold outsAt0
  rw [out_eq]

end Cert.KernelIdeal.Region0

end
-- ==== Proof.Array0.lean ====
import proofs.«135057_j1580547971557_2_alg».proof.Proof.Region0
import Idealize.ShloMosaic.Lib.ValueIdx

/-!
# The first region: from the eight blocks to the array

The region's output is an [8, 4096] array written in eight [8, 512] blocks, point `t` writing columns
`512t … 512t + 511`. Column `i` therefore lies in the block of point `i / 512`, at position `i % 512` inside it,
and the array the region leaves is, at `(n, i)`, what that point's body left at `(n, i % 512)`. The eight blocks tile
the array, so nothing of its earlier contents is left.
-/

set_option maxRecDepth 16384

noncomputable section

namespace Cert.KernelIdeal.Region0

open Cert.KernelIdeal Cert.KernelIdeal.Gen Cert.KernelIdeal.Facts
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-- The output window's block index at point `t` is `(0, t)`. -/
theorem idx_out : ∀ t : Fin cfg0.N, win0_2.index t (0 : Fin 2) = 0 ∧ win0_2.index t (1 : Fin 2) = t.val :=
  (by decide +kernel : ∀ t : Fin grid0.N, _)

/-- The point whose block holds column `i`. -/
def ptOf (i : S8x4096.Idx) : Fin cfg0.N := ⟨(i 1).val / 512, by
  have h : (i 1).val < 4096 := (i 1).isLt
  rw [show cfg0.N = 8 from N_0]; omega⟩

/-- The same entry's place inside that block. -/
def inBlk (i : S8x4096.Idx) : S8x512.Idx :=
  ix2 (⟨(i 0).val, (i 0).isLt⟩ : Fin 8) (⟨(i 1).val % 512, Nat.mod_lt _ (by norm_num)⟩ : Fin 512)

/-- The array the region leaves: at `(n, i)`, what the body at the point holding column `i` left there. -/
def arr (c : Dev nD) : S8x4096.Idx → Elt F .f32 := fun i => outsAt0 V c (ptOf i) (inBlk i)

/-- The array coordinates of entry `j` of point `t`'s block: row `j₀`, column `512t + j₁`. -/
theorem emb_val (t : Fin cfg0.N) (j : ((cfg0.win 2).xblock (grid0.coords t)).Idx) :
    ((((cfg0.win 2).blk t).view.emb j) 0).val = (j 0).val
      ∧ ((((cfg0.win 2).blk t).view.emb j) 1).val = t.val * 512 + (j 1).val := by
  obtain ⟨e0, e1⟩ := idx_out t
  have hj0 : (j 0).val < 8 := (j 0).isLt
  have hj1 : (j 1).val < 512 := (j 1).isLt
  constructor
  · show win0_2.index t (0 : Fin 2) * 8 + 1 * (j 0).val = (j 0).val
    rw [e0]; omega
  · show win0_2.index t (1 : Fin 2) * 512 + 1 * (j 1).val = t.val * 512 + (j 1).val
    rw [e1]; omega

/-- What point `t` writes back is block `t` of that array. -/
theorem flushed_eq (c : Dev nD) (t : Fin cfg0.N) :
    (dat0 V c).flushed 2 t = ((cfg0.win 2).blk t).view.read (Elt F) (arr V c) := by
  show (cfg0.win 2).cut (grid0.coords t) ((dat0 V c).after 2 t) = _
  rw [after0_2]
  funext j
  rw [View.read_apply]
  show outsAt0 V c t j = arr V c _
  unfold arr
  obtain ⟨h0, h1⟩ := emb_val t j
  have hj1 : (j 1).val < 512 := (j 1).isLt
  have hpt : ptOf (((cfg0.win 2).blk t).view.emb j) = t := Fin.ext (by
    show ((((cfg0.win 2).blk t).view.emb j) 1).val / 512 = t.val
    rw [h1]; omega)
  have hin : inBlk (((cfg0.win 2).blk t).view.emb j) = j := by
    funext a; apply Fin.ext
    match a with
    | ⟨0, _⟩ => exact h0
    | ⟨1, _⟩ =>
      show ((((cfg0.win 2).blk t).view.emb j) 1).val % 512 = (j 1).val
      rw [h1]; omega
  rw [hpt, hin]

/-- An index of the array is in point `t`'s block iff each coordinate is in the block's range on its axis. -/
theorem mem_blk (t : Fin cfg0.N) (i : S8x4096.Idx) :
    i ∈ ((cfg0.win 2).blk t).view.set ↔ ∀ a : Fin 2, win0_2.index t a * S8x512.size a ≤ (i a).val ∧ (i a).val < win0_2.index t a * S8x512.size a + S8x512.size a := by
  show i ∈ ((View.whole main_v24).slice (win0_2.rect t)).set ↔ _
  rw [View.set_slice_whole, Rect.mem_set_unit]
  exact Iff.rfl

/-- Every entry of the array is in the block of the point `i / 512`. -/
theorem cover (i : S8x4096.Idx) : ∃ t : Fin cfg0.N, (cfg0.win 2).flush t = true ∧ i ∈ ((cfg0.win 2).blk t).view.set := by
  refine ⟨ptOf i, flush0_2 _, ?_⟩
  rw [mem_blk]
  obtain ⟨e0, e1⟩ := idx_out (ptOf i)
  have h0 : (i 0).val < 8 := (i 0).isLt
  have h1 : (i 1).val < 4096 := (i 1).isLt
  have hp : (ptOf i).val = (i 1).val / 512 := rfl
  intro a
  match a with
  | ⟨0, _⟩ =>
    show win0_2.index (ptOf i) (0 : Fin 2) * 8 ≤ (i 0).val ∧ (i 0).val < win0_2.index (ptOf i) (0 : Fin 2) * 8 + 8
    rw [e0]; omega
  | ⟨1, _⟩ =>
    show win0_2.index (ptOf i) (1 : Fin 2) * 512 ≤ (i 1).val ∧ (i 1).val < win0_2.index (ptOf i) (1 : Fin 2) * 512 + 512
    rw [e1, hp]; omega

/-- The array the region leaves. -/
theorem final (c : Dev nD) : (dat0 V c).arrAt 2 cfg0.N = arr V c :=
  (dat0 V c).arrAt_eq_of_cover 2 (arr V c) (fun t _ => flushed_eq V c t) cover

end Cert.KernelIdeal.Region0

end
-- ==== Proof.Region1.lean ====
import proofs.«135057_j1580547971557_2_alg».proof.Proof.Gen.KernelIdeal.Frame
import Idealize.ShloMosaic.Lib.Pipeline.Value
import Idealize.ShloMosaic.Lib.Tactic
import proofs.«135057_j1580547971557_2_alg».proof.Proof.LibWholeStores

/-!
# The second region: the sums of the weights, one block of rows at a time

At a grid point the body holds a block `x0` of 512 positions of the first operand, the WHOLE second operand `x1`
and the block `d` of least distances of those 512 positions. A scratch buffer starts at zero; trip `k` of the loop
takes chunk `k` of `x1`, forms the weights of the block's rows against the chunk's positions (from `d`), sums
them along the chunk and adds the sums to the scratch. After the last trip the body writes the scratch out. So
what the body leaves is a function of `x0`, `x1` and `d` alone: the running sum after all the chunks.
-/

set_option maxRecDepth 16384

noncomputable section

namespace Cert.KernelIdeal.Region1

open Cert.KernelIdeal Cert.KernelIdeal.Gen Cert.KernelIdeal.Facts
open Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first store into the scratch: the whole buffer, at zero. -/
abbrev p1 : View.Piece (Elt F) S8x512 .f32 := ⟨Rect.unit ![0, 0] S8x512.size inb_S8x512_S8x512_0_0, (k1_pay1 : Vec F S8x512 .f32)⟩
/-- The whole [8, 512] buffer, as a load spells it. -/
abbrev B0 : LoadRect S8x512 := (Rect.unit ![0, 0] S8x512.size inb_S8x512_S8x512_0_0).toLoadRect

/-- A load after stores over unread contents, in the form the lemmas about covered loads are stated in. -/
theorem readAt_writes_junk {s : Shape} {e : EltTy} {sp : Space} (v : View sig .tc sp s e) (L : List (View.Piece (Elt F) s e)) (B : LoadRect s) :
    v.readAt (Elt F) B (v.writes (Elt F) v.junk L) = v.readCov L B := rfl

/-- Chunk `k` of the resident operand: positions `512k … 512k + 511`. -/
def chunk (x1 : Vec F S8x256x4096 .bf16) (k : Fin k1_t1_loop.trips) : Vec F S8x256x512 .bf16 :=
  View.ld x1 (Rect.unit (k1_off1 k) S8x256x512.size (k1_off1_inb k))

/-- The scratch after the first `k` chunks: zero, then one chunk's row sums of weights added per trip. -/
def runSum (d : Vec F S8x512 .f32) (x0 : Vec F S8x256x512 .bf16) (x1 : Vec F S8x256x4096 .bf16) : ℕ → Vec F S8x512 .f32
  | 0 => k1_pay1
  | k + 1 => if h : k < k1_t1_loop.trips then k1_pay2 d (chunk x1 ⟨k, h⟩) x0 (runSum d x0 x1 k) else runSum d x0 x1 k

section
variable (𝒱 : Variants) (bd : Option 𝒱.V) (c : Dev nD) (i : grid1.Coords)
  (a1 : Memref sig .tc .vmem S8x256x512 .bf16) (h1 : a1.IsWhole) (a2 : Memref sig .tc .vmem S8x256x4096 .bf16) (h2 : a2.IsWhole)
  (a3 : Memref sig .tc .vmem S8x512 .f32) (h3 : a3.IsWhole) (a4 : Memref sig .tc .vmem S8x512 .f32) (h4 : a4.IsWhole)
  (a5 : Memref sig .tc .vmem S8x512 .f32) (h5 : a5.IsWhole)
  (x0 : Vec F S8x256x512 .bf16) (x1 : Vec F S8x256x4096 .bf16) (d : Vec F S8x512 .f32)

/-- One trip writes ONE piece: the whole scratch, at what it found there plus the chunk's row sums of weights. -/
theorem trip_piece (k : Fin k1_t1_loop.trips) (f : BufTy.Contents (Elt F) a5.view.ty) :
    tripL_k1_t1 (F := F) 𝒱 c bd i a1 h1 a2 h2 a3 h3 a4 h4 a5 h5 d (h1.unread x0) (h2.unread x1) k f
      = [(⟨Rect.unit ![0, 0] S8x512.size inb_S8x512_S8x512_0_0,
          (k1_pay2 d (chunk x1 k) x0 (View.readAt (Elt F) a5.view B0 f) : Vec F S8x512 .f32)⟩ : View.Piece (Elt F) S8x512 .f32)] := by
  unfold tripL_k1_t1 trip_k1_t1
  dsimp only
  simp only [View.readAt_eq_ld, h1.read_unread, h2.read_unread, View.ld_unit_zero (S := S8x256x512) hz3, chunk]

/-- The scratch read back after `k` trips is the running sum after `k` chunks. -/
theorem scratch_after (k : ℕ) : k ≤ k1_t1_loop.trips →
    a5.view.readCov
        (pb_k1_t1 (F := F) 𝒱 c bd i a1 h1 a2 h2 a3 h3 a4 h4 a5 h5 d (h1.unread x0) (h2.unread x1)
            (a5.view.writes (Elt F) a5.view.junk [p1]) k ++ [p1]) B0 = runSum d x0 x1 k := by
  induction k with
  | zero =>
    intro _
    rw [pb_k1_t1.eq_1, List.nil_append, runSum, View.readCov_unit_zero (S := S8x512) _ hz2]
  | succ k ih =>
    intro hk
    have hk' : k < k1_t1_loop.trips := hk
    have ih' := ih (Nat.le_of_lt hk')
    have hs := pb_k1_t1_succ (F := F) 𝒱 c bd i a1 h1 a2 h2 a3 h3 a4 h4 a5 h5 d (h1.unread x0) (h2.unread x1)
        (a5.view.writes (Elt F) a5.view.junk [p1]) ⟨k, hk'⟩
    rw [show (⟨k, hk'⟩ : Fin k1_t1_loop.trips).val = k from rfl] at hs
    rw [hs, trip_piece, List.append_assoc, List.singleton_append,
      View.readCov_cons_unit_zero (S := S8x512) _ hz2, runSum, dif_pos hk',
      ← View.writes_append, readAt_writes_junk, ih']

/-- What the body leaves in the output block: the running sum after all the chunks. -/
theorem out_eq : out1_A_3 (F := F) c i a1 h1 a2 h2 a3 h3 a4 h4 a5 h5 x0 x1 d = runSum d x0 x1 k1_t1_loop.trips := by
  have hd : View.readAt (Elt F) a3.view (Rect.unit ![0, 0] S8x512.size inb_S8x512_S8x512_0_0).toLoadRect (h3.unread d) = d := by
    rw [View.readAt_eq_ld, h3.read_unread, View.ld_unit_zero (S := S8x512) hz2]
  unfold out1_A_3
  rw [View.read_writes_eq_canon _ _ _ (cover1_A_3 c i a1 h1 a2 h2 a3 h3 a4 h4 a5 h5 x0 x1 d)]
  unfold kernelRun1_A
  dsimp only
  rw [View.canon_unit_zero hz2]
  sl_unfold_words
  rw [hd, readAt_writes_junk,
    scratch_after Variants.none none c i a1 h1 a2 h2 a3 h3 a4 h4 a5 h5 x0 x1 d (Scf.trips k1_t1_loop.lb k1_t1_loop.ub k1_t1_loop.st) le_rfl]

end

/-- So after the body at point `t` the output's staging buffer holds that function of the point's three input blocks. -/
theorem outsAt_eq (V : (c : Dev nD) → (b : Ref sig .tc) → Buf (Elt F) ((c : Thread nD τ).loc b)) (c : Dev nD) (t : Fin cfg1.N) :
    outsAt1 V c t = runSum (iblk1 V c 2 t) (iblk1 V c 0 t) (iblk1 V c 1 t) k1_t1_loop.trips := by
  unfold outsAt1
  rw [out_eq]

end Cert.KernelIdeal.Region1

end
-- ==== Proof.Array1.lean ====
import proofs.«135057_j1580547971557_2_alg».proof.Proof.Region1
import Idealize.ShloMosaic.Lib.ValueIdx

/-!
# The second region: from the eight blocks to the array

The second region's output (the sums of the weights) is an [8, 4096] array written in eight [8, 512] blocks, point `t` writing columns
`512t … 512t + 511`. Column `i` therefore lies in the block of point `i / 512`, at position `i % 512` inside it,
and the array the region leaves is, at `(n, i)`, what that point's body left at `(n, i % 512)`. The eight blocks tile
the array, so nothing of its earlier contents is left.
-/

set_option maxRecDepth 16384

noncomputable section

namespace Cert.KernelIdeal.Region1

open Cert.KernelIdeal Cert.KernelIdeal.Gen Cert.KernelIdeal.Facts
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-- The output window's block index at point `t` is `(0, t)`. -/
theorem idx_out : ∀ t : Fin cfg1.N, win1_3.index t (0 : Fin 2) = 0 ∧ win1_3.index t (1 : Fin 2) = t.val :=
  (by decide +kernel : ∀ t : Fin grid1.N, _)

/-- The point whose block holds column `i`. -/
def ptOf (i : S8x4096.Idx) : Fin cfg1.N := ⟨(i 1).val / 512, by
  have h : (i 1).val < 4096 := (i 1).isLt
  rw [show cfg1.N = 8 from N_1]; omega⟩

/-- The same entry's place inside that block. -/
def inBlk (i : S8x4096.Idx) : S8x512.Idx :=
  ix2 (⟨(i 0).val, (i 0).isLt⟩ : Fin 8) (⟨(i 1).val % 512, Nat.mod_lt _ (by norm_num)⟩ : Fin 512)

/-- The array the region leaves: at `(n, i)`, what the body at the point holding column `i` left there. -/
def arr (c : Dev nD) : S8x4096.Idx → Elt F .f32 := fun i => outsAt1 V c (ptOf i) (inBlk i)

/-- The array coordinates of entry `j` of point `t`'s block: row `j₀`, column `512t + j₁`. -/
theorem emb_val (t : Fin cfg1.N) (j : ((cfg1.win 3).xblock (grid1.coords t)).Idx) :
    ((((cfg1.win 3).blk t).view.emb j) 0).val = (j 0).val
      ∧ ((((cfg1.win 3).blk t).view.emb j) 1).val = t.val * 512 + (j 1).val := by
  obtain ⟨e0, e1⟩ := idx_out t
  have hj0 : (j 0).val < 8 := (j 0).isLt
  have hj1 : (j 1).val < 512 := (j 1).isLt
  constructor
  · show win1_3.index t (0 : Fin 2) * 8 + 1 * (j 0).val = (j 0).val
    rw [e0]; omega
  · show win1_3.index t (1 : Fin 2) * 512 + 1 * (j 1).val = t.val * 512 + (j 1).val
    rw [e1]; omega

/-- What point `t` writes back is block `t` of that array. -/
theorem flushed_eq (c : Dev nD) (t : Fin cfg1.N) :
    (dat1 V c).flushed 3 t = ((cfg1.win 3).blk t).view.read (Elt F) (arr V c) := by
  show (cfg1.win 3).cut (grid1.coords t) ((dat1 V c).after 3 t) = _
  rw [after1_3]
  funext j
  rw [View.read_apply]
  show outsAt1 V c t j = arr V c _
  unfold arr
  obtain ⟨h0, h1⟩ := emb_val t j
  have hj1 : (j 1).val < 512 := (j 1).isLt
  have hpt : ptOf (((cfg1.win 3).blk t).view.emb j) = t := Fin.ext (by
    show ((((cfg1.win 3).blk t).view.emb j) 1).val / 512 = t.val
    rw [h1]; omega)
  have hin : inBlk (((cfg1.win 3).blk t).view.emb j) = j := by
    funext a; apply Fin.ext
    match a with
    | ⟨0, _⟩ => exact h0
    | ⟨1, _⟩ =>
      show ((((cfg1.win 3).blk t).view.emb j) 1).val % 512 = (j 1).val
      rw [h1]; omega
  rw [hpt, hin]

/-- An index of the array is in point `t`'s block iff each coordinate is in the block's range on its axis. -/
theorem mem_blk (t : Fin cfg1.N) (i : S8x4096.Idx) :
    i ∈ ((cfg1.win 3).blk t).view.set ↔ ∀ a : Fin 2, win1_3.index t a * S8x512.size a ≤ (i a).val ∧ (i a).val < win1_3.index t a * S8x512.size a + S8x512.size a := by
  show i ∈ ((View.whole main_v25).slice (win1_3.rect t)).set ↔ _
  rw [View.set_slice_whole, Rect.mem_set_unit]
  exact Iff.rfl

/-- Every entry of the array is in the block of the point `i / 512`. -/
theorem cover (i : S8x4096.Idx) : ∃ t : Fin cfg1.N, (cfg1.win 3).flush t = true ∧ i ∈ ((cfg1.win 3).blk t).view.set := by
  refine ⟨ptOf i, flush1_3 _, ?_⟩
  rw [mem_blk]
  obtain ⟨e0, e1⟩ := idx_out (ptOf i)
  have h0 : (i 0).val < 8 := (i 0).isLt
  have h1 : (i 1).val < 4096 := (i 1).isLt
  have hp : (ptOf i).val = (i 1).val / 512 := rfl
  intro a
  match a with
  | ⟨0, _⟩ =>
    show win1_3.index (ptOf i) (0 : Fin 2) * 8 ≤ (i 0).val ∧ (i 0).val < win1_3.index (ptOf i) (0 : Fin 2) * 8 + 8
    rw [e0]; omega
  | ⟨1, _⟩ =>
    show win1_3.index (ptOf i) (1 : Fin 2) * 512 ≤ (i 1).val ∧ (i 1).val < win1_3.index (ptOf i) (1 : Fin 2) * 512 + 512
    rw [e1, hp]; omega

/-- The array the region leaves. -/
theorem final (c : Dev nD) : (dat1 V c).arrAt 3 cfg1.N = arr V c :=
  (dat1 V c).arrAt_eq_of_cover 3 (arr V c) (fun t _ => flushed_eq V c t) cover

end Cert.KernelIdeal.Region1

end
-- ==== Proof.Region2.lean ====
import proofs.«135057_j1580547971557_2_alg».proof.Proof.Gen.KernelIdeal.Frame
import Idealize.ShloMosaic.Lib.Pipeline.Value
import Idealize.ShloMosaic.Lib.Tactic
import proofs.«135057_j1580547971557_2_alg».proof.Proof.LibWholeStores

/-!
# The third region: the column maxima of the normalized weights, one block of columns at a time

At a grid point the body holds the WHOLE first operand `x0` (4096 positions), a block `x1` of 512 positions of the
second operand, and the whole arrays `d` of least distances and `s` of weight sums (one entry per position of the
first operand). A scratch buffer starts at `-∞`; trip `k` of the loop takes chunk `k` of `x0` and the matching
512 entries of `d` and `s`, forms the normalized weights of the chunk's positions against the block's columns,
takes each column's maximum over the chunk, and keeps the larger of that and the scratch. After the last trip the
body writes the scratch out: the running maximum after all the chunks.
-/

set_option maxRecDepth 16384

noncomputable section

namespace Cert.KernelIdeal.Region2

open Cert.KernelIdeal Cert.KernelIdeal.Gen Cert.KernelIdeal.Facts
open Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The first store into the scratch: the whole buffer, at `-∞`. -/
abbrev p1 : View.Piece (Elt F) S8x512 .f32 := ⟨Rect.unit ![0, 0] S8x512.size inb_S8x512_S8x512_0_0, (k2_pay1 : Vec F S8x512 .f32)⟩
/-- The whole [8, 512] buffer, as a load spells it. -/
abbrev B0 : LoadRect S8x512 := (Rect.unit ![0, 0] S8x512.size inb_S8x512_S8x512_0_0).toLoadRect

/-- A load after stores over unread contents, in the form the lemmas about covered loads are stated in. -/
theorem readAt_writes_junk {s : Shape} {e : EltTy} {sp : Space} (v : View sig .tc sp s e) (L : List (View.Piece (Elt F) s e)) (B : LoadRect s) :
    v.readAt (Elt F) B (v.writes (Elt F) v.junk L) = v.readCov L B := rfl

/-- Chunk `k` of the resident operand: positions `512k … 512k + 511`. -/
def chunk (x0 : Vec F S8x256x4096 .bf16) (k : Fin k2_t1_loop.trips) : Vec F S8x256x512 .bf16 :=
  View.ld x0 (Rect.unit (k2_off1 k) S8x256x512.size (k2_off1_inb k))

/-- The matching 512 entries of a per-position array. -/
def slice (x : Vec F S8x4096 .f32) (k : Fin k2_t1_loop.trips) : Vec F S8x512 .f32 :=
  View.ld x (Rect.unit (k2_off2 k) S8x512.size (k2_off2_inb k))

/-- The scratch after the first `k` chunks. -/
def runMax (x0 : Vec F S8x256x4096 .bf16) (x1 : Vec F S8x256x512 .bf16) (d s : Vec F S8x4096 .f32) : ℕ → Vec F S8x512 .f32
  | 0 => k2_pay1
  | k + 1 => if h : k < k2_t1_loop.trips then
      k2_pay2 (k2_pay3 (chunk x0 ⟨k, h⟩) (slice d ⟨k, h⟩) (slice s ⟨k, h⟩) x1 (runMax x0 x1 d s k))
    else runMax x0 x1 d s k

section
variable (𝒱 : Variants) (bd : Option 𝒱.V) (c : Dev nD) (i : grid2.Coords)
  (a1 : Memref sig .tc .vmem S8x256x4096 .bf16) (h1 : a1.IsWhole) (a2 : Memref sig .tc .vmem S8x256x512 .bf16) (h2 : a2.IsWhole)
  (a3 : Memref sig .tc .vmem S8x4096 .f32) (h3 : a3.IsWhole) (a4 : Memref sig .tc .vmem S8x4096 .f32) (h4 : a4.IsWhole)
  (a5 : Memref sig .tc .vmem S8x512 .f32) (h5 : a5.IsWhole) (a6 : Memref sig .tc .vmem S8x512 .f32) (h6 : a6.IsWhole)
  (x0 : Vec F S8x256x4096 .bf16) (x1 : Vec F S8x256x512 .bf16) (d s : Vec F S8x4096 .f32)

/-- One trip writes ONE piece: the whole scratch, at the larger of what it found there and the chunk's column maxima. -/
theorem trip_piece (k : Fin k2_t1_loop.trips) (f : BufTy.Contents (Elt F) a6.view.ty) :
    tripL_k2_t1 (F := F) 𝒱 c bd i a1 h1 a2 h2 a3 h3 a4 h4 a5 h5 a6 h6 (h1.unread x0) (h2.unread x1) (h3.unread d) (h4.unread s) k f
      = [(⟨Rect.unit ![0, 0] S8x512.size inb_S8x512_S8x512_0_0,
          (k2_pay2 (k2_pay3 (chunk x0 k) (slice d k) (slice s k) x1 (View.readAt (Elt F) a6.view B0 f)) : Vec F S8x512 .f32)⟩ : View.Piece (Elt F) S8x512 .f32)] := by
  unfold tripL_k2_t1 trip_k2_t1
  dsimp only
  sl_unfold_run_names
  simp only [View.readAt_eq_ld, h1.read_unread, h2.read_unread, h3.read_unread, h4.read_unread,
    View.ld_unit_zero (S := S8x256x512) hz3, chunk, slice]

/-- The scratch read back after `k` trips is the running maximum after `k` chunks. -/
theorem scratch_after (k : ℕ) : k ≤ k2_t1_loop.trips →
    a6.view.readCov
        (pb_k2_t1 (F := F) 𝒱 c bd i a1 h1 a2 h2 a3 h3 a4 h4 a5 h5 a6 h6 (h1.unread x0) (h2.unread x1) (h3.unread d) (h4.unread s)
            (a6.view.writes (Elt F) a6.view.junk [p1]) k ++ [p1]) B0 = runMax x0 x1 d s k := by
  induction k with
  | zero =>
    intro _
    rw [pb_k2_t1.eq_1, List.nil_append, runMax, View.readCov_unit_zero (S := S8x512) _ hz2]
  | succ k ih =>
    intro hk
    have hk' : k < k2_t1_loop.trips := hk
    have ih' := ih (Nat.le_of_lt hk')
    have hs := pb_k2_t1_succ (F := F) 𝒱 c bd i a1 h1 a2 h2 a3 h3 a4 h4 a5 h5 a6 h6 (h1.unread x0) (h2.unread x1) (h3.unread d) (h4.unread s)
        (a6.view.writes (Elt F) a6.view.junk [p1]) ⟨k, hk'⟩
    rw [show (⟨k, hk'⟩ : Fin k2_t1_loop.trips).val = k from rfl] at hs
    rw [hs, trip_piece, List.append_assoc, List.singleton_append,
      View.readCov_cons_unit_zero (S := S8x512) _ hz2, runMax, dif_pos hk',
      ← View.writes_append, readAt_writes_junk, ih']

/-- What the body leaves in the output block: the running maximum after all the chunks. -/
theorem out_eq : out2_A_4 (F := F) c i a1 h1 a2 h2 a3 h3 a4 h4 a5 h5 a6 h6 x0 x1 d s = runMax x0 x1 d s k2_t1_loop.trips := by
  unfold out2_A_4
  rw [View.read_writes_eq_canon _ _ _ (cover2_A_4 c i a1 h1 a2 h2 a3 h3 a4 h4 a5 h5 a6 h6 x0 x1 d s)]
  unfold kernelRun2_A
  dsimp only
  rw [View.canon_unit_zero hz2]
  sl_unfold_words
  rw [readAt_writes_junk,
    scratch_after Variants.none none c i a1 h1 a2 h2 a3 h3 a4 h4 a5 h5 a6 h6 x0 x1 d s (Scf.trips k2_t1_loop.lb k2_t1_loop.ub k2_t1_loop.st) le_rfl]

end

/-- So after the body at point `t` the output's staging buffer holds that function of the point's four input blocks. -/
theorem outsAt_eq (V : (c : Dev nD) → (b : Ref sig .tc) → Buf (Elt F) ((c : Thread nD τ).loc b)) (c : Dev nD) (t : Fin cfg2.N) :
    outsAt2 V c t = runMax (iblk2 V c 0 t) (iblk2 V c 1 t) (iblk2 V c 2 t) (iblk2 V c 3 t) k2_t1_loop.trips := by
  unfold outsAt2
  rw [out_eq]

end Cert.KernelIdeal.Region2

end
-- ==== Proof.Array2.lean ====
import proofs.«135057_j1580547971557_2_alg».proof.Proof.Region2
import Idealize.ShloMosaic.Lib.ValueIdx

/-!
# The third region: from the eight blocks to the array

The third region's output (the column maxima) is an [8, 4096] array written in eight [8, 512] blocks, point `t` writing columns
`512t … 512t + 511`. Column `i` therefore lies in the block of point `i / 512`, at position `i % 512` inside it,
and the array the region leaves is, at `(n, i)`, what that point's body left at `(n, i % 512)`. The eight blocks tile
the array, so nothing of its earlier contents is left.
-/

set_option maxRecDepth 16384

noncomputable section

namespace Cert.KernelIdeal.Region2

open Cert.KernelIdeal Cert.KernelIdeal.Gen Cert.KernelIdeal.Facts
open Idealize.ShloMosaic Idealize.ShloMosaic.TcCoe Idealize.SL.Sem Idealize.ShloMosaic.ValueIdx
open Idealize.ShloMosaic.Pipeline (Dat)

variable {F : FTy → Type} [FloatOps F]
variable (V : (c : Dev nD) → (b : Ref sig .tc) → Buf (Elt F) ((c : Thread nD τ).loc b))

/-- The output window's block index at point `t` is `(0, t)`. -/
theorem idx_out : ∀ t : Fin cfg2.N, win2_4.index t (0 : Fin 2) = 0 ∧ win2_4.index t (1 : Fin 2) = t.val :=
  (by decide +kernel : ∀ t : Fin grid2.N, _)

/-- The point whose block holds column `i`. -/
def ptOf (i : S8x4096.Idx) : Fin cfg2.N := ⟨(i 1).val / 512, by
  have h : (i 1).val < 4096 := (i 1).isLt
  rw [show cfg2.N = 8 from N_2]; omega⟩

/-- The same entry's place inside that block. -/
def inBlk (i : S8x4096.Idx) : S8x512.Idx :=
  ix2 (⟨(i 0).val, (i 0).isLt⟩ : Fin 8) (⟨(i 1).val % 512, Nat.mod_lt _ (by norm_num)⟩ : Fin 512)

/-- The array the region leaves: at `(n, i)`, what the body at the point holding column `i` left there. -/
def arr (c : Dev nD) : S8x4096.Idx → Elt F .f32 := fun i => outsAt2 V c (ptOf i) (inBlk i)

/-- The array coordinates of entry `j` of point `t`'s block: row `j₀`, column `512t + j₁`. -/
theorem emb_val (t : Fin cfg2.N) (j : ((cfg2.win 4).xblock (grid2.coords t)).Idx) :
    ((((cfg2.win 4).blk t).view.emb j) 0).val = (j 0).val
      ∧ ((((cfg2.win 4).blk t).view.emb j) 1).val = t.val * 512 + (j 1).val := by
  obtain ⟨e0, e1⟩ := idx_out t
  have hj0 : (j 0).val < 8 := (j 0).isLt
  have hj1 : (j 1).val < 512 := (j 1).isLt
  constructor
  · show win2_4.index t (0 : Fin 2) * 8 + 1 * (j 0).val = (j 0).val
    rw [e0]; omega
  · show win2_4.index t (1 : Fin 2) * 512 + 1 * (j 1).val = t.val * 512 + (j 1).val
    rw [e1]; omega

/-- What point `t` writes back is block `t` of that array. -/
theorem flushed_eq (c : Dev nD) (t : Fin cfg2.N) :
    (dat2 V c).flushed 4 t = ((cfg2.win 4).blk t).view.read (Elt F) (arr V c) := by
  show (cfg2.win 4).cut (grid2.coords t) ((dat2 V c).after 4 t) = _
  rw [after2_4]
  funext j
  rw [View.read_apply]
  show outsAt2 V c t j = arr V c _
  unfold arr
  obtain ⟨h0, h1⟩ := emb_val t j
  have hj1 : (j 1).val < 512 := (j 1).isLt
  have hpt : ptOf (((cfg2.win 4).blk t).view.emb j) = t := Fin.ext (by
    show ((((cfg2.win 4).blk t).view.emb j) 1).val / 512 = t.val
    rw [h1]; omega)
  have hin : inBlk (((cfg2.win 4).blk t).view.emb j) = j := by
    funext a; apply Fin.ext
    match a with
    | ⟨0, _⟩ => exact h0
    | ⟨1, _⟩ =>
      show ((((cfg2.win 4).blk t).view.emb j) 1).val % 512 = (j 1).val
      rw [h1]; omega
  rw [hpt, hin]

/-- An index of the array is in point `t`'s block iff each coordinate is in the block's range on its axis. -/
theorem mem_blk (t : Fin cfg2.N) (i : S8x4096.Idx) :
    i ∈ ((cfg2.win 4).blk t).view.set ↔ ∀ a : Fin 2, win2_4.index t a * S8x512.size a ≤ (i a).val ∧ (i a).val < win2_4.index t a * S8x512.size a + S8x512.size a := by
  show i ∈ ((View.whole main_v26).slice (win2_4.rect t)).set ↔ _
  rw [View.set_slice_whole, Rect.mem_set_unit]
  exact Iff.rfl

/-- Every entry of the array is in the block of the point `i / 512`. -/
theorem cover (i : S8x4096.Idx) : ∃ t : Fin cfg2.N, (cfg2.win 4).flush t = true ∧ i ∈ ((cfg2.win 4).blk t).view.set := by
  refine ⟨ptOf i, flush2_4 _, ?_⟩
  rw [mem_blk]
  obtain ⟨e0, e1⟩ := idx_out (ptOf i)
  have h0 : (i 0).val < 8 := (i 0).isLt
  have h1 : (i 1).val < 4096 := (i 1).isLt
  have hp : (ptOf i).val = (i 1).val / 512 := rfl
  intro a
  match a with
  | ⟨0, _⟩ =>
    show win2_4.index (ptOf i) (0 : Fin 2) * 8 ≤ (i 0).val ∧ (i 0).val < win2_4.index (ptOf i) (0 : Fin 2) * 8 + 8
    rw [e0]; omega
  | ⟨1, _⟩ =>
    show win2_4.index (ptOf i) (1 : Fin 2) * 512 ≤ (i 1).val ∧ (i 1).val < win2_4.index (ptOf i) (1 : Fin 2) * 512 + 512
    rw [e1, hp]; omega

/-- The array the region leaves. -/
theorem final (c : Dev nD) : (dat2 V c).arrAt 4 cfg2.N = arr V c :=
  (dat2 V c).arrAt_eq_of_cover 4 (arr V c) (fun t _ => flushed_eq V c t) cover

end Cert.KernelIdeal.Region2

end
-- ==== Proof.Chain.lean ====
import proofs.«135057_j1580547971557_2_alg».proof.Proof.Array0
import proofs.«135057_j1580547971557_2_alg».proof.Proof.Array1
import proofs.«135057_j1580547971557_2_alg».proof.Proof.Array2

/-!
# The three regions, chained

Each region's output array depends on the buffer contents at its entry only through the arrays its windows read.
Written as functions of those arrays:

* `out0 X Y`     — the least distances, from the two operands;
* `out1 X Y D`   — the sums of the weights, from the operands and the least distances;
* `out2 X Y D S` — the column maxima of the normalized weights, from the operands, the least distances and the sums.

No region writes an array it reads, and a region leaves every buffer that is not one of its arrays alone. So with
`X`, `Y` the two operand arrays as the first region finds them, the third region's output array ends at
`out2 X Y (out0 X Y) (out1 X Y (out0 X Y))`.
-/

set_option maxRecDepth 16384

noncomputable section

namespace Cert.KernelIdeal.Chain

open Cert.KernelIdeal Cert.KernelIdeal.Gen Cert.KernelIdeal.Facts
open Idealize.ShloMosaic Idealize.ShloMosaic.TcCoe Idealize.SL.Sem
open Idealize.ShloMosaic.Pipeline (Dat)

variable {F : FTy → Type} [FloatOps F]

/-- The first region's output array as a function of the two operand arrays. -/
def out0 (X Y : Vec F S8x256x4096 .bf16) : S8x4096.Idx → Elt F .f32 := fun i =>
  k0_pay3 (Region0.runMax (((cfg0.win 0).blk (Region0.ptOf i)).view.read (Elt F) X)
    (((cfg0.win 1).blk (Region0.ptOf i)).view.read (Elt F) Y) k0_t1_loop.trips) (Region0.inBlk i)

/-- The second region's output array as a function of the operand arrays and the least distances. -/
def out1 (X Y : Vec F S8x256x4096 .bf16) (D : Vec F S8x4096 .f32) : S8x4096.Idx → Elt F .f32 := fun i =>
  Region1.runSum (((cfg1.win 2).blk (Region1.ptOf i)).view.read (Elt F) D)
    (((cfg1.win 0).blk (Region1.ptOf i)).view.read (Elt F) X)
    (((cfg1.win 1).blk (Region1.ptOf i)).view.read (Elt F) Y) k1_t1_loop.trips (Region1.inBlk i)

/-- The third region's output array as a function of the operand arrays, the least distances and the sums. -/
def out2 (X Y : Vec F S8x256x4096 .bf16) (D S : Vec F S8x4096 .f32) : S8x4096.Idx → Elt F .f32 := fun i =>
  Region2.runMax (((cfg2.win 0).blk (Region2.ptOf i)).view.read (Elt F) X)
    (((cfg2.win 1).blk (Region2.ptOf i)).view.read (Elt F) Y)
    (((cfg2.win 2).blk (Region2.ptOf i)).view.read (Elt F) D)
    (((cfg2.win 3).blk (Region2.ptOf i)).view.read (Elt F) S) k2_t1_loop.trips (Region2.inBlk i)

section
variable (V : (c : Dev nD) → (b : Ref sig .tc) → Buf (Elt F) ((c : Thread nD τ).loc b)) (c : Dev nD)

theorem arr0_eq : Region0.arr V c = out0 (V c main_v22) (V c main_v23) := by
  funext i; unfold Region0.arr out0; rw [Region0.outsAt_eq]; rfl

theorem arr1_eq : Region1.arr V c = out1 (V c main_v22) (V c main_v23) (V c main_v24) := by
  funext i; unfold Region1.arr out1; rw [Region1.outsAt_eq]; rfl

theorem arr2_eq : Region2.arr V c = out2 (V c main_v22) (V c main_v23) (V c main_v24) (V c main_v25) := by
  funext i; unfold Region2.arr out2; rw [Region2.outsAt_eq]; rfl
end

variable (m : (ℓ : Loc nD τ sig) → Buf (Elt F) ℓ) (ρ : Dev nD → PrngReg) (c : Dev nD)

/-! ## Across the first region -/

theorem V6_v22 : V6 m ρ c main_v22 = V5 m ρ c main_v22 :=
  (W6_arr m ρ c 0).trans (((dat0 (V5 m ρ) c).arrAt_in 0 rfl _).trans (A_eq0 (V5 m ρ) c 0))
theorem V6_v23 : V6 m ρ c main_v23 = V5 m ρ c main_v23 :=
  (W6_arr m ρ c 1).trans (((dat0 (V5 m ρ) c).arrAt_in 1 rfl _).trans (A_eq0 (V5 m ρ) c 1))
theorem V6_v24 : V6 m ρ c main_v24 = out0 (V5 m ρ c main_v22) (V5 m ρ c main_v23) :=
  (W6_arr m ρ c 2).trans ((Region0.final (V5 m ρ) c).trans (arr0_eq (V5 m ρ) c))

/-! ## Across the second region -/

theorem V7_v22 : V7 m ρ c main_v22 = V5 m ρ c main_v22 :=
  (W7_arr m ρ c 0).trans (((dat1 (V6 m ρ) c).arrAt_in 0 rfl _).trans ((A_eq1 (V6 m ρ) c 0).trans (V6_v22 m ρ c)))
theorem V7_v23 : V7 m ρ c main_v23 = V5 m ρ c main_v23 :=
  (W7_arr m ρ c 1).trans (((dat1 (V6 m ρ) c).arrAt_in 1 rfl _).trans ((A_eq1 (V6 m ρ) c 1).trans (V6_v23 m ρ c)))
theorem V7_v24 : V7 m ρ c main_v24 = out0 (V5 m ρ c main_v22) (V5 m ρ c main_v23) :=
  (W7_arr m ρ c 2).trans (((dat1 (V6 m ρ) c).arrAt_in 2 rfl _).trans ((A_eq1 (V6 m ρ) c 2).trans (V6_v24 m ρ c)))
theorem V7_v25 : V7 m ρ c main_v25
    = out1 (V5 m ρ c main_v22) (V5 m ρ c main_v23) (out0 (V5 m ρ c main_v22) (V5 m ρ c main_v23)) := by
  refine (W7_arr m ρ c 3).trans ((Region1.final (V6 m ρ) c).trans ?_)
  rw [arr1_eq, V6_v22, V6_v23, V6_v24]

/-! ## Across the third region -/

/-- The third region's output array after the run, as a function of the two operand arrays at the first region's entry. -/
theorem V8_v26 : V8 m ρ c main_v26
    = out2 (V5 m ρ c main_v22) (V5 m ρ c main_v23) (out0 (V5 m ρ c main_v22) (V5 m ρ c main_v23))
        (out1 (V5 m ρ c main_v22) (V5 m ρ c main_v23) (out0 (V5 m ρ c main_v22) (V5 m ρ c main_v23))) := by
  refine (W8_arr m ρ c 4).trans ((Region2.final (V7 m ρ) c).trans ?_)
  rw [arr2_eq, V7_v22, V7_v23, V7_v24, V7_v25]

end Cert.KernelIdeal.Chain

end
-- ==== Proof.BodyOps.lean ====
import proofs.«135057_j1580547971557_2_alg».proof.Proof.Gen.KernelIdeal
import Idealize.ShloMosaic.Lib.ValueIdx
import Idealize.ShloMosaic.Lib.Pipeline.Value
import Idealize.ShloMosaic.PureOps.Ideal.Laws

/-!
# The bodies' non-pointwise operations, read at an index over the extended reals

The three bodies share one matrix product — for each of the 8 samples, a [256, 512] block against a [256, 512]
block, contracted over the 256 channels — and three reductions of the [8, 512, 512] result: a row's maximum, a
row's sum, a column's maximum. Read at an entry:

* the product at `(n, p, q)` is `∑ c, A (n, c, p) · B (n, c, q)`;
* a row's maximum at `(n, p)` is the fold of `max` from `-∞` over `q`; a row's sum is `0 +` the sum over `q`;
  a column's maximum at `(n, q)` is the fold of `max` from `-∞` over `p`.
-/

set_option maxRecDepth 16384

noncomputable section

namespace Cert.KernelIdeal.BodyOps

open Cert.KernelIdeal Cert.KernelIdeal.Facts₀ Cert.KernelIdeal.Facts
open Idealize.ShloMosaic Idealize.ShloMosaic.TcCoe Idealize.ShloMosaic.ValueIdx

/-- The product's dimension record. -/
abbrev D : DotDims S8x256x512 S8x256x512 S8x512x512 := dot_S8x256x512_S8x256x512_S8x512x512_1_1_2_2_0_0

theorem lhs0 (i : S8x512x512.Idx) (q : D.contr.Idx) : (D.lhsIdx i q 0).val = (i 0).val := by
  unfold DotDims.lhsIdx
  rw [dif_pos (show (0 : Fin S8x256x512.rank) ∈ D.lhsBatch by decide)]
  rfl
theorem lhs1 (i : S8x512x512.Idx) (q : D.contr.Idx) : (D.lhsIdx i q 1).val = (q ⟨0, by decide⟩).val :=
  D.lhsIdx_val_of_single rfl i q
theorem lhs2 (i : S8x512x512.Idx) (q : D.contr.Idx) : (D.lhsIdx i q 2).val = (i 1).val := by
  unfold DotDims.lhsIdx
  rw [dif_neg (show ¬(2 : Fin S8x256x512.rank) ∈ D.lhsBatch by decide), dif_pos (show (2 : Fin S8x256x512.rank) ∈ D.lhsNonContracting by decide)]
  rfl
theorem rhs0 (i : S8x512x512.Idx) (q : D.contr.Idx) : (D.rhsIdx i q 0).val = (i 0).val := by
  unfold DotDims.rhsIdx
  rw [dif_pos (show (0 : Fin S8x256x512.rank) ∈ D.rhsBatch by decide)]
  rfl
theorem rhs1 (i : S8x512x512.Idx) (q : D.contr.Idx) : (D.rhsIdx i q 1).val = (q ⟨0, by decide⟩).val :=
  D.rhsIdx_val_of_single rfl i q
theorem rhs2 (i : S8x512x512.Idx) (q : D.contr.Idx) : (D.rhsIdx i q 2).val = (i 2).val := by
  unfold DotDims.rhsIdx
  rw [dif_neg (show ¬(2 : Fin S8x256x512.rank) ∈ D.rhsBatch by decide), dif_pos (show (2 : Fin S8x256x512.rank) ∈ D.rhsNonContracting by decide)]
  rfl

/-- Entry `(n, c, p)` of a [8, 256, 512] block. -/
abbrev at3 (n : Fin 8) (c : Fin 256) (p : Fin 512) : S8x256x512.Idx := ix3 n c p

/-- The product at `(n, p, q)`: the sum over the channels. -/
theorem matmul_at (A B : FVec Ideal S8x256x512 .bf16) (n : Fin 8) (p q : Fin 512) :
    matmul D none A B (constant (F := Ideal) S8x512x512 .f32 0x00000000#32) (ix3 n p q)
      = ∑ c : Fin 256, A (at3 n c p) * B (at3 n c q) := by
  simp only [matmul]
  rw [Ideal.matmul_constant_zero_apply, ← Equiv.sum_comp (contrEquiv1 D 256 rfl rfl).symm]
  refine Finset.sum_congr rfl fun k _ => ?_
  have hk := contrEquiv1_symm_val D 256 rfl rfl k
  have el : D.lhsIdx (ix3 n p q) ((contrEquiv1 D 256 rfl rfl).symm k) = at3 n k p := funext fun a => Fin.ext (by
    match a with
    | ⟨0, _⟩ => exact lhs0 _ _
    | ⟨1, _⟩ => exact (lhs1 _ _).trans hk
    | ⟨2, _⟩ => exact lhs2 _ _)
  have er : D.rhsIdx (ix3 n p q) ((contrEquiv1 D 256 rfl rfl).symm k) = at3 n k q := funext fun a => Fin.ext (by
    match a with
    | ⟨0, _⟩ => exact rhs0 _ _
    | ⟨1, _⟩ => exact (rhs1 _ _).trans hk
    | ⟨2, _⟩ => exact rhs2 _ _)
  rw [el, er]

/-! ## The literals -/

theorem lit_neg_inf : Ideal.ofBits .f32 0xFF800000#32 = ⊥ := by simp [Ideal.ofBits, Ideal.ieee]
theorem lit_pos_inf : Ideal.ofBits .f32 0x7F800000#32 = ⊤ := by simp [Ideal.ofBits, Ideal.ieee]
theorem lit_zero : Ideal.ofBits .f32 0x00000000#32 = ((0 : ℝ) : EReal) := by rw [Ideal.ofBits_zero_f32]; rfl
theorem lit_one : Ideal.ofBits .f32 0x3F800000#32 = ((1 : ℝ) : EReal) := by
  simp [Ideal.ofBits, Ideal.ieee, -EReal.coe_mul]; norm_num
theorem lit_half : Ideal.ofBits .f32 0x3F000000#32 = (((1/2 : ℝ)) : EReal) := by
  simp [Ideal.ofBits, Ideal.ieee, -EReal.coe_mul]; norm_num
theorem lit_two : Ideal.ofBits .f32 0x40000000#32 = ((2 : ℝ) : EReal) := by
  simp [Ideal.ofBits, Ideal.ieee, -EReal.coe_mul]; norm_num
/-- The shared small literal is a positive real number. -/
theorem lit_eps : ∃ e : ℝ, 0 < e ∧ Ideal.ofBits .f32 0x358637BD#32 = ((e : ℝ) : EReal) :=
  ⟨(8796093 : ℝ) * (2 : ℝ) ^ (-43 : ℤ), by positivity, by simp [Ideal.ofBits, Ideal.ieee, -EReal.coe_mul]⟩

/-! ## The reductions -/

set_option backward.isDefEq.respectTransparency.types false in
/-- Over a row: the entry above `(n, p)` at position `q` of the reduced axis. -/
theorem lift_row (n : Fin 8) (p q : Fin 512) : reduces_S8x512x512_S8x512.lift (ix2 n p) q = ix3 n p q := by
  funext c; apply Fin.ext
  show Shape.Reduces.liftVal reduces_S8x512x512_S8x512 (ix2 n p) q.val c = (ix3 n p q c).val
  unfold Shape.Reduces.liftVal
  match c with
  | ⟨0, _⟩ => first | rfl | (simp; try rfl)
  | ⟨1, _⟩ => first | rfl | (simp; try rfl)
  | ⟨2, _⟩ => first | rfl | (simp; try rfl)

set_option backward.isDefEq.respectTransparency.types false in
/-- Over a column: the entry above `(n, q)` at position `p` of the reduced axis. -/
theorem lift_col (n : Fin 8) (q p : Fin 512) : reduces_S8x512x512_S8x512_2.lift (ix2 n q) p = ix3 n p q := by
  funext c; apply Fin.ext
  show Shape.Reduces.liftVal reduces_S8x512x512_S8x512_2 (ix2 n q) p.val c = (ix3 n p q c).val
  unfold Shape.Reduces.liftVal
  match c with
  | ⟨0, _⟩ => first | rfl | (simp; try rfl)
  | ⟨1, _⟩ => first | rfl | (simp; try rfl)
  | ⟨2, _⟩ => first | rfl | (simp; try rfl)

set_option backward.isDefEq.respectTransparency.types false in
/-- A row's maximum. -/
theorem rowmax_at (M : FVec Ideal S8x512x512 .f32) (n : Fin 8) (p : Fin 512) :
    multiReduction .maximumf [2] S8x512 M 0xFF800000#32 reduces_S8x512x512_S8x512 (.inl rfl) rfl (ix2 n p)
      = Finset.univ.fold max (⊥ : EReal) (fun q : Fin 512 => M (ix3 n p q)) := by
  refine (Ideal.multiReduction_maximumf_single M 0xFF800000#32 reduces_S8x512x512_S8x512 (.inl rfl) rfl (ix2 n p)).trans ?_
  rw [Ideal.ofBits_def, lit_neg_inf]
  refine congrArg (fun g => Finset.univ.fold max (⊥ : EReal) g) (funext fun q => ?_)
  show M (reduces_S8x512x512_S8x512.lift (ix2 n p) q) = _
  rw [lift_row]

set_option backward.isDefEq.respectTransparency.types false in
/-- A column's maximum. -/
theorem colmax_at (M : FVec Ideal S8x512x512 .f32) (n : Fin 8) (q : Fin 512) :
    multiReduction .maximumf [1] S8x512 M 0xFF800000#32 reduces_S8x512x512_S8x512_2 (.inl rfl) rfl (ix2 n q)
      = Finset.univ.fold max (⊥ : EReal) (fun p : Fin 512 => M (ix3 n p q)) := by
  refine (Ideal.multiReduction_maximumf_single M 0xFF800000#32 reduces_S8x512x512_S8x512_2 (.inl rfl) rfl (ix2 n q)).trans ?_
  rw [Ideal.ofBits_def, lit_neg_inf]
  refine congrArg (fun g => Finset.univ.fold max (⊥ : EReal) g) (funext fun p => ?_)
  show M (reduces_S8x512x512_S8x512_2.lift (ix2 n q) p) = _
  rw [lift_col]

set_option backward.isDefEq.respectTransparency.types false in
/-- A row's sum. -/
theorem rowsum_at (M : FVec Ideal S8x512x512 .f32) (n : Fin 8) (p : Fin 512) :
    multiReduction .add [2] S8x512 M 0x00000000#32 reduces_S8x512x512_S8x512 (.inl rfl) rfl (ix2 n p)
      = ∑ q : Fin 512, M (ix3 n p q) := by
  refine (Ideal.multiReduction_add_single M 0x00000000#32 reduces_S8x512x512_S8x512 (.inl rfl) rfl (ix2 n p)).trans ?_
  refine Finset.sum_congr rfl fun q _ => ?_
  rw [lift_row]

end Cert.KernelIdeal.BodyOps

end
-- ==== Proof.CcxScalar.lean ====
import Idealize.ShloMosaic.PureOps.Ideal
import Mathlib.Tactic
import Mathlib.Analysis.InnerProductSpace.Basic

/-!
# The scalar mathematics of the contextual-similarity weights

Everything here is about single extended reals that are in fact real numbers. `s` is a cosine similarity,
`d = 1 - s` the distance, `m` the least distance of a row, `ε > 0` the shared literal, the bandwidth is `1/2`.

* The reference forms the exponent `(1 - d / (m + ε)) / (1/2)`.
* The other program clamps `m` at zero, forms `a = 1 / ((1/2)·(max m 0 + ε))` and `c = 2 - a`, and uses `s·a + c`.
  For `m ≥ 0` the clamp is the identity and the two exponents are the same real number.
* The reference divides a weight by the row's sum `W > 0`; the other program subtracts `log W` inside the
  exponential. These agree because `exp (e - log W) = exp e / W`.
* `m ≥ 0` because a cosine similarity of two unit vectors is at most one (Cauchy–Schwarz).
-/

open Idealize.ShloMosaic

namespace Cert.Ccx

/-- A quotient of two reals with a non-zero divisor is the real quotient. -/
theorem div_coe_coe (x y : ℝ) (hy : y ≠ 0) : Ideal.div (x : EReal) (y : EReal) = ((x / y : ℝ) : EReal) := by
  rw [Ideal.div_coe hy, ← EReal.coe_mul]; congr 1; field_simp

/-- With a non-negative least distance the clamp is the identity, and the clamped, folded exponent
    `s·a + c` is the reference's `(1 - (1 - s)/(m + ε)) / (1/2)`. -/
theorem exponent_eq (s m ε : ℝ) (hm : 0 ≤ m) (hε : 0 < ε) :
    (s : EReal) * Ideal.div ((1 : ℝ) : EReal) ((((1/2 : ℝ)) : EReal) * (max (m : EReal) ((0 : ℝ) : EReal) + (ε : EReal)))
        + ((((2 : ℝ)) : EReal) - Ideal.div ((1 : ℝ) : EReal) ((((1/2 : ℝ)) : EReal) * (max (m : EReal) ((0 : ℝ) : EReal) + (ε : EReal))))
      = Ideal.div (((1 : ℝ) : EReal) - Ideal.div (((1 : ℝ) : EReal) - (s : EReal)) ((m : EReal) + (ε : EReal))) (((1/2 : ℝ)) : EReal) := by
  have hmax : max (m : EReal) ((0 : ℝ) : EReal) = (m : EReal) := max_eq_left (EReal.coe_le_coe_iff.mpr hm)
  have hden : m + ε ≠ 0 := by linarith
  have hhalf : (1/2 : ℝ) * (m + ε) ≠ 0 := by positivity
  rw [hmax, ← EReal.coe_add, ← EReal.coe_mul, div_coe_coe _ _ hhalf, ← EReal.coe_mul, ← EReal.coe_sub, ← EReal.coe_add,
    ← EReal.coe_sub, div_coe_coe _ _ hden, ← EReal.coe_sub, div_coe_coe _ _ (by norm_num : (1/2 : ℝ) ≠ 0)]
  congr 1
  field_simp
  ring

/-- Dividing a weight by a positive sum is subtracting the sum's logarithm inside the exponential. -/
theorem exp_sub_log (e c W : ℝ) (hW : 0 < W) :
    Ideal.exp ((e : EReal) + ((c : EReal) - Ideal.log (W : EReal))) = Ideal.div (Ideal.exp ((e : EReal) + (c : EReal))) (W : EReal) := by
  rw [Ideal.log_coe, if_neg (not_le.mpr hW), ← EReal.coe_sub, ← EReal.coe_add, ← EReal.coe_add, Ideal.exp_coe, Ideal.exp_coe,
    div_coe_coe _ _ hW.ne']
  congr 1
  rw [show e + (c - Real.log W) = (e + c) - Real.log W by ring, Real.exp_sub, Real.exp_log hW]

/-- Cauchy–Schwarz for two unit vectors: their inner product is at most one. -/
theorem inner_le_one {ι : Type*} [Fintype ι] (u v : ι → ℝ) (hu : ∑ k, u k * u k = 1) (hv : ∑ k, v k * v k = 1) :
    ∑ k, u k * v k ≤ 1 := by
  have h := Finset.sum_mul_sq_le_sq_mul_sq Finset.univ u v
  have hu' : ∑ k, u k ^ 2 = 1 := by simpa [sq] using hu
  have hv' : ∑ k, v k ^ 2 = 1 := by simpa [sq] using hv
  rw [hu', hv', one_mul] at h
  nlinarith [sq_nonneg (∑ k, u k * v k - 1), sq_nonneg (∑ k, u k * v k + 1)]

/-- Hence every distance `1 - s` between unit vectors is non-negative. -/
theorem dist_nonneg {ι : Type*} [Fintype ι] (u v : ι → ℝ) (hu : ∑ k, u k * u k = 1) (hv : ∑ k, v k * v k = 1) :
    0 ≤ 1 - ∑ k, u k * v k := by linarith [inner_le_one u v hu hv]

end Cert.Ccx
-- ==== Proof.CcxCore.lean ====
import proofs.«135057_j1580547971557_2_alg».proof.Proof.CcxScalar
import Mathlib.Data.Finset.Fold
import Mathlib.Data.Finset.Max

/-!
# The two programs' formulas agree on a table of cosine similarities

`s i j ≤ 1` is a table of real numbers (rows `i`, columns `j`, both index types finite and non-empty), `ε > 0`.

The reference forms, row by row, the least distance `m i = min_j (1 - s i j)`, the weights
`w i j = exp ((1 - (1 - s i j)/(m i + ε)) / (1/2))`, their sums `W i`, the normalized weights `w i j / W i`, and
finally each column's maximum of those.

The other program forms `m i` as `1 - max_j s i j`, clamps it at zero, folds the exponent into `s i j · a i + c i`
and the division into the exponential, `exp (s i j · a i + (c i - log (W i)))`, and takes each column's maximum.

Here every minimum and maximum is the fold of `min` from `+∞` / of `max` from `-∞` over the whole index type, and every
sum is `0 +` the sum, as the programs' reductions read on the extended reals. The two column maxima are equal:
all the quantities are real numbers, `m i ≥ 0` because `s ≤ 1`, the sums are positive, and the three scalar
identities of the scalar module apply.
-/

open Idealize.ShloMosaic

namespace Cert.Ccx

variable {ι κ : Type*} [Fintype ι] [Fintype κ] [Nonempty ι] [Nonempty κ]

/-- A finite sum of reals, formed on the extended reals from zero, is the real sum. -/
theorem zero_add_sum_coe {α : Type*} (t : Finset α) (g : α → ℝ) :
    (0 : EReal) + ∑ j ∈ t, ((g j : ℝ) : EReal) = ((∑ j ∈ t, g j : ℝ) : EReal) := by
  classical
  rw [zero_add]
  induction t using Finset.induction_on with
  | empty => simp
  | insert a t ha ih => rw [Finset.sum_insert ha, Finset.sum_insert ha, ih, EReal.coe_add]

/-- The fold of `max` from `-∞` over a non-empty finite family of reals is the largest of them. -/
theorem fold_max_coe {α : Type*} [Fintype α] [Nonempty α] (f : α → ℝ) :
    ∃ j₀, (∀ j, f j ≤ f j₀) ∧ Finset.univ.fold max (⊥ : EReal) (fun j => ((f j : ℝ) : EReal)) = ((f j₀ : ℝ) : EReal) := by
  obtain ⟨j₀, -, hj₀⟩ := Finset.exists_max_image Finset.univ f Finset.univ_nonempty
  refine ⟨j₀, fun j => hj₀ j (Finset.mem_univ j), le_antisymm ?_ ?_⟩
  · exact (Finset.fold_max_le _).mpr ⟨bot_le, fun j _ => EReal.coe_le_coe_iff.mpr (hj₀ j (Finset.mem_univ j))⟩
  · exact (Finset.le_fold_max _).mpr (Or.inr ⟨j₀, Finset.mem_univ j₀, le_rfl⟩)

/-- The fold of `min` from `+∞` of `1 - f` is `1 -` the largest value of `f`. -/
theorem fold_min_one_sub {α : Type*} [Fintype α] [Nonempty α] (f : α → ℝ) (j₀ : α) (hj₀ : ∀ j, f j ≤ f j₀) :
    Finset.univ.fold min (⊤ : EReal) (fun j => ((1 : ℝ) : EReal) - ((f j : ℝ) : EReal)) = ((1 - f j₀ : ℝ) : EReal) := by
  apply le_antisymm
  · refine (Finset.fold_min_le _).mpr (Or.inr ⟨j₀, Finset.mem_univ j₀, ?_⟩)
    rw [← EReal.coe_sub]
  · refine (Finset.le_fold_min _).mpr ⟨le_top, fun j _ => ?_⟩
    rw [← EReal.coe_sub]
    exact EReal.coe_le_coe_iff.mpr (by linarith [hj₀ j])

section
variable (s : ι → κ → ℝ) (hs : ∀ i j, s i j ≤ 1) (ε : ℝ) (hε : 0 < ε)

/-- The reference's column maxima. -/
noncomputable def refMax (j : κ) : EReal :=
  Finset.univ.fold max ⊥ fun i : ι =>
    let m : EReal := Finset.univ.fold min ⊤ fun j' : κ => ((1 : ℝ) : EReal) - ((s i j' : ℝ) : EReal)
    let w : κ → EReal := fun j' => Ideal.exp (Ideal.div (((1 : ℝ) : EReal) - Ideal.div (((1 : ℝ) : EReal) - ((s i j' : ℝ) : EReal)) (m + (ε : EReal))) (((1/2 : ℝ)) : EReal))
    Ideal.div (w j) ((0 : EReal) + ∑ j', w j')

/-- The other program's column maxima. -/
noncomputable def kerMax (j : κ) : EReal :=
  Finset.univ.fold max ⊥ fun i : ι =>
    let d : EReal := ((1 : ℝ) : EReal) - Finset.univ.fold max ⊥ fun j' : κ => ((s i j' : ℝ) : EReal)
    let a : EReal := Ideal.div ((1 : ℝ) : EReal) ((((1/2 : ℝ)) : EReal) * (max d ((0 : ℝ) : EReal) + (ε : EReal)))
    let c : EReal := (((2 : ℝ)) : EReal) - a
    let W : EReal := (0 : EReal) + ∑ j', Ideal.exp (((s i j' : ℝ) : EReal) * a + c)
    Ideal.exp (((s i j : ℝ) : EReal) * a + (c - Ideal.log W))

include hs hε in
/-- The two programs' column maxima are equal. -/
theorem kerMax_eq_refMax (j : κ) : kerMax s ε j = refMax s ε j := by
  unfold kerMax refMax
  refine congrArg (Finset.univ.fold max ⊥) (funext fun i => ?_)
  obtain ⟨j₀, hj₀, hmax⟩ := fold_max_coe (fun j' => s i j')
  have hmin := fold_min_one_sub (fun j' => s i j') j₀ hj₀
  -- the least distance is a non-negative real
  set m : ℝ := 1 - s i j₀ with hm
  have hm0 : 0 ≤ m := by have := hs i j₀; linarith
  simp only [hmax, hmin]
  rw [← EReal.coe_sub, ← hm]
  -- the folded exponent is the reference's
  have hexp : ∀ j', ((s i j' : ℝ) : EReal) * Ideal.div ((1 : ℝ) : EReal) ((((1/2 : ℝ)) : EReal) * (max ((m : ℝ) : EReal) ((0 : ℝ) : EReal) + (ε : EReal)))
        + ((((2 : ℝ)) : EReal) - Ideal.div ((1 : ℝ) : EReal) ((((1/2 : ℝ)) : EReal) * (max ((m : ℝ) : EReal) ((0 : ℝ) : EReal) + (ε : EReal))))
      = Ideal.div (((1 : ℝ) : EReal) - Ideal.div (((1 : ℝ) : EReal) - ((s i j' : ℝ) : EReal)) ((m : EReal) + (ε : EReal))) (((1/2 : ℝ)) : EReal) :=
    fun j' => exponent_eq (s i j') m ε hm0 hε
  -- both are real numbers: name the real exponent
  have hden : m + ε ≠ 0 := by linarith
  set e : κ → ℝ := fun j' => (1 - (1 - s i j') / (m + ε)) / (1/2) with he
  have hE : ∀ j', Ideal.div (((1 : ℝ) : EReal) - Ideal.div (((1 : ℝ) : EReal) - ((s i j' : ℝ) : EReal)) ((m : EReal) + (ε : EReal))) (((1/2 : ℝ)) : EReal) = ((e j' : ℝ) : EReal) := by
    intro j'
    rw [← EReal.coe_sub, ← EReal.coe_add, div_coe_coe _ _ hden, ← EReal.coe_sub, div_coe_coe _ _ (by norm_num : (1/2 : ℝ) ≠ 0)]
  -- the sum of the weights is a positive real
  have hW : (0 : EReal) + ∑ j', Ideal.exp ((e j' : ℝ) : EReal) = ((∑ j', Real.exp (e j') : ℝ) : EReal) := by
    simp only [Ideal.exp_coe]; exact zero_add_sum_coe Finset.univ _
  have hWpos : 0 < ∑ j', Real.exp (e j') := Finset.sum_pos (fun j' _ => Real.exp_pos _) Finset.univ_nonempty
  -- the slope and the offset are real numbers
  have hhalf : (1/2 : ℝ) * (m + ε) ≠ 0 := by positivity
  have hmax : max ((m : ℝ) : EReal) ((0 : ℝ) : EReal) = ((m : ℝ) : EReal) := max_eq_left (EReal.coe_le_coe_iff.mpr hm0)
  have ha : Ideal.div ((1 : ℝ) : EReal) ((((1/2 : ℝ)) : EReal) * (max ((m : ℝ) : EReal) ((0 : ℝ) : EReal) + (ε : EReal)))
      = (((1 / ((1/2 : ℝ) * (m + ε)) : ℝ)) : EReal) := by
    rw [hmax, ← EReal.coe_add, ← EReal.coe_mul, div_coe_coe _ _ hhalf]
  set α : ℝ := 1 / ((1/2 : ℝ) * (m + ε)) with hα
  have key : ∀ j', ((s i j' : ℝ) : EReal) * ((α : ℝ) : EReal) + ((((2 : ℝ)) : EReal) - ((α : ℝ) : EReal)) = ((e j' : ℝ) : EReal) :=
    fun j' => by rw [← ha]; exact (hexp j').trans (hE j')
  simp only [ha, hE, key, hW]
  rw [← EReal.coe_mul, ← EReal.coe_sub, exp_sub_log _ _ _ hWpos, EReal.coe_sub, EReal.coe_mul, key]

end

end Cert.Ccx
-- ==== Proof.Values0.lean ====
import proofs.«135057_j1580547971557_2_alg».proof.Proof.Chain
import proofs.«135057_j1580547971557_2_alg».proof.Proof.BodyOps

/-!
# The first region's arithmetic at an entry, over the extended reals

* the scratch starts at `-∞`;
* one trip replaces the scratch's entry `(n, p)` by the larger of it and the maximum, over the chunk's 512 positions `q`,
  of the similarity `∑ c, x0 (n, c, p) · chunk (n, c, q)`;
* the body writes `1 -` the scratch.
-/

set_option maxRecDepth 16384

noncomputable section

namespace Cert.KernelIdeal.Values

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Cert.KernelIdeal.BodyOps

theorem pay0_1_at (j : S8x512.Idx) : (k0_pay1 (F := Ideal)) j = ⊥ := by
  unfold k0_pay1
  rw [shapeCast_self]
  exact lit_neg_inf

theorem pay0_3_at (v5 : FVec Ideal S8x512 .f32) (j : S8x512.Idx) : k0_pay3 (F := Ideal) v5 j = ((1 : ℝ) : EReal) - v5 j := by
  unfold k0_pay3
  show Ideal.ofBits .f32 0x3F800000#32 - v5 j = _
  rw [lit_one]

/-- One trip's update, as an equation between arrays: the casts of a shape to itself removed. -/
theorem pay0_2_fun (v14 v16 : FVec Ideal S8x256x512 .bf16) (v20 : FVec Ideal S8x512 .f32) :
    k0_pay2 (F := Ideal) v14 v16 v20
      = maximumf v20 (multiReduction .maximumf [2] S8x512
          (matmul D none v16 v14 (constant (F := Ideal) S8x512x512 .f32 0x00000000#32))
          0xFF800000#32 Gen.reduces_S8x512x512_S8x512 (.inl rfl) rfl) := by
  unfold k0_pay2
  simp only [shapeCast_self]

/-- One trip's update at entry `(n, p)`. -/
theorem pay0_2_at (v14 v16 : FVec Ideal S8x256x512 .bf16) (v20 : FVec Ideal S8x512 .f32) (n : Fin 8) (p : Fin 512) :
    k0_pay2 (F := Ideal) v14 v16 v20 (ix2 n p)
      = max (v20 (ix2 n p)) (Finset.univ.fold max (⊥ : EReal) fun q : Fin 512 => ∑ c : Fin 256, v16 (at3 n c p) * v14 (at3 n c q)) := by
  rw [pay0_2_fun]
  refine (maximumf_apply v20 _ (ix2 n p)).trans ?_
  refine congrArg (max (v20 (ix2 n p))) ?_
  refine (rowmax_at _ n p).trans ?_
  exact congrArg (fun g => Finset.univ.fold max (⊥ : EReal) g) (funext fun q => matmul_at v16 v14 n p q)

/-! ## Blocks and chunks at an entry -/

/-- The windows' block indices at point `t`: the first operand's block is `(0, 0, t)`, the second operand is whole. -/
theorem idx_in0 : ∀ t : Fin cfg0.N,
    win0_0.index t (0 : Fin 3) = 0 ∧ win0_0.index t (1 : Fin 3) = 0 ∧ win0_0.index t (2 : Fin 3) = t.val
    ∧ win0_1.index t (0 : Fin 3) = 0 ∧ win0_1.index t (1 : Fin 3) = 0 ∧ win0_1.index t (2 : Fin 3) = 0 :=
  (by decide +kernel : ∀ t : Fin grid0.N, _)

/-- Entry `(n, c, p)` of the first operand's block at point `t` is the operand's entry `(n, c, 512t + p)`. -/
theorem blkX0_at (X : FVec Ideal S8x256x4096 .bf16) (t : Fin cfg0.N) (n : Fin 8) (c : Fin 256) (p : Fin 512)
    (hlt : 512 * t.val + p.val < 4096) :
    ((cfg0.win 0).blk t).view.read (Elt Ideal) X (at3 n c p) = X (ix3 n c ⟨512 * t.val + p.val, hlt⟩) := by
  obtain ⟨e0, e1, e2, -, -, -⟩ := idx_in0 t
  rw [View.read_apply]
  show X _ = X _
  refine congrArg X (funext fun a => Fin.ext ?_)
  match a with
  | ⟨0, _⟩ => show win0_0.index t (0 : Fin 3) * 8 + 1 * n.val = n.val; rw [e0]; omega
  | ⟨1, _⟩ => show win0_0.index t (1 : Fin 3) * 256 + 1 * c.val = c.val; rw [e1]; omega
  | ⟨2, _⟩ => show win0_0.index t (2 : Fin 3) * 512 + 1 * p.val = 512 * t.val + p.val; rw [e2]; omega

/-- The second operand's block at any point is the operand. -/
theorem blkY0_at (Y : FVec Ideal S8x256x4096 .bf16) (t : Fin cfg0.N) (n : Fin 8) (c : Fin 256) (j : Fin 4096) :
    ((cfg0.win 1).blk t).view.read (Elt Ideal) Y (ix3 n c j) = Y (ix3 n c j) := by
  obtain ⟨-, -, -, e0, e1, e2⟩ := idx_in0 t
  rw [View.read_apply]
  show Y _ = Y _
  refine congrArg Y (funext fun a => Fin.ext ?_)
  match a with
  | ⟨0, _⟩ => show win0_1.index t (0 : Fin 3) * 8 + 1 * n.val = n.val; rw [e0]; omega
  | ⟨1, _⟩ => show win0_1.index t (1 : Fin 3) * 256 + 1 * c.val = c.val; rw [e1]; omega
  | ⟨2, _⟩ => show win0_1.index t (2 : Fin 3) * 4096 + 1 * j.val = j.val; rw [e2]; omega

/-- Entry `(n, c, q)` of chunk `k` is the resident operand's entry `(n, c, 512k + q)`. -/
theorem chunk0_at (x1 : FVec Ideal S8x256x4096 .bf16) (k : Fin k0_t1_loop.trips) (n : Fin 8) (q : Fin 512)
    (hlt : 512 * k.val + q.val < 4096) (c : Fin 256) :
    Region0.chunk (F := Ideal) x1 k (at3 n c q) = x1 (ix3 n c ⟨512 * k.val + q.val, hlt⟩) := by
  unfold Region0.chunk
  show x1 ((Rect.unit (s := S8x256x4096) (k0_off1 k) S8x256x512.size (Gen.k0_off1_inb k)).idx (at3 n c q)) = _
  refine congrArg x1 (funext fun a => Fin.ext ?_)
  have ho := k0_off1_eq k
  match a with
  | ⟨0, _⟩ => show k0_off1 k 0 + 1 * n.val = n.val; rw [ho]; show 0 + 1 * n.val = n.val; omega
  | ⟨1, _⟩ => show k0_off1 k 1 + 1 * c.val = c.val; rw [ho]; show 0 + 1 * c.val = c.val; omega
  | ⟨2, _⟩ => show k0_off1 k 2 + 1 * q.val = 512 * k.val + q.val; rw [ho]; show 512 * k.val + 1 * q.val = 512 * k.val + q.val; omega

/-! ## The running maximum in closed form -/

/-- The similarity of position `p` of a block with position `j` of the resident operand, in sample `n`. -/
def rowSim (x0 : FVec Ideal S8x256x512 .bf16) (x1 : FVec Ideal S8x256x4096 .bf16) (n : Fin 8) (p : Fin 512) (j : Fin 4096) : EReal :=
  ∑ c : Fin 256, x0 (at3 n c p) * x1 (ix3 n c j)

/-- The scratch's entry `(n, p)` after `K` trips is at most `b` exactly when every similarity of the block's position
    `p` with a position of the first `K` chunks is. -/
theorem runMax0_le_iff (x0 : FVec Ideal S8x256x512 .bf16) (x1 : FVec Ideal S8x256x4096 .bf16) (n : Fin 8) (p : Fin 512) (b : EReal) :
    ∀ K : ℕ, K ≤ k0_t1_loop.trips →
      (Region0.runMax (F := Ideal) x0 x1 K (ix2 n p) ≤ b ↔
        ∀ k, k < K → ∀ (q : Fin 512) (hlt : 512 * k + q.val < 4096), rowSim x0 x1 n p ⟨512 * k + q.val, hlt⟩ ≤ b) := by
  unfold rowSim
  intro K
  induction K with
  | zero =>
    intro _
    rw [Region0.runMax, pay0_1_at]
    exact ⟨fun _ k hk => absurd hk (Nat.not_lt_zero k), fun _ => bot_le⟩
  | succ K ih =>
    intro hK
    have hK' : K < k0_t1_loop.trips := hK
    have h8 : K < 8 := lt_of_lt_of_le hK' k0_t1_abs.2.1
    rw [Region0.runMax, dif_pos hK', pay0_2_at, max_le_iff, ih (Nat.le_of_lt hK'), Finset.fold_max_le]
    constructor
    · rintro ⟨h1, -, h2⟩ k hk q hlt
      rcases Nat.lt_succ_iff_lt_or_eq.mp hk with h | rfl
      · exact h1 k h q hlt
      · have h3 := h2 q (Finset.mem_univ q)
        simp only [chunk0_at x1 ⟨k, hK'⟩ n q hlt] at h3
        exact h3
    · intro h
      refine ⟨fun k hk q hlt => h k (Nat.lt_succ_of_lt hk) q hlt, bot_le, fun q _ => ?_⟩
      have hlt : 512 * K + q.val < 4096 := by have := q.isLt; omega
      simp only [chunk0_at x1 ⟨K, hK'⟩ n q hlt]
      exact h K (Nat.lt_succ_self K) q hlt

/-! ## The first region's array at an entry -/

/-- The similarity of the first operand's position `i` and the second's position `j` in sample `n`. -/
def sim (X Y : FVec Ideal S8x256x4096 .bf16) (n : Fin 8) (i j : Fin 4096) : EReal :=
  ∑ c : Fin 256, X (ix3 n c i) * Y (ix3 n c j)

theorem trips0 : k0_t1_loop.trips = 8 := by decide

/-- The first region's array at `(n, i)`: one minus the largest similarity of position `i`. -/
theorem out0_at (X Y : FVec Ideal S8x256x4096 .bf16) (n : Fin 8) (i : Fin 4096) :
    Chain.out0 (F := Ideal) X Y (ix2 n i)
      = ((1 : ℝ) : EReal) - Finset.univ.fold max (⊥ : EReal) (fun j : Fin 4096 => sim X Y n i j) := by
  have hi : i.val < 4096 := i.isLt
  have hp : i.val % 512 < 512 := Nat.mod_lt _ (by norm_num)
  unfold Chain.out0
  rw [pay0_3_at]
  refine congrArg (fun z => ((1 : ℝ) : EReal) - z) ?_
  have hin : Region0.inBlk (ix2 n i) = ix2 n (⟨i.val % 512, hp⟩ : Fin 512) := by
    funext a; apply Fin.ext
    match a with
    | ⟨0, _⟩ => rfl
    | ⟨1, _⟩ => rfl
  have hX : ∀ c : Fin 256, ((cfg0.win 0).blk (Region0.ptOf (ix2 n i))).view.read (Elt Ideal) X (at3 n c (⟨i.val % 512, hp⟩ : Fin 512)) = X (ix3 n c i) := by
    intro c
    rw [blkX0_at X _ n c _ (by show 512 * (i.val / 512) + i.val % 512 < 4096; omega)]
    exact congrArg (fun z => X (ix3 n c z)) (Fin.ext (by show 512 * (i.val / 512) + i.val % 512 = i.val; omega))
  -- the body's sum over the channels, at the block's position and a chunk's position, is a similarity
  have hsum : ∀ j : Fin 4096,
      rowSim (((cfg0.win 0).blk (Region0.ptOf (ix2 n i))).view.read (Elt Ideal) X)
          (((cfg0.win 1).blk (Region0.ptOf (ix2 n i))).view.read (Elt Ideal) Y) n (⟨i.val % 512, hp⟩ : Fin 512) j
        = sim X Y n i j :=
    fun j => Finset.sum_congr rfl fun c _ => by rw [hX c, blkY0_at]
  rw [hin]
  refine eq_of_forall_ge_iff fun b => ?_
  rw [runMax0_le_iff _ _ n _ b _ le_rfl, Finset.fold_max_le]
  constructor
  · intro h
    refine ⟨bot_le, fun j _ => ?_⟩
    have hj : j.val < 4096 := j.isLt
    have hq : j.val % 512 < 512 := Nat.mod_lt _ (by norm_num)
    have hlt : 512 * (j.val / 512) + (⟨j.val % 512, hq⟩ : Fin 512).val < 4096 := by
      show 512 * (j.val / 512) + j.val % 512 < 4096; omega
    have h1 := h (j.val / 512) (by rw [trips0]; omega) ⟨j.val % 512, hq⟩ hlt
    rw [hsum] at h1
    have hj' : (⟨512 * (j.val / 512) + (⟨j.val % 512, hq⟩ : Fin 512).val, hlt⟩ : Fin 4096) = j :=
      Fin.ext (by show 512 * (j.val / 512) + j.val % 512 = j.val; omega)
    rw [hj'] at h1
    exact h1
  · rintro ⟨-, h⟩ k hk q hlt
    rw [hsum]
    exact h ⟨512 * k + q.val, hlt⟩ (Finset.mem_univ _)

end Cert.KernelIdeal.Values

end
-- ==== Proof.LibGroupExpand.lean ====
/-
  A per-group value repeated over the members of its group, read at an index.

  An `[a, b]` array (one value per row `i` and group `j`) is given a trailing unit axis, repeated `c` times along
  it, and the last two axes are merged: the result is the `[a, b * c]` array whose entry `(i, k)` is the value of
  row `i`'s group `k / c`. The three steps are read at an index one by one, generic in the sizes, and then composed.
-/
import Idealize.ShloMosaic.Lib.ValueIdx
import Idealize.ShloMosaic.Lib.Pipeline.Value
import Idealize.ShloMosaic.Lib.ValueLayout

noncomputable section

namespace Cert.LibGroupExpand

open Idealize.ShloMosaic Idealize.ShloMosaic.ValueIdx

variable {α : Type}

/-- An `[a, b]` array cast to `[a, b, 1]` reads, at `(i, j, u)`, the operand at `(i, j)`, whatever the unit
    coordinate `u`: both positions are `i * b + j` in row-major order. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, l)`, the operand at `(i, j, 0)`: the unit axis
    is the one repeated. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, b, c]` array cast to `[a, n]` with `n = b * c` reads, at `(i, k)`, the operand at
    `(i, k / c, k % c)`: position `i * n + k` is `(i * b + k / c) * c + k % c`. -/
theorem shapeCast_abc_an_apply {a b c n : ℕ} (hn : n = b * c) (x : (⟨3, ![a, b, c]⟩ : Shape).Idx → α)
    (h : (⟨3, ![a, b, c]⟩ : Shape).ShapeCasts ⟨2, ![a, n]⟩) (i : Fin a) (k : Fin n)
    (g : Fin b) (l : Fin c) (hg : g.val = k.val / c) (hl : l.val = k.val % c) :
    shapeCast ⟨2, ![a, n]⟩ x h (ix2 i k) = x (ix3 i g l) :=
  shapeCast_apply x h _ _ (by
    rw [Shape.rowMajor_val_three, Shape.rowMajor_val_two]
    show (i.val * b + g.val) * c + l.val = i.val * n + k.val
    have e : i.val * n = i.val * b * c := by rw [hn, Nat.mul_assoc]
    rw [hg, hl, e, Nat.add_mul, Nat.add_assoc, Nat.div_add_mod' k.val c])

/-- THE EXPANSION READ AT AN INDEX: an `[a, b]` array given a trailing unit axis, repeated `c` times along it and
    merged to `[a, n]`, `n = b * c`, reads at `(i, k)` the operand at `(i, k / c)`. -/
theorem expand_apply {a b c n : ℕ} (hn : n = b * c) (x : (⟨2, ![a, b]⟩ : Shape).Idx → α)
    (h1 : (⟨2, ![a, b]⟩ : Shape).ShapeCasts ⟨3, ![a, b, 1]⟩)
    (h2 : (⟨3, ![a, b, 1]⟩ : Shape).Broadcasts ⟨3, ![a, b, c]⟩)
    (h3 : (⟨3, ![a, b, c]⟩ : Shape).ShapeCasts ⟨2, ![a, n]⟩) (i : Fin a) (k : Fin n)
    (g : Fin b) (hg : g.val = k.val / c) :
    shapeCast ⟨2, ![a, n]⟩ (broadcastTo ⟨3, ![a, b, c]⟩ (shapeCast ⟨3, ![a, b, 1]⟩ x h1) h2) h3 (ix2 i k) = x (ix2 i g) := by
  have hc : 0 < c := by
    rcases Nat.eq_zero_or_pos c with h0 | h0
    · have hk := k.isLt
      have e : n = 0 := by rw [hn, h0, Nat.mul_zero]
      omega
    · exact h0
  rw [shapeCast_abc_an_apply hn _ h3 i k g ⟨k.val % c, Nat.mod_lt _ hc⟩ hg rfl,
    broadcastTo_ab1_abc_apply _ h2 i g _, shapeCast_ab_ab1_apply x h1 i g _]

end Cert.LibGroupExpand

end
-- ==== Proof.LibBlockedSums.lean ====
/-
  Finite sums over a product index, as a tiled contraction meets them.

  A contraction over `A * B` columns computed block by block (an accumulator that adds one block of `B` columns
  per step) is the sum over all columns; a contraction over rows numbered `a * M + j` (row `a` of slab `j`,
  the slabs interleaved) is the sum over the slabs of the sums over their rows; a contraction padded by rows
  whose terms vanish is the contraction over the unpadded rows. All three hold in any commutative additive
  monoid, so in particular over the extended reals, where they need no finiteness: only the order and the
  grouping of the terms change, and the padding terms are exact zeros.
-/
import Mathlib.Algebra.BigOperators.Fin
import Mathlib.Algebra.BigOperators.Group.Finset.Basic
import Mathlib.Logic.Equiv.Fin.Basic
import Mathlib.Tactic.Ring
import Mathlib.Tactic.Linarith

namespace BlockedSums

variable {M : Type*} [AddCommMonoid M]

/-- Column `b` of block `a`, numbered row-major, is a column of the whole. -/
theorem idx_lt {A B : ℕ} (a : Fin A) (b : Fin B) : a.val * B + b.val < A * B := by
  have ha := a.isLt
  have hb := b.isLt
  calc a.val * B + b.val < a.val * B + B := by omega
    _ = (a.val + 1) * B := by ring
    _ ≤ A * B := Nat.mul_le_mul_right B ha

/-- A sum over `A * B` columns is the sum over the `A` blocks of the sums over each block's `B` columns. -/
theorem sum_blocks (A B : ℕ) (f : Fin (A * B) → M) :
    ∑ k, f k = ∑ a : Fin A, ∑ b : Fin B, f ⟨a.val * B + b.val, idx_lt a b⟩ := by
  rw [← Equiv.sum_comp finProdFinEquiv f, Fintype.sum_prod_type]
  refine Finset.sum_congr rfl fun a _ => Finset.sum_congr rfl fun b _ => congrArg f (Fin.ext ?_)
  show b.val + B * a.val = a.val * B + b.val
  ring

/-- The same sum with the roles exchanged: over the `B` positions inside a block, of the sums over the blocks
    (rows numbered `a * B + j` gathered slab by slab, slab `j` holding the rows `a * B + j`). -/
theorem sum_interleaved (A B : ℕ) (f : Fin (A * B) → M) :
    ∑ k, f k = ∑ j : Fin B, ∑ a : Fin A, f ⟨a.val * B + j.val, idx_lt a j⟩ := by
  rw [sum_blocks, Finset.sum_comm]

/-- Padding rows whose terms vanish leave a sum as it was. -/
theorem sum_padded (K P : ℕ) (f : Fin (K + P) → M) (hz : ∀ k : Fin (K + P), K ≤ k.val → f k = 0) :
    ∑ k, f k = ∑ k : Fin K, f (Fin.castAdd P k) := by
  rw [Fin.sum_univ_add]
  have h0 : ∑ i : Fin P, f (Fin.natAdd K i) = 0 :=
    Finset.sum_eq_zero fun i _ => hz _ (by simp [Fin.natAdd])
  rw [h0, add_zero]

/-- An accumulator that starts from the first block's contribution and adds one block per step holds, after
    step `n`, the sum of the contributions of the blocks `0 … n`. -/
theorem acc_eq_sum (g : ℕ → M) (acc : ℕ → M) (h0 : acc 0 = g 0) (hs : ∀ n, acc (n + 1) = acc n + g (n + 1)) (n : ℕ) :
    acc n = ∑ i ∈ Finset.range (n + 1), g i := by
  induction n with
  | zero => simp [h0]
  | succ n ih => rw [hs, ih, Finset.sum_range_succ _ (n + 1)]

/-- The same for an accumulator zeroed before the first block is added. -/
theorem acc_from_zero_eq_sum (g : ℕ → M) (acc : ℕ → M) (h0 : acc 0 = 0 + g 0) (hs : ∀ n, acc (n + 1) = acc n + g (n + 1)) (n : ℕ) :
    acc n = ∑ i ∈ Finset.range (n + 1), g i :=
  acc_eq_sum g acc (by rw [h0, zero_add]) hs n

/-- The blocks `0 … A - 1` summed over a range are the blocks summed over `Fin A`. -/
theorem sum_range_eq_sum_fin (A : ℕ) (g : ℕ → M) : ∑ i ∈ Finset.range A, g i = ∑ a : Fin A, g a.val :=
  (Fin.sum_univ_eq_sum_range g A).symm

end BlockedSums
-- ==== Proof.Values1.lean ====
import proofs.«135057_j1580547971557_2_alg».proof.Proof.Values0
import proofs.«135057_j1580547971557_2_alg».proof.Proof.LibGroupExpand
import proofs.«135057_j1580547971557_2_alg».proof.Proof.LibBlockedSums

/-!
# The second region's arithmetic at an entry, over the extended reals

For a least distance `d` the body forms the slope `a = 1 / (1/2 · (max d 0 + ε))` and the offset `c = 2 - a` (the
literals spelt as the programs spell them); one trip adds to the scratch's entry `(n, p)` the sum, over the chunk's
512 positions `q`, of `exp (similarity · a + c)`, with `a`, `c` those of the block's row `(n, p)`.
-/

set_option maxRecDepth 16384

noncomputable section

namespace Cert.KernelIdeal.Values

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Cert.KernelIdeal.BodyOps

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- The slope for a least distance `d`, the literals as the programs spell them. -/
def slope (d : EReal) : EReal :=
  Ideal.div (Ideal.ofBits .f32 0x3F800000#32)
    (Ideal.ofBits .f32 0x3F000000#32 * (max d (Ideal.ofBits .f32 0x00000000#32) + Ideal.ofBits .f32 0x358637BD#32))

/-- The offset for a least distance `d`. -/
def offset (d : EReal) : EReal := Ideal.ofBits .f32 0x40000000#32 - slope d

theorem pay1_1_at (j : S8x512.Idx) : (k1_pay1 (F := Ideal)) j = 0 := by
  unfold k1_pay1
  rw [shapeCast_self]
  exact Ideal.ofBits_zero_f32

/-- One trip's update at entry `(n, p)`. -/
theorem pay1_2_at (d : FVec Ideal S8x512 .f32) (v26 v28 : FVec Ideal S8x256x512 .bf16) (v36 : FVec Ideal S8x512 .f32)
    (n : Fin 8) (p : Fin 512) :
    k1_pay2 (F := Ideal) d v26 v28 v36 (ix2 n p)
      = v36 (ix2 n p) + ∑ q : Fin 512,
          Ideal.exp ((∑ c : Fin 256, v28 (at3 n c p) * v26 (at3 n c q)) * slope (d (ix2 n p)) + offset (d (ix2 n p))) := by
  unfold k1_pay2
  simp only [shapeCast_self]
  refine (addf_apply v36 _ (ix2 n p)).trans ?_
  refine congrArg (fun z => v36 (ix2 n p) + z) ?_
  refine (rowsum_at _ n p).trans ?_
  refine Finset.sum_congr rfl fun q _ => ?_
  refine (exp_apply _ _).trans (congrArg Ideal.exp ?_)
  refine (addf_apply _ _ _).trans ?_
  refine congrArg₂ HAdd.hAdd ?_ ?_
  · refine (mulf_apply _ _ _).trans ?_
    refine congrArg₂ HMul.hMul (matmul_at v28 v26 n p q) ?_
    refine (Cert.LibGroupExpand.broadcastTo_ab1_abc_apply _ _ n p q).trans ?_
    refine (Cert.LibGroupExpand.shapeCast_ab_ab1_apply _ _ n p 0).trans ?_
    rfl
  · refine (Cert.LibGroupExpand.broadcastTo_ab1_abc_apply _ _ n p q).trans ?_
    refine (Cert.LibGroupExpand.shapeCast_ab_ab1_apply _ _ n p 0).trans ?_
    rfl

/-! ## Blocks and chunks at an entry -/

theorem idx_in1 : ∀ t : Fin cfg1.N,
    win1_0.index t (0 : Fin 3) = 0 ∧ win1_0.index t (1 : Fin 3) = 0 ∧ win1_0.index t (2 : Fin 3) = t.val
    ∧ win1_1.index t (0 : Fin 3) = 0 ∧ win1_1.index t (1 : Fin 3) = 0 ∧ win1_1.index t (2 : Fin 3) = 0
    ∧ win1_2.index t (0 : Fin 2) = 0 ∧ win1_2.index t (1 : Fin 2) = t.val :=
  (by decide +kernel : ∀ t : Fin grid1.N, _)

theorem blkX1_at (X : FVec Ideal S8x256x4096 .bf16) (t : Fin cfg1.N) (n : Fin 8) (c : Fin 256) (p : Fin 512)
    (hlt : 512 * t.val + p.val < 4096) :
    ((cfg1.win 0).blk t).view.read (Elt Ideal) X (at3 n c p) = X (ix3 n c ⟨512 * t.val + p.val, hlt⟩) := by
  obtain ⟨e0, e1, e2, -, -, -, -, -⟩ := idx_in1 t
  rw [View.read_apply]
  show X _ = X _
  refine congrArg X (funext fun a => Fin.ext ?_)
  match a with
  | ⟨0, _⟩ => show win1_0.index t (0 : Fin 3) * 8 + 1 * n.val = n.val; rw [e0]; omega
  | ⟨1, _⟩ => show win1_0.index t (1 : Fin 3) * 256 + 1 * c.val = c.val; rw [e1]; omega
  | ⟨2, _⟩ => show win1_0.index t (2 : Fin 3) * 512 + 1 * p.val = 512 * t.val + p.val; rw [e2]; omega

theorem blkY1_at (Y : FVec Ideal S8x256x4096 .bf16) (t : Fin cfg1.N) (n : Fin 8) (c : Fin 256) (j : Fin 4096) :
    ((cfg1.win 1).blk t).view.read (Elt Ideal) Y (ix3 n c j) = Y (ix3 n c j) := by
  obtain ⟨-, -, -, e0, e1, e2, -, -⟩ := idx_in1 t
  rw [View.read_apply]
  show Y _ = Y _
  refine congrArg Y (funext fun a => Fin.ext ?_)
  match a with
  | ⟨0, _⟩ => show win1_1.index t (0 : Fin 3) * 8 + 1 * n.val = n.val; rw [e0]; omega
  | ⟨1, _⟩ => show win1_1.index t (1 : Fin 3) * 256 + 1 * c.val = c.val; rw [e1]; omega
  | ⟨2, _⟩ => show win1_1.index t (2 : Fin 3) * 4096 + 1 * j.val = j.val; rw [e2]; omega

/-- Entry `(n, p)` of the least distances' block at point `t` is the array's entry `(n, 512t + p)`. -/
theorem blkD1_at (Dm : FVec Ideal S8x4096 .f32) (t : Fin cfg1.N) (n : Fin 8) (p : Fin 512) (hlt : 512 * t.val + p.val < 4096) :
    ((cfg1.win 2).blk t).view.read (Elt Ideal) Dm (ix2 n p) = Dm (ix2 n ⟨512 * t.val + p.val, hlt⟩) := by
  obtain ⟨-, -, -, -, -, -, e0, e1⟩ := idx_in1 t
  rw [View.read_apply]
  show Dm _ = Dm _
  refine congrArg Dm (funext fun a => Fin.ext ?_)
  match a with
  | ⟨0, _⟩ => show win1_2.index t (0 : Fin 2) * 8 + 1 * n.val = n.val; rw [e0]; omega
  | ⟨1, _⟩ => show win1_2.index t (1 : Fin 2) * 512 + 1 * p.val = 512 * t.val + p.val; rw [e1]; omega

theorem chunk1_at (x1 : FVec Ideal S8x256x4096 .bf16) (k : Fin k1_t1_loop.trips) (n : Fin 8) (q : Fin 512)
    (hlt : 512 * k.val + q.val < 4096) (c : Fin 256) :
    Region1.chunk (F := Ideal) x1 k (at3 n c q) = x1 (ix3 n c ⟨512 * k.val + q.val, hlt⟩) := by
  unfold Region1.chunk
  show x1 ((Rect.unit (s := S8x256x4096) (k1_off1 k) S8x256x512.size (Gen.k1_off1_inb k)).idx (at3 n c q)) = _
  refine congrArg x1 (funext fun a => Fin.ext ?_)
  have ho := k1_off1_eq k
  match a with
  | ⟨0, _⟩ => show k1_off1 k 0 + 1 * n.val = n.val; rw [ho]; show 0 + 1 * n.val = n.val; omega
  | ⟨1, _⟩ => show k1_off1 k 1 + 1 * c.val = c.val; rw [ho]; show 0 + 1 * c.val = c.val; omega
  | ⟨2, _⟩ => show k1_off1 k 2 + 1 * q.val = 512 * k.val + q.val; rw [ho]; show 512 * k.val + 1 * q.val = 512 * k.val + q.val; omega

/-! ## The running sum in closed form -/

/-- The weight of the block's position `p` against position `j` of the resident operand (zero past the end). -/
def wgt (d : FVec Ideal S8x512 .f32) (x0 : FVec Ideal S8x256x512 .bf16) (x1 : FVec Ideal S8x256x4096 .bf16)
    (n : Fin 8) (p : Fin 512) (j : ℕ) : EReal :=
  if h : j < 4096 then Ideal.exp (rowSim x0 x1 n p ⟨j, h⟩ * slope (d (ix2 n p)) + offset (d (ix2 n p))) else 0

theorem trips1 : k1_t1_loop.trips = 8 := by decide

theorem runSum1_eq (d : FVec Ideal S8x512 .f32) (x0 : FVec Ideal S8x256x512 .bf16) (x1 : FVec Ideal S8x256x4096 .bf16)
    (n : Fin 8) (p : Fin 512) :
    ∀ K : ℕ, K ≤ k1_t1_loop.trips →
      Region1.runSum (F := Ideal) d x0 x1 K (ix2 n p)
        = ∑ k ∈ Finset.range K, ∑ q : Fin 512, wgt d x0 x1 n p (512 * k + q.val) := by
  intro K
  induction K with
  | zero =>
    intro _
    rw [Region1.runSum, pay1_1_at, Finset.range_zero, Finset.sum_empty]
  | succ K ih =>
    intro hK
    have hK' : K < k1_t1_loop.trips := hK
    have h8 : K < 8 := by rw [trips1] at hK'; exact hK'
    rw [Region1.runSum, dif_pos hK', pay1_2_at, ih (Nat.le_of_lt hK'), Finset.sum_range_succ]
    refine congrArg (fun z => _ + z) (Finset.sum_congr rfl fun q _ => ?_)
    have hlt : 512 * K + q.val < 4096 := by have := q.isLt; omega
    unfold wgt rowSim
    rw [dif_pos hlt]
    simp only [chunk1_at x1 ⟨K, hK'⟩ n q hlt]

/-! ## The second region's array at an entry -/

/-- Eight chunks of 512 summed one after the other are all 4096 positions summed. -/
theorem sum_chunks (g : ℕ → EReal) :
    ∑ k ∈ Finset.range 8, ∑ q : Fin 512, g (512 * k + q.val) = ∑ j : Fin 4096, g j.val := by
  rw [BlockedSums.sum_range_eq_sum_fin 8 (fun k => ∑ q : Fin 512, g (512 * k + q.val))]
  have h := BlockedSums.sum_blocks 8 512 (fun k : Fin (8 * 512) => g k.val)
  rw [show (∑ j : Fin 4096, g j.val) = ∑ k : Fin (8 * 512), g k.val from rfl, h]
  refine Finset.sum_congr rfl fun a _ => Finset.sum_congr rfl fun b _ => ?_
  show g (512 * a.val + b.val) = g (a.val * 512 + b.val)
  rw [Nat.mul_comm]

/-- The second region's array at `(n, i)`: the sum over all positions `j` of the weights of row `(n, i)`, with the
    slope and offset of that row's least distance. -/
theorem out1_at (X Y : FVec Ideal S8x256x4096 .bf16) (Dm : FVec Ideal S8x4096 .f32) (n : Fin 8) (i : Fin 4096) :
    Chain.out1 (F := Ideal) X Y Dm (ix2 n i)
      = ∑ j : Fin 4096, Ideal.exp (sim X Y n i j * slope (Dm (ix2 n i)) + offset (Dm (ix2 n i))) := by
  have hi : i.val < 4096 := i.isLt
  have hp : i.val % 512 < 512 := Nat.mod_lt _ (by norm_num)
  unfold Chain.out1
  have hin : Region1.inBlk (ix2 n i) = ix2 n (⟨i.val % 512, hp⟩ : Fin 512) := by
    funext a; apply Fin.ext
    match a with
    | ⟨0, _⟩ => rfl
    | ⟨1, _⟩ => rfl
  have hD : ((cfg1.win 2).blk (Region1.ptOf (ix2 n i))).view.read (Elt Ideal) Dm (ix2 n (⟨i.val % 512, hp⟩ : Fin 512)) = Dm (ix2 n i) := by
    rw [blkD1_at Dm _ n _ (by show 512 * (i.val / 512) + i.val % 512 < 4096; omega)]
    exact congrArg (fun z => Dm (ix2 n z)) (Fin.ext (by show 512 * (i.val / 512) + i.val % 512 = i.val; omega))
  have hX : ∀ c : Fin 256, ((cfg1.win 0).blk (Region1.ptOf (ix2 n i))).view.read (Elt Ideal) X (at3 n c (⟨i.val % 512, hp⟩ : Fin 512)) = X (ix3 n c i) := by
    intro c
    rw [blkX1_at X _ n c _ (by show 512 * (i.val / 512) + i.val % 512 < 4096; omega)]
    exact congrArg (fun z => X (ix3 n c z)) (Fin.ext (by show 512 * (i.val / 512) + i.val % 512 = i.val; omega))
  have hsum : ∀ j : Fin 4096,
      rowSim (((cfg1.win 0).blk (Region1.ptOf (ix2 n i))).view.read (Elt Ideal) X)
          (((cfg1.win 1).blk (Region1.ptOf (ix2 n i))).view.read (Elt Ideal) Y) n (⟨i.val % 512, hp⟩ : Fin 512) j
        = sim X Y n i j :=
    fun j => Finset.sum_congr rfl fun c _ => by rw [hX c, blkY1_at]
  rw [hin, runSum1_eq _ _ _ n _ _ le_rfl, trips1, sum_chunks]
  refine Finset.sum_congr rfl fun j _ => ?_
  unfold wgt
  rw [dif_pos j.isLt, show (⟨j.val, j.isLt⟩ : Fin 4096) = j from rfl, hsum j, hD]

end Cert.KernelIdeal.Values

end
-- ==== Proof.Values2.lean ====
import proofs.«135057_j1580547971557_2_alg».proof.Proof.Values1

/-!
# The third region's arithmetic at an entry, over the extended reals

One trip replaces the scratch's entry `(n, q)` by the larger of it and the maximum, over the chunk's 512 positions
`p`, of `exp (similarity · a + (c - log s))`, where `a`, `c` are the slope and offset of the least distance of the
chunk's position `p` and `s` its sum of weights.
-/

set_option maxRecDepth 16384

noncomputable section

namespace Cert.KernelIdeal.Values

open Cert.KernelIdeal Cert.KernelIdeal.Gen Cert.KernelIdeal.Facts₀ Cert.KernelIdeal.Facts
open Idealize.ShloMosaic Idealize.ShloMosaic.TcCoe Idealize.ShloMosaic.ValueIdx Idealize.SL.Sem
open Cert.KernelIdeal.BodyOps

theorem pay2_1_at (j : S8x512.Idx) : (k2_pay1 (F := Ideal)) j = ⊥ := by
  unfold k2_pay1
  rw [shapeCast_self]
  exact lit_neg_inf

theorem pay2_2_eq (v : FVec Ideal S8x512 .f32) : k2_pay2 (F := Ideal) v = v := by
  unfold k2_pay2
  rw [shapeCast_self]

/-- One trip's update at entry `(n, q)`. -/
theorem pay2_3_at (v12 : FVec Ideal S8x256x512 .bf16) (v15 v18 : FVec Ideal S8x512 .f32) (v34 : FVec Ideal S8x256x512 .bf16)
    (v43 : FVec Ideal S8x512 .f32) (n : Fin 8) (q : Fin 512) :
    k2_pay3 (F := Ideal) v12 v15 v18 v34 v43 (ix2 n q)
      = max (v43 (ix2 n q)) (Finset.univ.fold max (⊥ : EReal) fun p : Fin 512 =>
          Ideal.exp ((∑ c : Fin 256, v12 (at3 n c p) * v34 (at3 n c q)) * slope (v15 (ix2 n p))
            + (offset (v15 (ix2 n p)) - Ideal.log (v18 (ix2 n p))))) := by
  unfold k2_pay3
  simp only [shapeCast_self]
  refine (maximumf_apply v43 _ (ix2 n q)).trans ?_
  refine congrArg (max (v43 (ix2 n q))) ?_
  refine (colmax_at _ n q).trans ?_
  refine congrArg (fun g => Finset.univ.fold max (⊥ : EReal) g) (funext fun p => ?_)
  refine (exp_apply _ _).trans (congrArg Ideal.exp ?_)
  refine (addf_apply _ _ _).trans ?_
  refine congrArg₂ HAdd.hAdd ?_ ?_
  · refine (mulf_apply _ _ _).trans ?_
    refine congrArg₂ HMul.hMul (matmul_at v12 v34 n p q) ?_
    refine (Cert.LibGroupExpand.broadcastTo_ab1_abc_apply _ _ n p q).trans ?_
    refine (Cert.LibGroupExpand.shapeCast_ab_ab1_apply _ _ n p 0).trans ?_
    rfl
  · refine (Cert.LibGroupExpand.broadcastTo_ab1_abc_apply _ _ n p q).trans ?_
    refine (Cert.LibGroupExpand.shapeCast_ab_ab1_apply _ _ n p 0).trans ?_
    rfl

/-! ## Blocks, chunks and slices at an entry -/

theorem idx_in2 : ∀ t : Fin cfg2.N,
    win2_0.index t (0 : Fin 3) = 0 ∧ win2_0.index t (1 : Fin 3) = 0 ∧ win2_0.index t (2 : Fin 3) = 0
    ∧ win2_1.index t (0 : Fin 3) = 0 ∧ win2_1.index t (1 : Fin 3) = 0 ∧ win2_1.index t (2 : Fin 3) = t.val
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

theorem blkX2_at (X : FVec Ideal S8x256x4096 .bf16) (t : Fin cfg2.N) (n : Fin 8) (c : Fin 256) (i : Fin 4096) :
    ((cfg2.win 0).blk t).view.read (Elt Ideal) X (ix3 n c i) = X (ix3 n c i) := by
  obtain ⟨e0, e1, e2, -, -, -, -, -, -, -⟩ := idx_in2 t
  rw [View.read_apply]
  show X _ = X _
  refine congrArg X (funext fun a => Fin.ext ?_)
  match a with
  | ⟨0, _⟩ => show win2_0.index t (0 : Fin 3) * 8 + 1 * n.val = n.val; rw [e0]; omega
  | ⟨1, _⟩ => show win2_0.index t (1 : Fin 3) * 256 + 1 * c.val = c.val; rw [e1]; omega
  | ⟨2, _⟩ => show win2_0.index t (2 : Fin 3) * 4096 + 1 * i.val = i.val; rw [e2]; omega

theorem blkY2_at (Y : FVec Ideal S8x256x4096 .bf16) (t : Fin cfg2.N) (n : Fin 8) (c : Fin 256) (q : Fin 512)
    (hlt : 512 * t.val + q.val < 4096) :
    ((cfg2.win 1).blk t).view.read (Elt Ideal) Y (at3 n c q) = Y (ix3 n c ⟨512 * t.val + q.val, hlt⟩) := by
  obtain ⟨-, -, -, e0, e1, e2, -, -, -, -⟩ := idx_in2 t
  rw [View.read_apply]
  show Y _ = Y _
  refine congrArg Y (funext fun a => Fin.ext ?_)
  match a with
  | ⟨0, _⟩ => show win2_1.index t (0 : Fin 3) * 8 + 1 * n.val = n.val; rw [e0]; omega
  | ⟨1, _⟩ => show win2_1.index t (1 : Fin 3) * 256 + 1 * c.val = c.val; rw [e1]; omega
  | ⟨2, _⟩ => show win2_1.index t (2 : Fin 3) * 512 + 1 * q.val = 512 * t.val + q.val; rw [e2]; omega

theorem blkD2_at (Dm : FVec Ideal S8x4096 .f32) (t : Fin cfg2.N) (n : Fin 8) (i : Fin 4096) :
    ((cfg2.win 2).blk t).view.read (Elt Ideal) Dm (ix2 n i) = Dm (ix2 n i) := by
  obtain ⟨-, -, -, -, -, -, e0, e1, -, -⟩ := idx_in2 t
  rw [View.read_apply]
  show Dm _ = Dm _
  refine congrArg Dm (funext fun a => Fin.ext ?_)
  match a with
  | ⟨0, _⟩ => show win2_2.index t (0 : Fin 2) * 8 + 1 * n.val = n.val; rw [e0]; omega
  | ⟨1, _⟩ => show win2_2.index t (1 : Fin 2) * 4096 + 1 * i.val = i.val; rw [e1]; omega

theorem blkS2_at (Sm : FVec Ideal S8x4096 .f32) (t : Fin cfg2.N) (n : Fin 8) (i : Fin 4096) :
    ((cfg2.win 3).blk t).view.read (Elt Ideal) Sm (ix2 n i) = Sm (ix2 n i) := by
  obtain ⟨-, -, -, -, -, -, -, -, e0, e1⟩ := idx_in2 t
  rw [View.read_apply]
  show Sm _ = Sm _
  refine congrArg Sm (funext fun a => Fin.ext ?_)
  match a with
  | ⟨0, _⟩ => show win2_3.index t (0 : Fin 2) * 8 + 1 * n.val = n.val; rw [e0]; omega
  | ⟨1, _⟩ => show win2_3.index t (1 : Fin 2) * 4096 + 1 * i.val = i.val; rw [e1]; omega

theorem chunk2_at (x0 : FVec Ideal S8x256x4096 .bf16) (k : Fin k2_t1_loop.trips) (n : Fin 8) (p : Fin 512)
    (hlt : 512 * k.val + p.val < 4096) (c : Fin 256) :
    Region2.chunk (F := Ideal) x0 k (at3 n c p) = x0 (ix3 n c ⟨512 * k.val + p.val, hlt⟩) := by
  unfold Region2.chunk
  show x0 ((Rect.unit (s := S8x256x4096) (k2_off1 k) S8x256x512.size (Gen.k2_off1_inb k)).idx (at3 n c p)) = _
  refine congrArg x0 (funext fun a => Fin.ext ?_)
  have ho := k2_off1_eq k
  match a with
  | ⟨0, _⟩ => show k2_off1 k 0 + 1 * n.val = n.val; rw [ho]; show 0 + 1 * n.val = n.val; omega
  | ⟨1, _⟩ => show k2_off1 k 1 + 1 * c.val = c.val; rw [ho]; show 0 + 1 * c.val = c.val; omega
  | ⟨2, _⟩ => show k2_off1 k 2 + 1 * p.val = 512 * k.val + p.val; rw [ho]; show 512 * k.val + 1 * p.val = 512 * k.val + p.val; omega

theorem slice2_at (x : FVec Ideal S8x4096 .f32) (k : Fin k2_t1_loop.trips) (n : Fin 8) (p : Fin 512)
    (hlt : 512 * k.val + p.val < 4096) :
    Region2.slice (F := Ideal) x k (ix2 n p) = x (ix2 n ⟨512 * k.val + p.val, hlt⟩) := by
  unfold Region2.slice
  show x ((Rect.unit (s := S8x4096) (k2_off2 k) S8x512.size (Gen.k2_off2_inb k)).idx (ix2 n p)) = _
  refine congrArg x (funext fun a => Fin.ext ?_)
  have ho := k2_off2_eq k
  match a with
  | ⟨0, _⟩ => show k2_off2 k 0 + 1 * n.val = n.val; rw [ho]; show 0 + 1 * n.val = n.val; omega
  | ⟨1, _⟩ => show k2_off2 k 1 + 1 * p.val = 512 * k.val + p.val; rw [ho]; show 512 * k.val + 1 * p.val = 512 * k.val + p.val; omega

/-! ## The running maximum in closed form -/

/-- The similarity of the resident operand's position `i` with the block's column `q`, in sample `n`. -/
def colSim (x0 : FVec Ideal S8x256x4096 .bf16) (x1 : FVec Ideal S8x256x512 .bf16) (n : Fin 8) (q : Fin 512) (i : Fin 4096) : EReal :=
  ∑ c : Fin 256, x0 (ix3 n c i) * x1 (at3 n c q)

/-- The normalized weight of the resident operand's position `i` against the block's column `q`, from the arrays of
    least distances `d` and sums `s`. -/
def colW (x0 : FVec Ideal S8x256x4096 .bf16) (x1 : FVec Ideal S8x256x512 .bf16) (d s : FVec Ideal S8x4096 .f32)
    (n : Fin 8) (q : Fin 512) (i : Fin 4096) : EReal :=
  Ideal.exp (colSim x0 x1 n q i * slope (d (ix2 n i)) + (offset (d (ix2 n i)) - Ideal.log (s (ix2 n i))))

theorem trips2 : k2_t1_loop.trips = 8 := by decide

theorem runMax2_le_iff (x0 : FVec Ideal S8x256x4096 .bf16) (x1 : FVec Ideal S8x256x512 .bf16) (d s : FVec Ideal S8x4096 .f32)
    (n : Fin 8) (q : Fin 512) (b : EReal) :
    ∀ K : ℕ, K ≤ k2_t1_loop.trips →
      (Region2.runMax (F := Ideal) x0 x1 d s K (ix2 n q) ≤ b ↔
        ∀ k, k < K → ∀ (p : Fin 512) (hlt : 512 * k + p.val < 4096), colW x0 x1 d s n q ⟨512 * k + p.val, hlt⟩ ≤ b) := by
  unfold colW colSim
  intro K
  induction K with
  | zero =>
    intro _
    rw [Region2.runMax, pay2_1_at]
    exact ⟨fun _ k hk => absurd hk (Nat.not_lt_zero k), fun _ => bot_le⟩
  | succ K ih =>
    intro hK
    have hK' : K < k2_t1_loop.trips := hK
    have h8 : K < 8 := by rw [trips2] at hK'; exact hK'
    rw [Region2.runMax, dif_pos hK', pay2_2_eq, pay2_3_at, max_le_iff, ih (Nat.le_of_lt hK'), Finset.fold_max_le]
    constructor
    · rintro ⟨h1, -, h2⟩ k hk p hlt
      rcases Nat.lt_succ_iff_lt_or_eq.mp hk with h | rfl
      · exact h1 k h p hlt
      · have h3 := h2 p (Finset.mem_univ p)
        simp only [chunk2_at x0 ⟨k, hK'⟩ n p hlt, slice2_at d ⟨k, hK'⟩ n p hlt, slice2_at s ⟨k, hK'⟩ n p hlt] at h3
        exact h3
    · intro h
      refine ⟨fun k hk p hlt => h k (Nat.lt_succ_of_lt hk) p hlt, bot_le, fun p _ => ?_⟩
      have hlt : 512 * K + p.val < 4096 := by have := p.isLt; omega
      simp only [chunk2_at x0 ⟨K, hK'⟩ n p hlt, slice2_at d ⟨K, hK'⟩ n p hlt, slice2_at s ⟨K, hK'⟩ n p hlt]
      exact h K (Nat.lt_succ_self K) p hlt

/-! ## The third region's array at an entry -/

/-- The third region's array at `(n, j)`: the largest, over all positions `i`, of the normalized weight of `(i, j)`,
    from the arrays of least distances `Dm` and sums `Sm`. -/
theorem out2_at (X Y : FVec Ideal S8x256x4096 .bf16) (Dm Sm : FVec Ideal S8x4096 .f32) (n : Fin 8) (j : Fin 4096) :
    Chain.out2 (F := Ideal) X Y Dm Sm (ix2 n j)
      = Finset.univ.fold max (⊥ : EReal) (fun i : Fin 4096 =>
          Ideal.exp (sim X Y n i j * slope (Dm (ix2 n i)) + (offset (Dm (ix2 n i)) - Ideal.log (Sm (ix2 n i))))) := by
  have hj : j.val < 4096 := j.isLt
  have hq : j.val % 512 < 512 := Nat.mod_lt _ (by norm_num)
  unfold Chain.out2
  have hin : Region2.inBlk (ix2 n j) = ix2 n (⟨j.val % 512, hq⟩ : Fin 512) := by
    funext a; apply Fin.ext
    match a with
    | ⟨0, _⟩ => rfl
    | ⟨1, _⟩ => rfl
  have hY : ∀ c : Fin 256, ((cfg2.win 1).blk (Region2.ptOf (ix2 n j))).view.read (Elt Ideal) Y (at3 n c (⟨j.val % 512, hq⟩ : Fin 512)) = Y (ix3 n c j) := by
    intro c
    rw [blkY2_at Y _ n c _ (by show 512 * (j.val / 512) + j.val % 512 < 4096; omega)]
    exact congrArg (fun z => Y (ix3 n c z)) (Fin.ext (by show 512 * (j.val / 512) + j.val % 512 = j.val; omega))
  have hcol : ∀ i : Fin 4096,
      colW (((cfg2.win 0).blk (Region2.ptOf (ix2 n j))).view.read (Elt Ideal) X)
          (((cfg2.win 1).blk (Region2.ptOf (ix2 n j))).view.read (Elt Ideal) Y)
          (((cfg2.win 2).blk (Region2.ptOf (ix2 n j))).view.read (Elt Ideal) Dm)
          (((cfg2.win 3).blk (Region2.ptOf (ix2 n j))).view.read (Elt Ideal) Sm) n (⟨j.val % 512, hq⟩ : Fin 512) i
        = Ideal.exp (sim X Y n i j * slope (Dm (ix2 n i)) + (offset (Dm (ix2 n i)) - Ideal.log (Sm (ix2 n i)))) := by
    intro i
    have hs : colSim (((cfg2.win 0).blk (Region2.ptOf (ix2 n j))).view.read (Elt Ideal) X)
          (((cfg2.win 1).blk (Region2.ptOf (ix2 n j))).view.read (Elt Ideal) Y) n (⟨j.val % 512, hq⟩ : Fin 512) i
        = sim X Y n i j :=
      Finset.sum_congr rfl fun c _ => by rw [blkX2_at, hY c]
    unfold colW
    rw [blkD2_at, blkS2_at, hs]
  rw [hin]
  refine eq_of_forall_ge_iff fun b => ?_
  rw [runMax2_le_iff _ _ _ _ n _ b _ le_rfl, Finset.fold_max_le]
  constructor
  · intro h
    refine ⟨bot_le, fun i _ => ?_⟩
    have hi : i.val < 4096 := i.isLt
    have hp : i.val % 512 < 512 := Nat.mod_lt _ (by norm_num)
    have hlt : 512 * (i.val / 512) + (⟨i.val % 512, hp⟩ : Fin 512).val < 4096 := by
      show 512 * (i.val / 512) + i.val % 512 < 4096; omega
    have h1 := h (i.val / 512) (by rw [trips2]; omega) ⟨i.val % 512, hp⟩ hlt
    rw [hcol] at h1
    have hi' : (⟨512 * (i.val / 512) + (⟨i.val % 512, hp⟩ : Fin 512).val, hlt⟩ : Fin 4096) = i :=
      Fin.ext (by show 512 * (i.val / 512) + i.val % 512 = i.val; omega)
    rw [hi'] at h1
    exact h1
  · rintro ⟨-, h⟩ k hk p hlt
    rw [hcol]
    exact h ⟨512 * k + p.val, hlt⟩ (Finset.mem_univ _)

end Cert.KernelIdeal.Values

end
-- ==== Proof.KernelValue.lean ====
import proofs.«135057_j1580547971557_2_alg».proof.Proof.Values2
import proofs.«135057_j1580547971557_2_alg».proof.Proof.CcxCore

/-!
# The first program's column maxima, in the form of the mathematical core

With the similarities of the two operands given as a table of real numbers, the third region's output array —
as the three regions chained compute it — is, entry by entry, the core's `kerMax` of that table: the three arrays
at an entry (`out0_at`, `out1_at`, `out2_at`) substituted into one another, and the literals read as real numbers.
-/

set_option maxRecDepth 16384

noncomputable section

namespace Cert.KernelIdeal.Values

open Cert.KernelIdeal Cert.KernelIdeal.Gen
open Idealize.ShloMosaic Idealize.ShloMosaic.TcCoe Idealize.ShloMosaic.ValueIdx
open Cert.KernelIdeal.BodyOps

theorem kernel_kerMax (X Y : FVec Ideal S8x256x4096 .bf16) (σ : Fin 8 → Fin 4096 → Fin 4096 → ℝ)
    (hσ : ∀ n i j, sim X Y n i j = ((σ n i j : ℝ) : EReal)) (ε : ℝ) (hε : Ideal.ofBits .f32 0x358637BD#32 = ((ε : ℝ) : EReal))
    (n : Fin 8) (j : Fin 4096) :
    Chain.out2 (F := Ideal) X Y (Chain.out0 X Y) (Chain.out1 X Y (Chain.out0 X Y)) (ix2 n j) = Cert.Ccx.kerMax (σ n) ε j := by
  rw [out2_at]
  unfold Cert.Ccx.kerMax
  refine congrArg (fun g => Finset.univ.fold max (⊥ : EReal) g) (funext fun i => ?_)
  rw [out1_at, out0_at]
  simp only [hσ, slope, offset, lit_one, lit_half, lit_zero, lit_two, hε, zero_add]

end Cert.KernelIdeal.Values

end
-- ==== Proof.Operands.lean ====
import proofs.«135057_j1580547971557_2_alg».proof.Proof.Gen.KernelIdeal.Frame
import proofs.«135057_j1580547971557_2_alg».proof.Proof.Gen.ReferenceIdeal.Read
import Idealize.ShloMosaic.Lib.StableHlo.Run
import Idealize.ShloMosaic.PureOps.Ideal

/-!
# The two operands are the reference's normalized arrays

Before its first region the first program applies to its arguments the same operations as the reference —
centring by the second argument's channel means, division by the channel norms, the merge of the two pixel axes —
and then a change of float format, which is the identity over the extended reals. So the operand arrays the first
region finds are the reference's two normalized arrays of the same arguments.
-/

set_option maxRecDepth 16384

noncomputable section

namespace Cert.KernelIdeal.Operands

open Idealize.ShloMosaic Idealize.ShloMosaic.TcCoe Idealize.SL.Sem Idealize.ShloMosaic.StableHlo
open Cert.KernelIdeal Cert.KernelIdeal.Gen Cert.KernelIdeal.Facts

variable (m : (ℓ : Loc nD τ sig) → Buf (Elt Ideal) ℓ) (ρ : Dev nD → PrngReg) (c : Dev nD)

set_option maxHeartbeats 40000000 in
theorem X_eq :
    V5 (F := Ideal) m ρ c main_v22
      = Cert.ReferenceIdeal.Read.val_main_v20 (F := Ideal) (m ((c.tc : Thread nD τ).loc main_arg0)) (m ((c.tc : Thread nD τ).loc main_arg1)) := by
  show StableHlo.after hostOps0_4 (W4 (F := Ideal) m ρ c) (Proc.devRef .tc main_v22) = _
  after_results
  rfl

set_option maxHeartbeats 40000000 in
theorem Y_eq :
    V5 (F := Ideal) m ρ c main_v23
      = Cert.ReferenceIdeal.Read.val_main_v21 (F := Ideal) (m ((c.tc : Thread nD τ).loc main_arg1)) := by
  show StableHlo.after hostOps0_4 (W4 (F := Ideal) m ρ c) (Proc.devRef .tc main_v23) = _
  after_results
  rfl

end Cert.KernelIdeal.Operands

end
-- ==== Proof.PreDecode.lean ====
import proofs.«135057_j1580547971557_2_alg».proof.Proof.Gen.ReferenceIdeal.Read
import proofs.«135057_j1580547971557_2_alg».proof.Proof.Gen.Pre_finite_inputs
import proofs.«135057_j1580547971557_2_alg».proof.Proof.BodyOps
import Idealize.ShloMosaic.Lib.ReduceAll
import Idealize.ShloMosaic.PureOps.Ideal.Laws

/-!
# What the precondition says about the norms

The precondition is the conjunction of four statements about the two arguments: every entry of each is finite, and
for each of the two centred arrays the norm of every channel vector (one per sample and pixel) is positive. The last
two are read here, in the reference's own terms: the sum of squares over the channels of the centred first
argument, at sample `n` and pixel `(h, w)`, has a positive square root; and likewise for the second argument.
-/

set_option maxRecDepth 16384

noncomputable section

namespace Cert.PreDecode

open Idealize.ShloMosaic Idealize.ShloMosaic.TcCoe Idealize.ShloMosaic.ValueIdx
open Cert.KernelIdeal.BodyOps (lit_zero)

instance : Subsingleton Cert.Pre_finite_inputs.S_.Idx := ⟨fun a b => funext fun d => d.elim0⟩

theorem cmp_ogt_eq_one (x y : EReal) : Ideal.cmp .ogt x y = 1#1 ↔ y < x := by
  unfold Ideal.cmp
  by_cases h : y < x <;> simp [h]

set_option maxHeartbeats 4000000 in
theorem norms_pos (a0 a1 : FVec Ideal Cert.Pre_finite_inputs.S8x256x64x64 .f32)
    (h : Cert.Pre_finite_inputs.fn (F := Ideal) a0 a1 = fun _ => 1#1) :
    (∀ i : Cert.ReferenceIdeal.S8x64x64.Idx, 0 < Ideal.sqrt (Cert.ReferenceIdeal.Read.val_main_call0_v1 (F := Ideal) a0 a1 i))
      ∧ (∀ i : Cert.ReferenceIdeal.S8x64x64.Idx, 0 < Ideal.sqrt (Cert.ReferenceIdeal.Read.val_main_call1_v1 (F := Ideal) a1 i)) := by
  have e := congrFun h ix0
  unfold Cert.Pre_finite_inputs.fn Cert.Pre_finite_inputs.fn_part1 Cert.Pre_finite_inputs.fn_part2 at e
  dsimp only at e
  obtain ⟨e29, e35⟩ := IntOp.andi_eq_one.mp e
  obtain ⟨-, e28⟩ := IntOp.andi_eq_one.mp e29
  constructor
  · intro i
    have h1 := Host.reduce_andi_all _ _ _ _ _ e28 i
    have h2 := (cmp_ogt_eq_one _ _).mp h1
    have h0 : (0 : EReal) = Ideal.ofBits .f32 0x00000000#32 := Ideal.ofBits_zero_f32.symm
    rw [h0]
    exact h2
  · intro i
    have h1 := Host.reduce_andi_all _ _ _ _ _ e35 i
    have h2 := (cmp_ogt_eq_one _ _).mp h1
    have h0 : (0 : EReal) = Ideal.ofBits .f32 0x00000000#32 := Ideal.ofBits_zero_f32.symm
    rw [h0]
    exact h2

end Cert.PreDecode

end
-- ==== Proof.RefRead.lean ====
import proofs.«135057_j1580547971557_2_alg».proof.Proof.Gen.ReferenceIdeal.Read
import proofs.«135057_j1580547971557_2_alg».proof.Proof.BodyOps

/-!
# The reference's arrays at an entry

With `A`, `B` the reference's two normalized operands ([8, 256, 4096] each) and
`rsim n i j = ∑ c, A (n, c, i) · B (n, c, j)` their similarities:

* the distances are `1 - rsim`;
* the least distance of row `(n, i)` is the fold of `min` from `+∞` over `j` of the distances.
-/

set_option maxRecDepth 16384

noncomputable section

namespace Cert.ReferenceIdeal.RefRead

open Cert.ReferenceIdeal Cert.ReferenceIdeal.Read Cert.ReferenceIdeal.Facts₀ Cert.ReferenceIdeal.Facts
open Idealize.ShloMosaic Idealize.ShloMosaic.TcCoe Idealize.ShloMosaic.ValueIdx
open Cert.KernelIdeal.BodyOps (lit_one lit_pos_inf lit_neg_inf lit_zero lit_half)

variable (x0 x1 : (⟨S8x256x64x64, .f32⟩ : BufTy).Contents (Elt Ideal))

/-- The similarity of the first operand's position `i` and the second's position `j` in sample `n`. -/
def rsim (n : Fin 8) (i j : Fin 4096) : EReal :=
  ∑ c : Fin 256, val_main_v20 (F := Ideal) x0 x1 (ix3 n c i) * val_main_v21 (F := Ideal) x1 (ix3 n c j)

theorem v22_at (n : Fin 8) (i j : Fin 4096) : val_main_v22 (F := Ideal) x0 x1 (ix3 n i j) = rsim x0 x1 n i j := by
  rw [val_main_v22_apply]
  refine Finset.sum_congr rfl fun k _ => ?_
  have el : lidx_main_v22 (ix3 n i j) k = ix3 n k i := funext fun a => Fin.ext (by
    match a with
    | ⟨0, _⟩ => rfl
    | ⟨1, _⟩ => rfl
    | ⟨2, _⟩ => rfl)
  have er : ridx_main_v22 (ix3 n i j) k = ix3 n k j := funext fun a => Fin.ext (by
    match a with
    | ⟨0, _⟩ => rfl
    | ⟨1, _⟩ => rfl
    | ⟨2, _⟩ => rfl)
  rw [el, er]

theorem v24_at (n : Fin 8) (i j : Fin 4096) :
    val_main_v24 (F := Ideal) x0 x1 (ix3 n i j) = ((1 : ℝ) : EReal) - rsim x0 x1 n i j := by
  rw [val_main_v24_apply, val_main_v23_apply, val_main_cst_5_apply, v22_at]
  show Ideal.ofBits .f32 0x3F800000#32 - _ = _
  rw [lit_one]

/-- The reduction over the last axis, as a shape fact of the other kind. -/
theorem red2 : S8x4096x4096.Reduces [2] S8x4096 := by decide

set_option backward.isDefEq.respectTransparency.types false in
theorem lift2 (n : Fin 8) (i j : Fin 4096) : red2.lift (ix2 n i) j = ix3 n i j := by
  funext c; apply Fin.ext
  show Shape.Reduces.liftVal red2 (ix2 n i) j.val c = (ix3 n i j c).val
  unfold Shape.Reduces.liftVal
  match c with
  | ⟨0, _⟩ => first | rfl | (simp; try rfl)
  | ⟨1, _⟩ => first | rfl | (simp; try rfl)
  | ⟨2, _⟩ => first | rfl | (simp; try rfl)

/-- The least distance of row `(n, i)`, as the fold the reduction is, over the reduced axis' own index type. -/
theorem dmin_fold (n : Fin 8) (i : Fin 4096) :
    val_main_v25 (F := Ideal) x0 x1 (ix2 n i)
      = (Finset.univ : Finset (Fin (S8x4096x4096.size 2))).fold (FloatOps.minimumf (F := Ideal) (φ := .f32))
          (val_main_cst_6 (F := Ideal) (Shape.Idx.first h_S_)) (val_main_v24 (F := Ideal) x0 x1 ∘ red2.lift (ix2 n i)) :=
  Host.reduce_eq_fold_single (FloatOps.minimumf (F := Ideal) (φ := .f32)) (val_main_v24 (F := Ideal) x0 x1) (val_main_cst_6 (F := Ideal))
    reducesTo_S8x4096x4096_S8x4096_d2 red2 h_S_ (ix2 n i)

theorem init_min : val_main_cst_6 (F := Ideal) (Shape.Idx.first h_S_) = ⊤ := by
  rw [val_main_cst_6_apply]; exact lit_pos_inf

theorem init_max : val_main_cst_11 (F := Ideal) (Shape.Idx.first h_S_) = ⊥ := by
  rw [val_main_cst_11_apply]; exact lit_neg_inf

/-- Dropping the last coordinate. -/
theorem drop2 (n : Fin 8) (i j : Fin 4096) : reducesTo_S8x4096x4096_S8x4096_d2.drop (ix3 n i j) = ix2 n i := by
  funext b; apply Fin.ext
  match b with
  | ⟨0, _⟩ => rfl
  | ⟨1, _⟩ => rfl

/-- Dropping the middle coordinate. -/
theorem drop1 (n : Fin 8) (i j : Fin 4096) : reducesTo_S8x4096x4096_S8x4096_d1.drop (ix3 n i j) = ix2 n j := by
  funext b; apply Fin.ext
  match b with
  | ⟨0, _⟩ => rfl
  | ⟨1, _⟩ => rfl

/-- The least distance of row `(n, i)` by its universal property: a lower bound of it is a lower bound of every
    distance of the row. -/
theorem le_dmin_iff (n : Fin 8) (i : Fin 4096) (b : EReal) :
    b ≤ val_main_v25 (F := Ideal) x0 x1 (ix2 n i) ↔ ∀ j : Fin 4096, b ≤ ((1 : ℝ) : EReal) - rsim x0 x1 n i j := by
  unfold val_main_v25
  rw [Host.reduce_eq_fold (FloatOps.minimumf (F := Ideal) (φ := .f32)), init_min]
  show b ≤ Finset.fold min (⊤ : EReal) (val_main_v24 (F := Ideal) x0 x1)
      (Finset.univ.filter fun i' => reducesTo_S8x4096x4096_S8x4096_d2.drop i' = ix2 n i) ↔ _
  rw [Finset.le_fold_min]
  constructor
  · intro h j
    have h1 := h.2 (ix3 n i j) (Finset.mem_filter.mpr ⟨Finset.mem_univ _, drop2 n i j⟩)
    rwa [v24_at] at h1
  · intro h
    refine ⟨le_top, fun i' hi' => ?_⟩
    have hd := (Finset.mem_filter.mp hi').2
    have h2 : (i' 2).val < 4096 := (i' 2).isLt
    have e : i' = ix3 n i (⟨(i' 2).val, h2⟩ : Fin 4096) := by
      funext a; apply Fin.ext
      match a with
      | ⟨0, _⟩ => exact congrArg Fin.val (congrFun hd 0)
      | ⟨1, _⟩ => exact congrArg Fin.val (congrFun hd 1)
      | ⟨2, _⟩ => rfl
    rw [e, v24_at]
    exact h _

/-- The least distance of row `(n, i)`: the fold of `min` from `+∞` over all positions. -/
theorem dmin_eq (n : Fin 8) (i : Fin 4096) :
    val_main_v25 (F := Ideal) x0 x1 (ix2 n i)
      = Finset.univ.fold min (⊤ : EReal) (fun j : Fin 4096 => ((1 : ℝ) : EReal) - rsim x0 x1 n i j) :=
  eq_of_forall_le_iff fun b => by
    rw [le_dmin_iff, Finset.le_fold_min]
    exact ⟨fun h => ⟨le_top, fun j _ => h j⟩, fun h j => h.2 j (Finset.mem_univ j)⟩

/-- The column maximum at `(n, j)` by its universal property. -/
theorem colmax_le_iff (n : Fin 8) (j : Fin 4096) (b : EReal) :
    val_main_v40 (F := Ideal) x0 x1 (ix2 n j) ≤ b ↔ ∀ i : Fin 4096, val_main_v39 (F := Ideal) x0 x1 (ix3 n i j) ≤ b := by
  unfold val_main_v40
  rw [Host.reduce_eq_fold (FloatOps.maximumf (F := Ideal) (φ := .f32)), init_max]
  show Finset.fold max (⊥ : EReal) (val_main_v39 (F := Ideal) x0 x1)
      (Finset.univ.filter fun i' => reducesTo_S8x4096x4096_S8x4096_d1.drop i' = ix2 n j) ≤ b ↔ _
  rw [Finset.fold_max_le]
  constructor
  · intro h i
    exact h.2 (ix3 n i j) (Finset.mem_filter.mpr ⟨Finset.mem_univ _, drop1 n i j⟩)
  · intro h
    refine ⟨bot_le, fun i' hi' => ?_⟩
    have hd := (Finset.mem_filter.mp hi').2
    have h1 : (i' 1).val < 4096 := (i' 1).isLt
    have e : i' = ix3 n (⟨(i' 1).val, h1⟩ : Fin 4096) j := by
      funext a; apply Fin.ext
      match a with
      | ⟨0, _⟩ => exact congrArg Fin.val (congrFun hd 0)
      | ⟨1, _⟩ => rfl
      | ⟨2, _⟩ => exact congrArg Fin.val (congrFun hd 1)
    rw [e]
    exact h _

/-- A weight: the exponential of the reference's exponent. -/
theorem v35_at (n : Fin 8) (i j : Fin 4096) :
    val_main_v35 (F := Ideal) x0 x1 (ix3 n i j)
      = Ideal.exp (Ideal.div (((1 : ℝ) : EReal) - Ideal.div (((1 : ℝ) : EReal) - rsim x0 x1 n i j)
          (val_main_v25 (F := Ideal) x0 x1 (ix2 n i) + Ideal.ofBits .f32 0x358637BD#32)) (((1/2 : ℝ)) : EReal)) := by
  rw [val_main_v35_apply, val_main_v34_apply, val_main_v33_apply, val_main_cst_9_apply, val_main_v32_apply,
    val_main_v31_apply, val_main_cst_8_apply, val_main_v30_apply, v24_at, val_main_v29_apply, val_main_v28_apply,
    val_main_v26_apply, val_main_v27_apply, val_main_cst_7_apply]
  have e : idx_main_v26 (idx_main_v29 (ix3 n i j)) = ix2 n i := funext fun a => Fin.ext (by
    match a with
    | ⟨0, _⟩ => rfl
    | ⟨1, _⟩ => rfl)
  rw [e]
  show Ideal.exp (Ideal.div (Ideal.ofBits .f32 0x3F800000#32 - Ideal.div _ (_ + Ideal.ofBits .f32 0x358637BD#32))
      (Ideal.ofBits .f32 0x3F000000#32)) = _
  rw [lit_one, lit_half]

/-- A row's sum of weights. -/
theorem v36_at (n : Fin 8) (i : Fin 4096) :
    val_main_v36 (F := Ideal) x0 x1 (ix2 n i) = (0 : EReal) + ∑ k : Fin 4096, val_main_v35 (F := Ideal) x0 x1 (ix3 n i k) := by
  rw [val_main_v36_apply, val_main_cst_10_apply, Ideal.ofBits_def, Ideal.ofBits_zero_f32]
  refine congrArg (fun z => (0 : EReal) + z) (Finset.sum_congr rfl fun k _ => ?_)
  have e : idx_main_v36 (ix2 n i) k = ix3 n i k := funext fun a => Fin.ext (by
    match a with
    | ⟨0, _⟩ => rfl
    | ⟨1, _⟩ => rfl
    | ⟨2, _⟩ => rfl)
  rw [e]

/-- A normalized weight. -/
theorem v39_at (n : Fin 8) (i j : Fin 4096) :
    val_main_v39 (F := Ideal) x0 x1 (ix3 n i j)
      = Ideal.div (val_main_v35 (F := Ideal) x0 x1 (ix3 n i j)) (val_main_v36 (F := Ideal) x0 x1 (ix2 n i)) := by
  rw [val_main_v39_apply, val_main_v38_apply, val_main_v37_apply]
  have e : idx_main_v37 (idx_main_v38 (ix3 n i j)) = ix2 n i := funext fun a => Fin.ext (by
    match a with
    | ⟨0, _⟩ => rfl
    | ⟨1, _⟩ => rfl)
  rw [e]; rfl

end Cert.ReferenceIdeal.RefRead

end
-- ==== Proof.UnitColumns.lean ====
import proofs.«135057_j1580547971557_2_alg».proof.Proof.CcxScalar

/-!
# A vector divided by its positive norm

`u` is a finite family of extended reals and `N = sqrt (0 + ∑ u²)` its norm as the programs compute it. If `N > 0`
then every `u c / N` is a real number and the squares of these quotients sum to at most one:

* if the sum of squares is a real number `t`, every `u c` is real (a square of `±∞` is `+∞`, and the squares are
  non-negative, so one infinite entry would make the sum `+∞`), `t > 0`, and the quotients form a unit vector;
* if the sum of squares is `+∞` then `N = +∞` and every quotient is `u c · (+∞)⁻¹ = u c · 0 = 0`.

So two such normalized families have an inner product of at most one.
-/

open Idealize.ShloMosaic

namespace Cert.Ccx

/-- A finite sum of reals formed on the extended reals is the real sum. -/
theorem zero_add_sum_coe' {α : Type*} (t : Finset α) (g : α → ℝ) :
    ∑ j ∈ t, ((g j : ℝ) : EReal) = ((∑ j ∈ t, g j : ℝ) : EReal) := by
  classical
  induction t using Finset.induction_on with
  | empty => simp
  | insert a t ha ih => rw [Finset.sum_insert ha, Finset.sum_insert ha, ih, EReal.coe_add]

/-- A square is non-negative on the extended reals. -/
theorem mul_self_nonneg_ereal (x : EReal) : 0 ≤ x * x := by
  induction x using EReal.rec with
  | bot => decide
  | top => decide
  | coe r => rw [← EReal.coe_mul]; exact EReal.coe_nonneg.mpr (mul_self_nonneg r)

/-- A square that is not `+∞` is the square of a real number. -/
theorem real_of_mul_self_ne_top (x : EReal) (h : x * x ≠ ⊤) : ∃ r : ℝ, x = (r : EReal) := by
  induction x using EReal.rec with
  | bot => exact absurd (by decide : (⊥ : EReal) * ⊥ = ⊤) h
  | top => exact absurd (by decide : (⊤ : EReal) * ⊤ = ⊤) h
  | coe r => exact ⟨r, rfl⟩

theorem normalized_real {ι : Type*} [Fintype ι] (u : ι → EReal)
    (hN : 0 < Ideal.sqrt ((0 : EReal) + ∑ c, u c * u c)) :
    ∃ v : ι → ℝ, (∀ c, Ideal.div (u c) (Ideal.sqrt ((0 : EReal) + ∑ c, u c * u c)) = ((v c : ℝ) : EReal)) ∧ ∑ c, v c * v c ≤ 1 := by
  rw [zero_add] at hN ⊢
  have hnn : ∀ c, 0 ≤ u c * u c := fun c => mul_self_nonneg_ereal (u c)
  have hT0 : 0 ≤ ∑ c, u c * u c := Finset.sum_nonneg fun c _ => hnn c
  induction hT : (∑ c, u c * u c) using EReal.rec with
  | bot => rw [hT] at hT0; exact absurd hT0 (by decide)
  | top =>
    refine ⟨fun _ => 0, fun c => ?_, by simp⟩
    rw [Ideal.sqrt_top]
    unfold Ideal.div
    rw [if_neg (by decide : (⊤ : EReal) ≠ 0), EReal.inv_top, mul_zero]
    rfl
  | coe t =>
    rw [hT] at hN hT0
    have ht0 : 0 ≤ t := EReal.coe_nonneg.mp hT0
    rw [Ideal.sqrt_coe, if_neg (not_lt.mpr ht0)] at hN ⊢
    have hs : 0 < Real.sqrt t := EReal.coe_pos.mp hN
    have htpos : 0 < t := Real.sqrt_pos.mp hs
    -- every entry is real
    have hreal : ∀ c, ∃ r : ℝ, u c = (r : EReal) := fun c => by
      refine real_of_mul_self_ne_top (u c) fun htop => ?_
      have hle : u c * u c ≤ ∑ c, u c * u c := Finset.single_le_sum (fun c _ => hnn c) (Finset.mem_univ c)
      rw [hT, htop] at hle
      exact absurd hle (by simp)
    choose w hw using hreal
    have hsum : ∑ c, w c * w c = t := by
      have h1 : ∑ c, u c * u c = ((∑ c, w c * w c : ℝ) : EReal) := by
        have := zero_add_sum_coe' Finset.univ (fun c => w c * w c)
        simpa [hw, EReal.coe_mul] using this
      exact EReal.coe_injective (h1.symm.trans hT)
    refine ⟨fun c => w c / Real.sqrt t, fun c => ?_, ?_⟩
    · rw [hw c, div_coe_coe _ _ hs.ne']
    · have : ∑ c, w c / Real.sqrt t * (w c / Real.sqrt t) = (∑ c, w c * w c) / t := by
        rw [Finset.sum_div]
        refine Finset.sum_congr rfl fun c _ => ?_
        rw [div_mul_div_comm, Real.mul_self_sqrt ht0]
      rw [this, hsum, div_self htpos.ne']

/-- The inner product of two families of squared norm at most one is at most one. -/
theorem inner_le_one' {ι : Type*} [Fintype ι] (u v : ι → ℝ) (hu : ∑ k, u k * u k ≤ 1) (hv : ∑ k, v k * v k ≤ 1) :
    ∑ k, u k * v k ≤ 1 := by
  have h := Finset.sum_mul_sq_le_sq_mul_sq Finset.univ u v
  have hu' : ∑ k, u k ^ 2 ≤ 1 := by simpa [sq] using hu
  have hv' : ∑ k, v k ^ 2 ≤ 1 := by simpa [sq] using hv
  have hu0 : 0 ≤ ∑ k, u k ^ 2 := Finset.sum_nonneg fun k _ => sq_nonneg _
  have hv0 : 0 ≤ ∑ k, v k ^ 2 := Finset.sum_nonneg fun k _ => sq_nonneg _
  have h1 : (∑ k, u k * v k) ^ 2 ≤ 1 := h.trans (by nlinarith)
  nlinarith [sq_nonneg (∑ k, u k * v k - 1), sq_nonneg (∑ k, u k * v k + 1)]

end Cert.Ccx
-- ==== Proof.Columns.lean ====
import proofs.«135057_j1580547971557_2_alg».proof.Proof.RefRead
import proofs.«135057_j1580547971557_2_alg».proof.Proof.UnitColumns

/-!
# The normalized arrays are real, with columns of norm at most one

Position `i < 4096` of a normalized array is pixel `(i / 64, i % 64)`. The reference's normalized array at
`(n, c, i)` is the centred array's entry at `(n, c, h, w)` divided by the square root of `0 +` the sum over the
channels of the squares of the centred entries at that sample and pixel. Where those square roots are positive,
every entry of the normalized arrays is a real number and every channel vector has squared norm at most one; so
every similarity is a real number that is at most one.
-/

set_option maxRecDepth 16384

noncomputable section

namespace Cert.ReferenceIdeal.Columns

open Cert.ReferenceIdeal Cert.ReferenceIdeal.Read Cert.ReferenceIdeal.Facts₀ Cert.ReferenceIdeal.Facts
open Idealize.ShloMosaic Idealize.ShloMosaic.TcCoe Idealize.ShloMosaic.ValueIdx
open Cert.ReferenceIdeal.RefRead

variable (x0 x1 : (⟨S8x256x64x64, .f32⟩ : BufTy).Contents (Elt Ideal))

/-- The pixel row and column of position `i`. -/
def hOf (i : Fin 4096) : Fin 64 := ⟨i.val / 64, by have := i.isLt; omega⟩
def wOf (i : Fin 4096) : Fin 64 := ⟨i.val % 64, Nat.mod_lt _ (by norm_num)⟩

theorem idx20 (n : Fin 8) (c : Fin 256) (i : Fin 4096) : idx_main_v20 (ix3 n c i) = ix4 n c (hOf i) (wOf i) := by
  funext a; apply Fin.ext
  have hn := n.isLt; have hc := c.isLt; have hi := i.isLt
  match a with
  | ⟨0, _⟩ => show ((n.val * 256 + c.val) * 4096 + i.val) / 1048576 = n.val; omega
  | ⟨1, _⟩ => show ((n.val * 256 + c.val) * 4096 + i.val) / 4096 % 256 = c.val; omega
  | ⟨2, _⟩ => show ((n.val * 256 + c.val) * 4096 + i.val) / 64 % 64 = i.val / 64; omega
  | ⟨3, _⟩ => show ((n.val * 256 + c.val) * 4096 + i.val) % 64 = i.val % 64; omega

theorem idx21 (n : Fin 8) (c : Fin 256) (i : Fin 4096) : idx_main_v21 (ix3 n c i) = ix4 n c (hOf i) (wOf i) := by
  funext a; apply Fin.ext
  have hn := n.isLt; have hc := c.isLt; have hi := i.isLt
  match a with
  | ⟨0, _⟩ => show ((n.val * 256 + c.val) * 4096 + i.val) / 1048576 = n.val; omega
  | ⟨1, _⟩ => show ((n.val * 256 + c.val) * 4096 + i.val) / 4096 % 256 = c.val; omega
  | ⟨2, _⟩ => show ((n.val * 256 + c.val) * 4096 + i.val) / 64 % 64 = i.val / 64; omega
  | ⟨3, _⟩ => show ((n.val * 256 + c.val) * 4096 + i.val) % 64 = i.val % 64; omega

/-- The sum of squares over the channels at sample `n`, pixel `(h, w)`, for the first argument. -/
theorem sumsq0 (n : Fin 8) (h w : Fin 64) :
    val_main_call0_v1 (F := Ideal) x0 x1 (ix3 n h w)
      = (0 : EReal) + ∑ k : Fin 256, val_main_v11 (F := Ideal) x0 x1 (ix4 n k h w) * val_main_v11 (F := Ideal) x0 x1 (ix4 n k h w) := by
  rw [val_main_call0_v1_apply, val_main_call0_cst_apply, Ideal.ofBits_def, Ideal.ofBits_zero_f32]
  refine congrArg (fun z => (0 : EReal) + z) (Finset.sum_congr rfl fun k _ => ?_)
  rw [val_main_call0_v0_apply]
  have e : idx_main_call0_v1 (ix3 n h w) k = ix4 n k h w := funext fun a => Fin.ext (by
    match a with
    | ⟨0, _⟩ => rfl
    | ⟨1, _⟩ => rfl
    | ⟨2, _⟩ => rfl
    | ⟨3, _⟩ => rfl)
  rw [e]; rfl

theorem sumsq1 (n : Fin 8) (h w : Fin 64) :
    val_main_call1_v1 (F := Ideal) x1 (ix3 n h w)
      = (0 : EReal) + ∑ k : Fin 256, val_main_v13 (F := Ideal) x1 (ix4 n k h w) * val_main_v13 (F := Ideal) x1 (ix4 n k h w) := by
  rw [val_main_call1_v1_apply, val_main_call1_cst_apply, Ideal.ofBits_def, Ideal.ofBits_zero_f32]
  refine congrArg (fun z => (0 : EReal) + z) (Finset.sum_congr rfl fun k _ => ?_)
  rw [val_main_call1_v0_apply]
  have e : idx_main_call1_v1 (ix3 n h w) k = ix4 n k h w := funext fun a => Fin.ext (by
    match a with
    | ⟨0, _⟩ => rfl
    | ⟨1, _⟩ => rfl
    | ⟨2, _⟩ => rfl
    | ⟨3, _⟩ => rfl)
  rw [e]; rfl

/-- An entry of the first normalized array: the centred entry over its pixel's norm. -/
theorem A_at (n : Fin 8) (c : Fin 256) (i : Fin 4096) :
    val_main_v20 (F := Ideal) x0 x1 (ix3 n c i)
      = Ideal.div (val_main_v11 (F := Ideal) x0 x1 (ix4 n c (hOf i) (wOf i)))
          (Ideal.sqrt (val_main_call0_v1 (F := Ideal) x0 x1 (ix3 n (hOf i) (wOf i)))) := by
  rw [val_main_v20_apply, idx20, val_main_v16_apply, val_main_v15_apply, val_main_v14_apply, val_main_call0_v2_apply]
  have e : idx_main_call0_v2 (idx_main_v15 (ix4 n c (hOf i) (wOf i))) = ix3 n (hOf i) (wOf i) := funext fun a => Fin.ext (by
    match a with
    | ⟨0, _⟩ => rfl
    | ⟨1, _⟩ => rfl
    | ⟨2, _⟩ => rfl)
  rw [e]; rfl

theorem B_at (n : Fin 8) (c : Fin 256) (i : Fin 4096) :
    val_main_v21 (F := Ideal) x1 (ix3 n c i)
      = Ideal.div (val_main_v13 (F := Ideal) x1 (ix4 n c (hOf i) (wOf i)))
          (Ideal.sqrt (val_main_call1_v1 (F := Ideal) x1 (ix3 n (hOf i) (wOf i)))) := by
  rw [val_main_v21_apply, idx21, val_main_v19_apply, val_main_v18_apply, val_main_v17_apply, val_main_call1_v2_apply]
  have e : idx_main_call1_v2 (idx_main_v18 (ix4 n c (hOf i) (wOf i))) = ix3 n (hOf i) (wOf i) := funext fun a => Fin.ext (by
    match a with
    | ⟨0, _⟩ => rfl
    | ⟨1, _⟩ => rfl
    | ⟨2, _⟩ => rfl)
  rw [e]; rfl

/-- Where the norms are positive, the similarities are a table of real numbers that are at most one. -/
theorem sims_real
    (h0 : ∀ i : S8x64x64.Idx, 0 < Ideal.sqrt (val_main_call0_v1 (F := Ideal) x0 x1 i))
    (h1 : ∀ i : S8x64x64.Idx, 0 < Ideal.sqrt (val_main_call1_v1 (F := Ideal) x1 i)) :
    ∃ σ : Fin 8 → Fin 4096 → Fin 4096 → ℝ, (∀ n i j, rsim x0 x1 n i j = ((σ n i j : ℝ) : EReal)) ∧ ∀ n i j, σ n i j ≤ 1 := by
  have hA : ∀ (n : Fin 8) (i : Fin 4096), ∃ v : Fin 256 → ℝ,
      (∀ c, val_main_v20 (F := Ideal) x0 x1 (ix3 n c i) = ((v c : ℝ) : EReal)) ∧ ∑ c, v c * v c ≤ 1 := by
    intro n i
    have hN := h0 (ix3 n (hOf i) (wOf i))
    rw [sumsq0] at hN
    obtain ⟨v, hv, hs⟩ := Cert.Ccx.normalized_real (fun k => val_main_v11 (F := Ideal) x0 x1 (ix4 n k (hOf i) (wOf i))) hN
    exact ⟨v, fun c => by rw [A_at, sumsq0]; exact hv c, hs⟩
  have hB : ∀ (n : Fin 8) (j : Fin 4096), ∃ v : Fin 256 → ℝ,
      (∀ c, val_main_v21 (F := Ideal) x1 (ix3 n c j) = ((v c : ℝ) : EReal)) ∧ ∑ c, v c * v c ≤ 1 := by
    intro n j
    have hN := h1 (ix3 n (hOf j) (wOf j))
    rw [sumsq1] at hN
    obtain ⟨v, hv, hs⟩ := Cert.Ccx.normalized_real (fun k => val_main_v13 (F := Ideal) x1 (ix4 n k (hOf j) (wOf j))) hN
    exact ⟨v, fun c => by rw [B_at, sumsq1]; exact hv c, hs⟩
  choose α hα hαs using hA
  choose β hβ hβs using hB
  refine ⟨fun n i j => ∑ c, α n i c * β n j c, fun n i j => ?_, fun n i j => Cert.Ccx.inner_le_one' _ _ (hαs n i) (hβs n j)⟩
  unfold rsim
  simp only [hα, hβ, ← EReal.coe_mul]
  exact Cert.Ccx.zero_add_sum_coe' Finset.univ _

end Cert.ReferenceIdeal.Columns

end
-- ==== Proof.RefValue.lean ====
import proofs.«135057_j1580547971557_2_alg».proof.Proof.RefRead
import proofs.«135057_j1580547971557_2_alg».proof.Proof.CcxCore

/-!
# The reference's column maxima, in the form of the mathematical core

With the reference's similarities a table `σ` of real numbers, its array of column maxima is, entry by entry, the
core's `refMax` of that table: the column maximum by its universal property, and inside it the normalized weight,
the row sum, the weight and the least distance read at an entry.
-/

set_option maxRecDepth 16384

noncomputable section

namespace Cert.ReferenceIdeal.RefRead

open Cert.ReferenceIdeal Cert.ReferenceIdeal.Read
open Idealize.ShloMosaic Idealize.ShloMosaic.TcCoe Idealize.ShloMosaic.ValueIdx

theorem ref_refMax (x0 x1 : (⟨S8x256x64x64, .f32⟩ : BufTy).Contents (Elt Ideal))
    (σ : Fin 8 → Fin 4096 → Fin 4096 → ℝ) (hσ : ∀ n i j, rsim x0 x1 n i j = ((σ n i j : ℝ) : EReal))
    (ε : ℝ) (hε : Ideal.ofBits .f32 0x358637BD#32 = ((ε : ℝ) : EReal)) (n : Fin 8) (j : Fin 4096) :
    val_main_v40 (F := Ideal) x0 x1 (ix2 n j) = Cert.Ccx.refMax (σ n) ε j := by
  unfold Cert.Ccx.refMax
  refine eq_of_forall_ge_iff fun b => ?_
  rw [colmax_le_iff, Finset.fold_max_le]
  simp only [v39_at, v36_at, v35_at, dmin_eq, hσ, hε]
  exact ⟨fun h => ⟨bot_le, fun i _ => h i⟩, fun h i => h.2 i (Finset.mem_univ i)⟩

end Cert.ReferenceIdeal.RefRead

end
-- ==== Proof.lean ====
/-
  The two programs compute the contextual-similarity loss of two feature maps `x, y : [8, 256, 64, 64]`:
  centre both by `y`'s per-channel mean, normalize every channel vector (one per sample and pixel, 4096 pixels) to
  unit length, form the cosine similarities `s[n, i, j]` of `x`'s pixel `i` with `y`'s pixel `j`, turn the distances
  `1 - s` into weights relative to each row's least distance, normalize the weights along each row, take each
  column's largest normalized weight, and average `-log` of the column means.

  The reference does this on whole [8, 4096, 4096] arrays. The other program makes three passes over tiles:
  row maxima of `s` (hence the least distances), row sums of the weights with the exponent folded into
  `s·a + c` and the least distance clamped at zero, and column maxima with the division by the row sum folded
  into the exponential as `- log`. Over the extended reals these agree wherever every centred channel vector is
  non-zero (the precondition): then `s ≤ 1` by Cauchy–Schwarz, the least distances are non-negative (the clamp is the
  identity), all quantities are real numbers, the row sums are positive, and the folded forms are the reference's.

  Structure. Both programs end with the same operations on an [8, 4096] array of column maxima (`Tail.lean`); the
  first program's array after its third region is an explicit function of the two normalized operands
  (`Region0/1/2.lean`: each body as a function of its blocks, by induction on the loop's trips; `Array0/1/2.lean`:
  the eight blocks tile the array; `Chain.lean`: the regions composed); `KeepResult.lean` is the run with the
  result kept; `CcxScalar.lean`, `CcxCore.lean` and `UnitColumns.lean` are the mathematics; `BodyOps.lean` reads the bodies'
  product and reductions at an index, `Values0/1/2.lean` and `KernelValue.lean` the three arrays; `Operands.lean` identifies
  the operands with the reference's normalized arrays; `PreDecode.lean` and `Columns.lean` turn the precondition into
  "every similarity is a real number at most one"; `RefRead.lean` and `RefValue.lean` read the reference at an entry.
-/
import proofs.«135057_j1580547971557_2_alg».proof.Defs
import proofs.«135057_j1580547971557_2_alg».proof.Proof.Gen.Kernel
import proofs.«135057_j1580547971557_2_alg».proof.Proof.Gen.Kernel.Skeleton
import proofs.«135057_j1580547971557_2_alg».proof.Proof.Gen.Kernel.Loops
import proofs.«135057_j1580547971557_2_alg».proof.Proof.Gen.Kernel.Launch
import proofs.«135057_j1580547971557_2_alg».proof.Proof.Gen.Kernel.Points
import proofs.«135057_j1580547971557_2_alg».proof.Proof.Gen.Kernel.Frame
import proofs.«135057_j1580547971557_2_alg».proof.Proof.Gen.KernelIdeal
import proofs.«135057_j1580547971557_2_alg».proof.Proof.Gen.KernelIdeal.Skeleton
import proofs.«135057_j1580547971557_2_alg».proof.Proof.Gen.KernelIdeal.Loops
import proofs.«135057_j1580547971557_2_alg».proof.Proof.Gen.KernelIdeal.Launch
import proofs.«135057_j1580547971557_2_alg».proof.Proof.Gen.KernelIdeal.Points
import proofs.«135057_j1580547971557_2_alg».proof.Proof.Gen.KernelIdeal.Frame
import proofs.«135057_j1580547971557_2_alg».proof.Proof.Gen.ReferenceIdeal
import proofs.«135057_j1580547971557_2_alg».proof.Proof.Gen.ReferenceIdeal.Run
import proofs.«135057_j1580547971557_2_alg».proof.Proof.Gen.ReferenceIdeal.Read
import proofs.«135057_j1580547971557_2_alg».proof.Proof.Gen.Pre_finite_inputs
import proofs.«135057_j1580547971557_2_alg».proof.Proof.KeepResult
import proofs.«135057_j1580547971557_2_alg».proof.Proof.Tail
import proofs.«135057_j1580547971557_2_alg».proof.Proof.Chain
import proofs.«135057_j1580547971557_2_alg».proof.Proof.BodyOps
import proofs.«135057_j1580547971557_2_alg».proof.Proof.CcxCore
import proofs.«135057_j1580547971557_2_alg».proof.Proof.KernelValue
import proofs.«135057_j1580547971557_2_alg».proof.Proof.Operands
import proofs.«135057_j1580547971557_2_alg».proof.Proof.PreDecode
import proofs.«135057_j1580547971557_2_alg».proof.Proof.Columns
import proofs.«135057_j1580547971557_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

/-- THE ARRAY EQUATION: under the precondition, what the third region leaves in its output array is the
    reference's array of column maxima of the arguments. -/
theorem arrays_eq (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.Gen.W8 (F := Ideal) m ρ c (Proc.devRef .tc Cert.KernelIdeal.main_v26)
      = Cert.ReferenceIdeal.Read.val_main_v40 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  -- the precondition: positive norms, hence a real table of similarities, each at most one
  obtain ⟨h0, h1⟩ := Cert.PreDecode.norms_pos _ _ (hpre c)
  obtain ⟨σ, hσ, hσ1⟩ := Cert.ReferenceIdeal.Columns.sims_real _ _ h0 h1
  obtain ⟨ε, hε0, hε⟩ := Cert.KernelIdeal.BodyOps.lit_eps
  -- the third region's array as a function of the two operands, which are the reference's normalized arrays
  refine (Cert.KernelIdeal.Chain.V8_v26 m ρ c).trans ?_
  rw [Cert.KernelIdeal.Operands.X_eq, Cert.KernelIdeal.Operands.Y_eq]
  funext idx
  obtain ⟨n, j, rfl⟩ : ∃ (n : Fin 8) (j : Fin 4096), idx = ValueIdx.ix2 n j := ⟨idx 0, idx 1, ValueIdx.eq_ix2 idx⟩
  rw [Cert.KernelIdeal.Values.kernel_kerMax _ _ σ hσ ε hε n j, Cert.Ccx.kerMax_eq_refMax (σ n) (hσ1 n) ε hε0 j]
  exact (Cert.ReferenceIdeal.RefRead.ref_refMax _ _ σ hσ ε hε n j).symm

theorem algebraic : Cert.algebraic_KernelIdeal_ReferenceIdeal := by
  intro m ρ m' ρ' hpre hagree
  refine ⟨fun c => Cert.KernelIdeal.Gen.W9 (F := Ideal) m ρ c (Proc.devRef .tc Cert.KernelIdeal.main_v35),
    Cert.KernelIdeal.Result.run_result m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Gen.W9 (F := Ideal) m ρ c (Proc.devRef .tc Cert.KernelIdeal.main_v35)
  rw [Cert.ReferenceIdeal.Read.val_main_v49_eq, (hagree c).1, (hagree c).2, Cert.Ccx.reference_result,
    Cert.Ccx.kernel_result, arrays_eq m ρ hpre c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
